-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x7x2048x2048 : Shape := ⟨4, ![2, 7, 2048, 2048]⟩
abbrev S_ : Shape := ⟨0, ![]⟩

class Facts : Prop where
  bcast_S_S2x7x2048x2048 : S_.BroadcastsInDim S2x7x2048x2048 (![] : Fin 0 → Fin S2x7x2048x2048.rank)
  reducesTo_S2x7x2048x2048_S_d0_1_2_3 : S2x7x2048x2048.ReducesTo [0, 1, 2, 3] S_
  h_S_ : 0 < S_.numel

variable [Facts]

def fn {F : FTy → Type} [FloatOps F] (main_arg0 : FVec F S2x7x2048x2048 .f32) : IVec S_ 1 :=
  let main_v0 : FVec F S2x7x2048x2048 .f32 := Host.absf main_arg0
  let main_cst : FVec F S_ .f32 := constant S_ .f32 0x7F800000#32
  let main_v1 : FVec F S2x7x2048x2048 .f32 := broadcastInDim S2x7x2048x2048 ![] bcast_S_S2x7x2048x2048 main_cst
  let main_v2 : IVec S2x7x2048x2048 1 := cmpf .olt main_v0 main_v1
  let main_c : IVec S_ 1 := constantI S_ 1 1#1
  let main_v3 : IVec S_ 1 := (fun x v => Host.reduce IntOp.andi x v reducesTo_S2x7x2048x2048_S_d0_1_2_3 h_S_) main_v2 main_c
  main_v3
-- ==== Kernel.lean ====
abbrev S2x7x2048x2048 : Shape := ⟨4, ![2, 7, 2048, 2048]⟩
abbrev S28672x2048 : Shape := ⟨2, ![28672, 2048]⟩
abbrev S16384x2048 : Shape := ⟨2, ![16384, 2048]⟩
abbrev S3x16x2048 : Shape := ⟨3, ![3, 16, 2048]⟩
abbrev S3 : Shape := ⟨1, ![3]⟩
abbrev S1x16x2048 : Shape := ⟨3, ![1, 16, 2048]⟩
abbrev S16x2048 : Shape := ⟨2, ![16, 2048]⟩
abbrev S1 : Shape := ⟨1, ![1]⟩
abbrev S_ : Shape := ⟨0, ![]⟩
abbrev S8x2048x2048 : Shape := ⟨3, ![8, 2048, 2048]⟩

abbrev nBuf : Table → Nat
  | .hbm => 4
  | .local .scVector .vmem => 1
  | _ => 0

abbrev bufTy : (tb : Table) → Fin (nBuf tb) → BufTy
  | .hbm, ⟨0, _⟩ => ⟨S2x7x2048x2048, .f32⟩
  | .hbm, ⟨1, _⟩ => ⟨S28672x2048, .f32⟩
  | .hbm, ⟨2, _⟩ => ⟨S16384x2048, .f32⟩
  | .hbm, ⟨3, _⟩ => ⟨S8x2048x2048, .f32⟩
  | .local .scVector .vmem, ⟨0, _⟩ => ⟨S3x16x2048, .f32⟩
  | _, _ => ⟨S2x7x2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_18 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32 : BitVec 32 := 3#32
  let c0_i32_5 : BitVec 32 := 0#32
  let v20 : BitVec 1 := Scalar.cmpi .sgt v18 c0_i32_5
  let v21 : BitVec 32 := Scalar.extui v20
  let c0_i32_6 : BitVec 32 := 0#32
  let v22 : BitVec 1 := Scalar.cmpi .slt v18 c0_i32_6
  let v23 : BitVec 32 := Scalar.extui v22
  let v24 : BitVec 32 := Scalar.subi v21 v23
  let c4_i32_4 : BitVec 32 := 4#32
  let c0_i32_7 : BitVec 32 := 0#32
  let v25 : BitVec 1 := Scalar.cmpi .sgt c4_i32_4 c0_i32_7
  let v26 : BitVec 32 := Scalar.extui v25
  let c0_i32_8 : BitVec 32 := 0#32
  let v27 : BitVec 1 := Scalar.cmpi .slt c4_i32_4 c0_i32_8
  let v28 : BitVec 32 := Scalar.extui v27
  let v29 : BitVec 32 := Scalar.subi v26 v28
  let v30 : BitVec 1 := Scalar.cmpi .ne v24 v29
  let v31 : BitVec 32 := Scalar.remsi v18 c4_i32_4
  let c0_i32_9 : BitVec 32 := 0#32
  let v32 : BitVec 1 := Scalar.cmpi .ne v31 c0_i32_9
  let v33 : BitVec 1 := Scalar.andi v30 v32
  let v19 : BitVec 32 := Scalar.divsi v18 c4_i32_4
  let c1_i32_10 : BitVec 32 := 1#32
  let v34 : BitVec 32 := Scalar.subi v19 c1_i32_10
  let v35 : BitVec 32 := Scalar.select v33 v34 v19
  let v36 : BitVec 32 := Scalar.muli c3_i32 v35
  let v37 : BitVec 32 := Scalar.addi v18 v36
  let c2048_i32 : BitVec 32 := 2048#32
  let v49 : BitVec 32 := Scalar.muli v37 c2048_i32
  let c4_i32_11 : BitVec 32 := 4#32
  let c0_i32_12 : BitVec 32 := 0#32
  let v38 : BitVec 1 := Scalar.cmpi .eq c4_i32_11 c0_i32_12
  let c1_i32_13 : BitVec 32 := 1#32
  let v39 : BitVec 32 := Scalar.select v38 c1_i32_13 c4_i32_11
  let v40 : BitVec 32 := Scalar.remsi v1 v39
  let c0_i32_15 : BitVec 32 := 0#32
  let v42 : BitVec 1 := Scalar.cmpi .slt v40 c0_i32_15
  let c0_i32_16 : BitVec 32 := 0#32
  let v43 : BitVec 1 := Scalar.cmpi .slt v39 c0_i32_16
  let v44 : BitVec 1 := Scalar.xori v42 v43
  let c0_i32_14 : BitVec 32 := 0#32
  let v41 : BitVec 1 := Scalar.cmpi .ne v40 c0_i32_14
  let v45 : BitVec 1 := Scalar.andi v44 v41
  let v46 : BitVec 32 := Scalar.addi v40 v39
  let v47 : BitVec 32 := Scalar.select v45 v46 v40
  let c512_i32 : BitVec 32 := 512#32
  let v48 : BitVec 32 := Scalar.muli v47 c512_i32
  let v50 : BitVec 32 := Scalar.addi v49 v48
  let v52 : BitVec 32 := Scalar.addi v50 c0_i32_18
  let c0_i32_23 : BitVec 32 := 0#32
  ![v52.toNat, 0]
def k0_off2 (i : grid0.Coords) (c0_i32_52 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_17 : BitVec 32 := 512#32
  let v51 : BitVec 32 := Scalar.muli v1 c512_i32_17
  let v88 : BitVec 32 := Scalar.addi v51 c0_i32_52
  let c0_i32_57 : BitVec 32 := 0#32
  ![v88.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S2x7x2048x2048_S28672x2048 : S2x7x2048x2048.ShapeCasts S28672x2048
  inb_S3x16x2048_S1x16x2048_0_0_0 : ∀ a, (![0, 0, 0] : Fin 3 → Nat) a + S1x16x2048.size a ≤ S3x16x2048.size a
  squeezes_S1x16x2048_S16x2048 : S1x16x2048.Squeezes S16x2048
  inb_S3_S1_0 : ∀ a, (![0] : Fin 1 → Nat) a + S1.size a ≤ S3.size a
  squeezes_S1_S_ : S1.Squeezes S_
  inb_S3x16x2048_S1x16x2048_1_0_0 : ∀ a, (![1, 0, 0] : Fin 3 → Nat) a + S1x16x2048.size a ≤ S3x16x2048.size a
  inb_S3_S1_1 : ∀ a, (![1] : Fin 1 → Nat) a + S1.size a ≤ S3.size a
  inb_S3x16x2048_S1x16x2048_2_0_0 : ∀ a, (![2, 0, 0] : Fin 3 → Nat) a + S1x16x2048.size a ≤ S3x16x2048.size a
  inb_S3_S1_2 : ∀ a, (![2] : Fin 1 → Nat) a + S1.size a ≤ S3.size a
  shapeCasts_S16384x2048_S8x2048x2048 : S16384x2048.ShapeCasts S8x2048x2048
  hcc0_scratch1 : 0 + S3.numel ≤ 6
  hcc0_scratch2 : 3 + S3.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 32), ∀ a, (k0_off1 i (BitVec.ofNat 32 (16 * r.val))) a + S16x2048.size a ≤ S28672x2048.size a
  k0_off2_inb : ∀ i : grid0.Coords, ∀ (r : Fin 32), ∀ a, (k0_off2 i (BitVec.ofNat 32 (16 * r.val))) a + S16x2048.size a ≤ S16384x2048.size a

variable [Facts₀]

abbrev cc0_scratch1 : DmaSems sig S3 := SemArray.consecutive 0 S3 hcc0_scratch1
abbrev cc0_scratch2 : DmaSems sig S3 := SemArray.consecutive 3 S3 hcc0_scratch2

class Facts : Prop extends Facts₀ where

variable [Facts]
-- ==== ReferenceIdeal.lean ====
abbrev S2x7x2048x2048 : Shape := ⟨4, ![2, 7, 2048, 2048]⟩
abbrev S8 : Shape := ⟨1, ![8]⟩
abbrev S_ : Shape := ⟨0, ![]⟩
abbrev S8x1 : Shape := ⟨2, ![8, 1]⟩
abbrev S8x2 : Shape := ⟨2, ![8, 2]⟩
abbrev S8x2048x2048 : Shape := ⟨3, ![8, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x7x2048x2048, .f32⟩
  | .hbm, ⟨1, _⟩ => ⟨S8, .i32⟩
  | .hbm, ⟨2, _⟩ => ⟨S8, .i1⟩
  | .hbm, ⟨3, _⟩ => ⟨S8, .i32⟩
  | .hbm, ⟨4, _⟩ => ⟨S8, .i1⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S8x1, .i32⟩
  | .hbm, ⟨14, _⟩ => ⟨S8x1, .i32⟩
  | .hbm, ⟨15, _⟩ => ⟨S8x2, .i32⟩
  | .hbm, ⟨16, _⟩ => ⟨S8x2048x2048, .f32⟩
  | _, _ => ⟨S2x7x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  gather_S2x7x2048x2048_S8x2_S8x2048x2048_12_01_n_n_01_1_1120482048_wf : GatherDims.WF S2x7x2048x2048 S8x2 S8x2048x2048 [1, 2] [0, 1] [] [0, 1] [] 1 ![1, 1, 2048, 2048]

variable [Facts₀]

def gather_S2x7x2048x2048_S8x2_S8x2048x2048_12_01_n_n_01_1_1120482048 : GatherDims S2x7x2048x2048 S8x2 S8x2048x2048 where
  offsetDims := [1, 2]
  collapsedSliceDims := [0, 1]
  operandBatchingDims := []
  startIndicesBatchingDims := []
  startIndexMap := [0, 1]
  indexVectorDim := 1
  sliceSizes := ![1, 1, 2048, 2048]
  wf := gather_S2x7x2048x2048_S8x2_S8x2048x2048_12_01_n_n_01_1_1120482048_wf

class Facts : Prop extends Facts₀ where

variable [Facts]
-- ==== Proof.KernelBase.lean ====
/-
  The copy kernel's certificate, first part: the program as the launch theorem sees it, the ghost state, and the
  pieces of memory a task works on, spelt as the kernel's body slices them.

  The kernel reads `x` as a flat array of 28672 rows of 2048 words and writes a flat array of 16384 rows. Worker
  `w = 2 s + c` (vector subcore `s` of SparseCore `c`, 32 workers) copies the 512 rows `512 w ‥ 512 w + 511` of the
  result from the 512 rows of `x` that start at row `512 w + 6144 (w / 16)`, sixteen rows (a chunk) at a time
  through a ring of three 16-row slots of its own vector memory: chunk `k` lands in slot `k % 3` on that slot's
  fetch semaphore and leaves it on that slot's write-back semaphore, so per semaphore one copy is in flight at a time.
-/
import proofs.«211868_g61933428409095_cont_9to1c4b_524_16_alg».proof.Defs
import Idealize.ShloMosaic.Lib.SparseCore.Launch
import Idealize.ShloMosaic.Lib.StableHlo.Run
import Idealize.ShloMosaic.Lib.Pipeline.Kit
import Idealize.ShloMosaic.Lib.Tactic
import proofs.«211868_g61933428409095_cont_9to1c4b_524_16_alg».proof.Proof.Gen.Kernel
import proofs.«211868_g61933428409095_cont_9to1c4b_524_16_alg».proof.Proof.Gen.Kernel.Skeleton

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Places and memrefs -/

/-- The flat view of `x` (the kernel's operand), the flat result (its output), as the TensorCore places them. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The kernel's memrefs, as the body table passes them. -/
abbrev xV : Memref sig .scVector .hbm S28672x2048 .f32 := Memref.whole main_v0_scv
abbrev oV : Memref sig .scVector .hbm S16384x2048 .f32 := Memref.whole main_v1_scv
abbrev sV : Memref sig .scVector .vmem S3x16x2048 .f32 := Memref.whole cc0_scratch0

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Chunk `w / 16` of the worker's 512 result rows, as the body slices it (`w` the row offset as a word). -/
abbrev oCk (L : grid0.Coords) (w : BitVec 32) (h : ∀ a, (k0_off2 L w) a + S16x2048.size a ≤ S16384x2048.size a) :
    Memref sig .scVector .hbm S16x2048 .f32 :=
  (oV).slice (Rect.unit (s := S16384x2048) (k0_off2 L w) S16x2048.size h) (fun _ => rfl)

/-- The same chunk of the worker's 512 source rows. -/
abbrev xCk (L : grid0.Coords) (w : BitVec 32) (h : ∀ a, (k0_off1 L w) a + S16x2048.size a ≤ S28672x2048.size a) :
    Memref sig .scVector .hbm S16x2048 .f32 :=
  (xV).slice (Rect.unit (s := S28672x2048) (k0_off1 L w) S16x2048.size h) (fun _ => rfl)

/-- Slot `k` of the ring, as the body slices and squeezes it. -/
abbrev slot (k : Nat) (h : ∀ a, (![k, 0, 0] : Fin 3 → Nat) a + S1x16x2048.size a ≤ S3x16x2048.size a) :
    Memref sig .scVector .vmem S16x2048 .f32 :=
  ((sV).slice (Rect.unit (s := S3x16x2048) ![k, 0, 0] S1x16x2048.size h) (fun _ => rfl)).squeeze S16x2048 squeezes_S1x16x2048_S16x2048

/-- The six DMA semaphores a task names: the fetch semaphores 0‥2, the write-back semaphores 3‥5. -/
abbrev csem (k : Nat) (hk : k < 6 := by decide) : DmaSem sig := ⟨k, hk⟩

end Cert.Proof.Kernel

end
-- ==== Proof.Spec.lean ====
/-
  The specification, over no program: the result as ONE function of the argument array.
  The boolean mask of shape [2, 7] keeps columns 0..3 of each of its two rows; listed in row-major order the
  eight kept positions are (0,0) (0,1) (0,2) (0,3) (1,0) (1,1) (1,2) (1,3), so slab `s` of the result is slab
  `(s / 4, s % 4)` of the argument, every 2048 x 2048 element of it in place.
-/
import Idealize.ShloMosaic.Lib.ValueIdx

noncomputable section

namespace Cert.Spec

open Idealize.ShloMosaic Idealize.ShloMosaic.ValueIdx

/-- The mask row of result slab `s`. -/
abbrev srcRow (s : Fin 8) : Fin 2 := ⟨s.val / 4, by omega⟩
/-- The mask column of result slab `s`. -/
abbrev srcCol (s : Fin 8) : Fin 7 := ⟨s.val % 4, by omega⟩

/-- The result array as a function of the argument array: element `(s, r, k)` is the argument's element
    `(s / 4, s % 4, r, k)`. -/
def G {α : Type} (x : (⟨4, ![2, 7, 2048, 2048]⟩ : Shape).Idx → α) : (⟨3, ![8, 2048, 2048]⟩ : Shape).Idx → α :=
  fun j => x (ix4 (srcRow (j 0)) (srcCol (j 0)) (j 1) (j 2))

theorem G_apply {α : Type} (x : (⟨4, ![2, 7, 2048, 2048]⟩ : Shape).Idx → α) (s : Fin 8) (r k : Fin 2048) :
    G x (ix3 s r k) = x (ix4 (srcRow s) (srcCol s) r k) := rfl

/-- The same function on the flat arrays the kernel works on (`x` as 28672 rows of 2048 words, the result as 16384
    rows): result row `R` is source row `R + 6144 (R / 8192)` — the first 8192 rows are the first four slabs of mask row
    0, the last 8192 the first four slabs of mask row 1, which start three slabs (6144 rows) further on. -/
def GF {α : Type} (y : (⟨2, ![28672, 2048]⟩ : Shape).Idx → α) : (⟨2, ![16384, 2048]⟩ : Shape).Idx → α :=
  fun j => y (ix2 ⟨(j 0).val + 6144 * ((j 0).val / 8192), by have := idx2_lt0 j; omega⟩ (j 1))

end Cert.Spec

end
-- ==== Proof.KernelGeom.lean ====
import proofs.«211868_g61933428409095_cont_9to1c4b_524_16_alg».proof.Proof.KernelBase
import proofs.«211868_g61933428409095_cont_9to1c4b_524_16_alg».proof.Proof.Spec
import Idealize.ShloMosaic.Lib.ValueIdx

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.ValueIdx

local notation "𝕄" => MT nD τ sig (HIx 1) (Elt F) ℕ UU ℕ

/-! # The geometry of the copy: which rows each worker's chunks are, and what lands in them

Worker `(c, i)` (SparseCore `c`, vector subcore `i`) is worker number `w = 2 i + c`. Its chunk `r` (of 32) is the 16
result rows from `512 w + 16 r = 1024 i + 512 c + 16 r`, fetched from the 16 source rows from
`512 w + 6144 (w / 16) + 16 r`. The 2 · 16 · 32 chunks tile the result; the three ring slots tile the scratch. -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

theorem coords_eta (L : grid0.Coords) : coordsV (L 0) (L 1) = L :=
  funext fun a => match a with | 0 => rfl | 1 => rfl

/-! ## The source offset in closed form -/

/-- The first source row of chunk `r` of worker `(c, i)`: the printed chain of signed divisions and remainders,
    evaluated at each of the 2 · 16 · 32 places. -/
theorem off1_closed : ∀ (c : Fin 2) (i : Fin 16) (r : Fin 32),
    k0_off1 (coordsV c i) (BitVec.ofNat 32 (16 * r.val)) 0
      = 512 * (2 * i.val + c.val) + 6144 * ((2 * i.val + c.val) / 16) + 16 * r.val := by
  decide +kernel

theorem off1_zero (L : grid0.Coords) (r : Fin 32) :
    k0_off1 L (BitVec.ofNat 32 (16 * r.val)) 0
      = 512 * (2 * (L 1).val + (L 0).val) + 6144 * ((2 * (L 1).val + (L 0).val) / 16) + 16 * r.val := by
  have h := off1_closed (L 0) (L 1) r
  rwa [coords_eta L] at h

theorem off2_zero (L : grid0.Coords) (r : Fin 32) :
    k0_off2 L (BitVec.ofNat 32 (16 * r.val)) 0 = 1024 * (L 1).val + 512 * (L 0).val + 16 * r.val := by
  rw [k0_off2_eq]; rfl

/-! ## The result's chunks -/

theorem oInb (c : Fin 2) (i : Fin 16) (r : Fin 32) :
    ∀ a, (![1024 * i.val + 512 * c.val + 16 * r.val, 0] : Fin 2 → Nat) a + S16x2048.size a ≤ S16384x2048.size a :=
  Rect.inb₂ (by show 1024 * i.val + 512 * c.val + 16 * r.val + 16 ≤ 16384; omega) (by show 0 + 2048 ≤ 2048; omega)

/-- Chunk `r` of worker `(c, i)`: sixteen whole rows of the result. -/
abbrev oRect (c : Fin 2) (i : Fin 16) (r : Fin 32) : Rect S16384x2048 :=
  Rect.unit (s := S16384x2048) ![1024 * i.val + 512 * c.val + 16 * r.val, 0] S16x2048.size (oInb c i r)

def oSet (c : Fin 2) (i : Fin 16) (r : Fin 32) : Finset S16384x2048.Idx := (oRect c i r).set

theorem oSet_disjoint : ∀ p ∈ (Finset.univ : Finset (Fin 2 × Fin 16 × Fin 32)), ∀ p' ∈ (Finset.univ : Finset (Fin 2 × Fin 16 × Fin 32)),
    p ≠ p' → Disjoint (oSet p.1 p.2.1 p.2.2) (oSet p'.1 p'.2.1 p'.2.2) := by
  rintro ⟨c, i, r⟩ - ⟨c', i', r'⟩ - h
  have hc := c.isLt; have hc' := c'.isLt; have hr := r.isLt; have hr' := r'.isLt
  by_cases hlt : 64 * i.val + 32 * c.val + r.val < 64 * i'.val + 32 * c'.val + r'.val
  · exact Rect.unit_disjoint 0 (.inl (by
      show 1024 * i.val + 512 * c.val + 16 * r.val + 16 ≤ 1024 * i'.val + 512 * c'.val + 16 * r'.val; omega))
  · by_cases hgt : 64 * i'.val + 32 * c'.val + r'.val < 64 * i.val + 32 * c.val + r.val
    · exact Rect.unit_disjoint 0 (.inr (by
        show 1024 * i'.val + 512 * c'.val + 16 * r'.val + 16 ≤ 1024 * i.val + 512 * c.val + 16 * r.val; omega))
    · exact absurd (Prod.ext (Fin.ext (by show c.val = c'.val; omega))
        (Prod.ext (Fin.ext (by show i.val = i'.val; omega)) (Fin.ext (by show r.val = r'.val; omega)))) h

theorem oSet_cover : (Finset.univ : Finset (Fin 2 × Fin 16 × Fin 32)).biUnion (fun p => oSet p.1 p.2.1 p.2.2) = Finset.univ := by
  ext j
  simp only [Finset.mem_biUnion, Finset.mem_univ, true_and, iff_true]
  have h0 := idx2_lt0 j; have h1 := idx2_lt1 j
  refine ⟨(⟨(j 0).val / 16 / 32 % 2, by omega⟩, ⟨(j 0).val / 16 / 64, by omega⟩, ⟨(j 0).val / 16 % 32, by omega⟩),
    Rect.mem_set_unit.mpr fun a => ?_⟩
  match a with
  | 0 => exact ⟨by show 1024 * ((j 0).val / 16 / 64) + 512 * ((j 0).val / 16 / 32 % 2) + 16 * ((j 0).val / 16 % 32) ≤ (j 0).val; omega,
      by show (j 0).val < 1024 * ((j 0).val / 16 / 64) + 512 * ((j 0).val / 16 / 32 % 2) + 16 * ((j 0).val / 16 % 32) + 16; omega⟩
  | 1 => exact ⟨Nat.zero_le _, by show (j 1).val < 0 + 2048; omega⟩

/-- The chunk as the body slices it is the chunk. -/
theorem set_oCk (L : grid0.Coords) (r : Fin 32) :
    (oCk L (BitVec.ofNat 32 (16 * r.val)) (k0_off2_inb L r)).view.set = oSet (cL L) (iL L) r := by
  show ((View.whole (main_v1_scv : Ref sig .scVector)).slice (Rect.unit (s := S16384x2048) (k0_off2 L (BitVec.ofNat 32 (16 * r.val))) S16x2048.size (k0_off2_inb L r))).set = _
  rw [View.set_slice]
  refine Finset.map_refl.trans ?_
  unfold oSet oRect
  congr 1
  simp only [k0_off2_eq]
  rfl

/-! ## The ring's slots -/

theorem sInb (k : Fin 3) : ∀ a, (![k.val, 0, 0] : Fin 3 → Nat) a + S1x16x2048.size a ≤ S3x16x2048.size a := by
  intro a
  match a with
  | 0 => show k.val + 1 ≤ 3; omega
  | 1 => show 0 + 16 ≤ 16; omega
  | 2 => show 0 + 2048 ≤ 2048; omega

def sSet (k : Fin 3) : Finset S3x16x2048.Idx := (Rect.unit (s := S3x16x2048) ![k.val, 0, 0] S1x16x2048.size (sInb k)).set

theorem sSet_disjoint : ∀ k ∈ (Finset.univ : Finset (Fin 3)), ∀ k' ∈ (Finset.univ : Finset (Fin 3)), k ≠ k' → Disjoint (sSet k) (sSet k') := by
  intro k _ k' _ h
  have : k.val ≠ k'.val := fun e => h (Fin.ext e)
  exact Rect.unit_disjoint 0 (by show k.val + 1 ≤ k'.val ∨ k'.val + 1 ≤ k.val; omega)

theorem sSet_cover : (Finset.univ : Finset (Fin 3)).biUnion sSet = Finset.univ := by
  ext j
  simp only [Finset.mem_biUnion, Finset.mem_univ, true_and, iff_true]
  refine ⟨⟨(j 0).val, (j 0).isLt⟩, Rect.mem_set_unit.mpr fun a => ?_⟩
  match a with
  | 0 => exact ⟨Nat.le_refl _, Nat.lt_succ_self _⟩
  | 1 => exact ⟨Nat.zero_le _, by have h1 : (j 1).val < 16 := (j 1).isLt; show (j 1).val < 0 + 16; omega⟩
  | 2 => exact ⟨Nat.zero_le _, by have h2 : (j 2).val < 2048 := (j 2).isLt; show (j 2).val < 0 + 2048; omega⟩

theorem set_slot (k : Fin 3) (h : ∀ a, (![k.val, 0, 0] : Fin 3 → Nat) a + S1x16x2048.size a ≤ S3x16x2048.size a) :
    (slot k.val h).view.set = sSet k := by
  show (((View.whole (cc0_scratch0 : Ref sig .scVector)).slice (Rect.unit (s := S3x16x2048) ![k.val, 0, 0] S1x16x2048.size h)).reshape S16x2048
    squeezes_S1x16x2048_S16x2048.numel_eq).set = _
  rw [View.set_reshape, View.set_slice]
  exact Finset.map_refl

/-! ## What a landed copy reads back -/

/-- A view written whole last reads back what was written. -/
theorem read_writes_whole {sig' : RefSig} {κ : Kind} {sp : Space} {s : Shape} {e : EltTy} {Val : EltTy → Type}
    (v : View sig' κ sp s e) (f : BufTy.Contents Val v.ty) (w : (Rect.whole s).shape.Idx → Val e) (Ls : List (View.Piece Val s e)) :
    View.read Val v (v.writes Val f (⟨Rect.whole s, w⟩ :: Ls)) = w := by
  funext x
  have h := View.read_writes_cons_emb v f (Rect.whole s) w Ls x
  rwa [Rect.emb_whole_apply] at h

/-- Two contents that read the same through a view agree on the view's elements. -/
theorem eqOn_set_of_read_eq {sig' : RefSig} {κ : Kind} {sp : Space} {s : Shape} {e : EltTy} {Val : EltTy → Type}
    (v : View sig' κ sp s e) (f g : BufTy.Contents Val v.ty) (h : View.read Val v f = View.read Val v g) :
    ∀ j ∈ v.set, f j = g j := by
  intro j hj
  obtain ⟨y, -, rfl⟩ := Finset.mem_map.mp hj
  exact (cast_inj _).mp (congrFun h y)

/-- Row by row, a result chunk's elements are the source chunk's, and the source chunk is where the flat
    specification reads: `GF` at an element of the result chunk is `x` at the matching element of the source chunk. -/
theorem chunk_value (L : grid0.Coords) (r : Fin 32) {α : Type} (fx : S28672x2048.Idx → α) (y : S16x2048.Idx) :
    Cert.Spec.GF fx ((oCk L (BitVec.ofNat 32 (16 * r.val)) (k0_off2_inb L r)).view.emb y)
      = fx ((xCk L (BitVec.ofNat 32 (16 * r.val)) (k0_off1_inb L r)).view.emb y) := by
  unfold Cert.Spec.GF
  congr 1
  funext a
  have hy0 := idx2_lt0 y
  have hL0 : (L 0).val < 2 := (L 0).isLt
  have hL1 : (L 1).val < 16 := (L 1).isLt
  have hr := r.isLt
  match a with
  | 0 =>
    refine Fin.ext ?_
    show (k0_off2 L (BitVec.ofNat 32 (16 * r.val)) 0 + 1 * (y 0).val)
        + 6144 * ((k0_off2 L (BitVec.ofNat 32 (16 * r.val)) 0 + 1 * (y 0).val) / 8192)
      = k0_off1 L (BitVec.ofNat 32 (16 * r.val)) 0 + 1 * (y 0).val
    rw [off2_zero, off1_zero]
    omega
  | 1 =>
    refine Fin.ext ?_
    show k0_off2 L (BitVec.ofNat 32 (16 * r.val)) 1 + 1 * (y 1).val = k0_off1 L (BitVec.ofNat 32 (16 * r.val)) 1 + 1 * (y 1).val
    rfl

end Cert.Proof.Kernel

end
-- ==== Proof.KernelBody.lean ====
import proofs.«211868_g61933428409095_cont_9to1c4b_524_16_alg».proof.Proof.KernelBase
import proofs.«211868_g61933428409095_cont_9to1c4b_524_16_alg».proof.Proof.KernelGeom

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.ValueIdx

local notation "𝕄" => MT nD τ sig (HIx 1) (Elt F) ℕ UU ℕ

/-! # One worker's task

The task's pieces, in the body's own spelling: its share of the flat `x` as three read tokens (one per fetch
semaphore: up to three fetches read `x` at once), its 32 result chunks, the three ring slots, its six DMA semaphores
at zero. The symbolic run issues and waits the 64 copies; what each result chunk then holds is read back through the
two copies that filled it: the slot's contents after the fetch are the source chunk, and the chunk's after the
write-back are the slot's. -/

variable [FloatOps F] (d : Dev nD) (L : grid0.Coords)

/-- The flat specification at the buffers' types. -/
abbrev GFb (fx : Buf (Elt F) (xLoc d)) : Buf (Elt F) (oLoc d) := Cert.Spec.GF (α := Elt F .f32) fx

/-- The worker's 32 result chunks, each held by exactly its own elements, all at the contents `f`. -/
def Ochunks (f : Buf (Elt F) (oLoc d)) : sProp 𝕄 :=
  iprop(
      ((oCk L 0#32 (k0_off2_inb L 0)).view.loc (VT d L) ↦[(oCk L 0#32 (k0_off2_inb L 0)).view.set]{fullShare} f)
    ∗
      ((oCk L 16#32 (k0_off2_inb L 1)).view.loc (VT d L) ↦[(oCk L 16#32 (k0_off2_inb L 1)).view.set]{fullShare} f)
    ∗
      ((oCk L 32#32 (k0_off2_inb L 2)).view.loc (VT d L) ↦[(oCk L 32#32 (k0_off2_inb L 2)).view.set]{fullShare} f)
    ∗
      ((oCk L 48#32 (k0_off2_inb L 3)).view.loc (VT d L) ↦[(oCk L 48#32 (k0_off2_inb L 3)).view.set]{fullShare} f)
    ∗
      ((oCk L 64#32 (k0_off2_inb L 4)).view.loc (VT d L) ↦[(oCk L 64#32 (k0_off2_inb L 4)).view.set]{fullShare} f)
    ∗
      ((oCk L 80#32 (k0_off2_inb L 5)).view.loc (VT d L) ↦[(oCk L 80#32 (k0_off2_inb L 5)).view.set]{fullShare} f)
    ∗
      ((oCk L 96#32 (k0_off2_inb L 6)).view.loc (VT d L) ↦[(oCk L 96#32 (k0_off2_inb L 6)).view.set]{fullShare} f)
    ∗
      ((oCk L 112#32 (k0_off2_inb L 7)).view.loc (VT d L) ↦[(oCk L 112#32 (k0_off2_inb L 7)).view.set]{fullShare} f)
    ∗
      ((oCk L 128#32 (k0_off2_inb L 8)).view.loc (VT d L) ↦[(oCk L 128#32 (k0_off2_inb L 8)).view.set]{fullShare} f)
    ∗
      ((oCk L 144#32 (k0_off2_inb L 9)).view.loc (VT d L) ↦[(oCk L 144#32 (k0_off2_inb L 9)).view.set]{fullShare} f)
    ∗
      ((oCk L 160#32 (k0_off2_inb L 10)).view.loc (VT d L) ↦[(oCk L 160#32 (k0_off2_inb L 10)).view.set]{fullShare} f)
    ∗
      ((oCk L 176#32 (k0_off2_inb L 11)).view.loc (VT d L) ↦[(oCk L 176#32 (k0_off2_inb L 11)).view.set]{fullShare} f)
    ∗
      ((oCk L 192#32 (k0_off2_inb L 12)).view.loc (VT d L) ↦[(oCk L 192#32 (k0_off2_inb L 12)).view.set]{fullShare} f)
    ∗
      ((oCk L 208#32 (k0_off2_inb L 13)).view.loc (VT d L) ↦[(oCk L 208#32 (k0_off2_inb L 13)).view.set]{fullShare} f)
    ∗
      ((oCk L 224#32 (k0_off2_inb L 14)).view.loc (VT d L) ↦[(oCk L 224#32 (k0_off2_inb L 14)).view.set]{fullShare} f)
    ∗
      ((oCk L 240#32 (k0_off2_inb L 15)).view.loc (VT d L) ↦[(oCk L 240#32 (k0_off2_inb L 15)).view.set]{fullShare} f)
    ∗
      ((oCk L 256#32 (k0_off2_inb L 16)).view.loc (VT d L) ↦[(oCk L 256#32 (k0_off2_inb L 16)).view.set]{fullShare} f)
    ∗
      ((oCk L 272#32 (k0_off2_inb L 17)).view.loc (VT d L) ↦[(oCk L 272#32 (k0_off2_inb L 17)).view.set]{fullShare} f)
    ∗
      ((oCk L 288#32 (k0_off2_inb L 18)).view.loc (VT d L) ↦[(oCk L 288#32 (k0_off2_inb L 18)).view.set]{fullShare} f)
    ∗
      ((oCk L 304#32 (k0_off2_inb L 19)).view.loc (VT d L) ↦[(oCk L 304#32 (k0_off2_inb L 19)).view.set]{fullShare} f)
    ∗
      ((oCk L 320#32 (k0_off2_inb L 20)).view.loc (VT d L) ↦[(oCk L 320#32 (k0_off2_inb L 20)).view.set]{fullShare} f)
    ∗
      ((oCk L 336#32 (k0_off2_inb L 21)).view.loc (VT d L) ↦[(oCk L 336#32 (k0_off2_inb L 21)).view.set]{fullShare} f)
    ∗
      ((oCk L 352#32 (k0_off2_inb L 22)).view.loc (VT d L) ↦[(oCk L 352#32 (k0_off2_inb L 22)).view.set]{fullShare} f)
    ∗
      ((oCk L 368#32 (k0_off2_inb L 23)).view.loc (VT d L) ↦[(oCk L 368#32 (k0_off2_inb L 23)).view.set]{fullShare} f)
    ∗
      ((oCk L 384#32 (k0_off2_inb L 24)).view.loc (VT d L) ↦[(oCk L 384#32 (k0_off2_inb L 24)).view.set]{fullShare} f)
    ∗
      ((oCk L 400#32 (k0_off2_inb L 25)).view.loc (VT d L) ↦[(oCk L 400#32 (k0_off2_inb L 25)).view.set]{fullShare} f)
    ∗
      ((oCk L 416#32 (k0_off2_inb L 26)).view.loc (VT d L) ↦[(oCk L 416#32 (k0_off2_inb L 26)).view.set]{fullShare} f)
    ∗
      ((oCk L 432#32 (k0_off2_inb L 27)).view.loc (VT d L) ↦[(oCk L 432#32 (k0_off2_inb L 27)).view.set]{fullShare} f)
    ∗
      ((oCk L 448#32 (k0_off2_inb L 28)).view.loc (VT d L) ↦[(oCk L 448#32 (k0_off2_inb L 28)).view.set]{fullShare} f)
    ∗
      ((oCk L 464#32 (k0_off2_inb L 29)).view.loc (VT d L) ↦[(oCk L 464#32 (k0_off2_inb L 29)).view.set]{fullShare} f)
    ∗
      ((oCk L 480#32 (k0_off2_inb L 30)).view.loc (VT d L) ↦[(oCk L 480#32 (k0_off2_inb L 30)).view.set]{fullShare} f)
    ∗
      ((oCk L 496#32 (k0_off2_inb L 31)).view.loc (VT d L) ↦[(oCk L 496#32 (k0_off2_inb L 31)).view.set]{fullShare} f))

omit [FloatOps F] in
/-- What a copy out of a slot carries: the slot was written whole last, so the copy reads back that payload. -/
theorem slot_reads {sig' : RefSig} {κ : Kind} {sp : Space} {s : Shape} {e : EltTy} {Val : EltTy → Type}
    (v : View sig' κ sp s e) (g : BufTy.Contents Val v.ty) (q : (Rect.whole s).shape.Idx → Val e) (Ls : List (View.Piece Val s e)) :
    (ReadAs.same : ReadAs Val s e s e).apply (View.read Val v (v.writes Val g (⟨Rect.whole s, q⟩ :: Ls))) = q := by
  rw [ReadAs.apply_same, read_writes_whole]

omit [FloatOps F] in
/-- A result chunk after its write-back of the source chunk's elements holds the flat specification of `x`
    (`hv`: element by element the flat specification at the result chunk reads `x` at the source chunk). -/
theorem chunk_lands (w : BitVec 32) (h2 : ∀ a, (k0_off2 L w) a + S16x2048.size a ≤ S16384x2048.size a)
    (h1 : ∀ a, (k0_off1 L w) a + S16x2048.size a ≤ S28672x2048.size a)
    (fo : Buf (Elt F) (oLoc d)) (fx : Buf (Elt F) (xLoc d))
    (hv : ∀ y : S16x2048.Idx, Cert.Spec.GF (α := Elt F .f32) fx ((oCk L w h2).view.emb y) = fx ((xCk L w h1).view.emb y))
    (p : (Rect.whole S16x2048).shape.Idx → Elt F .f32)
    (hp : p = View.read (Elt F) (xCk L w h1).view fx) :
    ((oCk L w h2).view.loc (VT d L) ↦[(oCk L w h2).view.set]{fullShare}
        (oCk L w h2).view.writes (Elt F) fo [⟨Rect.whole S16x2048, p⟩] : sProp 𝕄)
      = ((oCk L w h2).view.loc (VT d L) ↦[(oCk L w h2).view.set]{fullShare} GFb d fx) := by
  subst hp
  refine pointsTo_congr (eqOn_set_of_read_eq (oCk L w h2).view _ (GFb d fx) ?_)
  refine (read_writes_whole (oCk L w h2).view fo _ []).trans (funext fun y => ?_)
  exact (hv y).symm

end Cert.Proof.Kernel

end
-- ==== Proof.KernelRun.lean ====
import proofs.«211868_g61933428409095_cont_9to1c4b_524_16_alg».proof.Proof.KernelBase
import proofs.«211868_g61933428409095_cont_9to1c4b_524_16_alg».proof.Proof.KernelBody

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.ValueIdx

local notation "𝕄" => MT nD τ sig (HIx 1) (Elt F) ℕ UU ℕ

/-! # The task's body, run

The symbolic run of the 64 copies and their waits, from the task's pieces in the body's own spelling. Fetch `k` lands
source chunk `k` in slot `k % 3`; write-back `k` carries the slot to result chunk `k`; the slot is fetched into again
only after its write-back has been waited for. So what result chunk `k` holds at the end is read back through two
whole-slot writes: it is source chunk `k`, which is where the flat specification reads. -/

variable [FloatOps F] (d : Dev nD) (L : grid0.Coords)

set_option maxHeartbeats 8000000 in
/-- Every wait of the task returns, and each result chunk ends holding the flat specification of the source. -/
theorem tile_run (q : PosShare TreeShare) (O : CellTallies nD τ sig (HIx 1)) (W : Waits sig (HIx 1))
    (fx : Buf (Elt F) (xLoc d)) (fo : Buf (Elt F) (oLoc d))
    (g0 g1 g2 : Buf (Elt F) ((VT d L).loc cc0_scratch0)) :
    (iprop(Transfers.MayWaits (VT d L) (default : HIx 1) O
        ∗ ((xV).view.loc (VT d L) ↦{Transfers.shareTokN q 0} fx)
        ∗ ((xV).view.loc (VT d L) ↦{Transfers.shareTokN q 1} fx)
        ∗ ((xV).view.loc (VT d L) ↦{Transfers.shareTokN q 2} fx)
        ∗ Ochunks d L fo
        ∗ ((slot 0 inb_S3x16x2048_S1x16x2048_0_0_0).view.loc (VT d L) ↦[(slot 0 inb_S3x16x2048_S1x16x2048_0_0_0).view.set]{fullShare} g0)
        ∗ ((slot 1 inb_S3x16x2048_S1x16x2048_1_0_0).view.loc (VT d L) ↦[(slot 1 inb_S3x16x2048_S1x16x2048_1_0_0).view.set]{fullShare} g1)
        ∗ ((slot 2 inb_S3x16x2048_S1x16x2048_2_0_0).view.loc (VT d L) ↦[(slot 2 inb_S3x16x2048_S1x16x2048_2_0_0).view.set]{fullShare} g2)
        ∗ semVal (VT d L, SemLoc.dma (csem 0)) 0 ∗ semVal (VT d L, SemLoc.dma (csem 1)) 0 ∗ semVal (VT d L, SemLoc.dma (csem 2)) 0
        ∗ semVal (VT d L, SemLoc.dma (csem 3)) 0 ∗ semVal (VT d L, SemLoc.dma (csem 4)) 0 ∗ semVal (VT d L, SemLoc.dma (csem 5)) 0
        ∗ owes (VT d L) O W) : sProp 𝕄)
      ⊢ wp frame (wpE (defs₀ (F := F)) 𝒱₀ (VT d L) none) Set.univ
          (cc0__sc_body L xV (Memref.isWhole_whole _) oV (Memref.isWhole_whole _) sV (Memref.isWhole_whole _) cc0_scratch1 cc0_scratch2)
          fun _ => iprop(((xV).view.loc (VT d L) ↦{Transfers.shareTokN q 0} fx)
            ∗ ((xV).view.loc (VT d L) ↦{Transfers.shareTokN q 1} fx)
            ∗ ((xV).view.loc (VT d L) ↦{Transfers.shareTokN q 2} fx)
            ∗ Ochunks d L (GFb d fx)
            ∗ (∃ g, ((slot 0 inb_S3x16x2048_S1x16x2048_0_0_0).view.loc (VT d L) ↦[(slot 0 inb_S3x16x2048_S1x16x2048_0_0_0).view.set]{fullShare} g))
            ∗ (∃ g, ((slot 1 inb_S3x16x2048_S1x16x2048_1_0_0).view.loc (VT d L) ↦[(slot 1 inb_S3x16x2048_S1x16x2048_1_0_0).view.set]{fullShare} g))
            ∗ (∃ g, ((slot 2 inb_S3x16x2048_S1x16x2048_2_0_0).view.loc (VT d L) ↦[(slot 2 inb_S3x16x2048_S1x16x2048_2_0_0).view.set]{fullShare} g))
            ∗ semVal (VT d L, SemLoc.dma (csem 0)) 0 ∗ semVal (VT d L, SemLoc.dma (csem 1)) 0 ∗ semVal (VT d L, SemLoc.dma (csem 2)) 0
            ∗ semVal (VT d L, SemLoc.dma (csem 3)) 0 ∗ semVal (VT d L, SemLoc.dma (csem 4)) 0 ∗ semVal (VT d L, SemLoc.dma (csem 5)) 0
            ∗ ∃ W', owes (VT d L) O W') := by
  unfold Ochunks
  iintro ⟨#Hmw, HX0, HX1, HX2, ⟨HO0, HO1, HO2, HO3, HO4, HO5, HO6, HO7, HO8, HO9, HO10, HO11, HO12, HO13, HO14, HO15, HO16, HO17, HO18, HO19, HO20, HO21, HO22, HO23, HO24, HO25, HO26, HO27, HO28, HO29, HO30, HO31⟩, HS0, HS1, HS2, Hc0, Hc1, Hc2, Hc3, Hc4, Hc5, HO⟩
  sl_unfold [cc0__sc_body]
  sl_exec
  -- what each write-back carried: the slot had been written whole by the chunk's fetch
  have hp0 : tile_run.sl.dma0_3 d L fx g0 = View.read (Elt F) (xCk L 0#32 (k0_off1_inb L 0)).view fx := by
    unfold tile_run.sl.dma0_3 tile_run.sl.dma0
    rw [ReadAs.apply_same, read_writes_whole, ReadAs.apply_same]
  have hp1 : tile_run.sl.dma0_5 d L fx g1 = View.read (Elt F) (xCk L 16#32 (k0_off1_inb L 1)).view fx := by
    unfold tile_run.sl.dma0_5 tile_run.sl.dma0_1
    rw [ReadAs.apply_same, read_writes_whole, ReadAs.apply_same]
  have hp2 : tile_run.sl.dma0_7 d L fx g2 = View.read (Elt F) (xCk L 32#32 (k0_off1_inb L 2)).view fx := by
    unfold tile_run.sl.dma0_7 tile_run.sl.dma0_2
    rw [ReadAs.apply_same, read_writes_whole, ReadAs.apply_same]
  have hp3 : tile_run.sl.dma0_9 d L fx g0 = View.read (Elt F) (xCk L 48#32 (k0_off1_inb L 3)).view fx := by
    unfold tile_run.sl.dma0_9 tile_run.sl.dma0_4
    rw [ReadAs.apply_same, read_writes_whole, ReadAs.apply_same]
  have hp4 : tile_run.sl.dma0_11 d L fx g1 = View.read (Elt F) (xCk L 64#32 (k0_off1_inb L 4)).view fx := by
    unfold tile_run.sl.dma0_11 tile_run.sl.dma0_6
    rw [ReadAs.apply_same, read_writes_whole, ReadAs.apply_same]
  have hp5 : tile_run.sl.dma0_13 d L fx g2 = View.read (Elt F) (xCk L 80#32 (k0_off1_inb L 5)).view fx := by
    unfold tile_run.sl.dma0_13 tile_run.sl.dma0_8
    rw [ReadAs.apply_same, read_writes_whole, ReadAs.apply_same]
  have hp6 : tile_run.sl.dma0_15 d L fx g0 = View.read (Elt F) (xCk L 96#32 (k0_off1_inb L 6)).view fx := by
    unfold tile_run.sl.dma0_15 tile_run.sl.dma0_10
    rw [ReadAs.apply_same, read_writes_whole, ReadAs.apply_same]
  have hp7 : tile_run.sl.dma0_17 d L fx g1 = View.read (Elt F) (xCk L 112#32 (k0_off1_inb L 7)).view fx := by
    unfold tile_run.sl.dma0_17 tile_run.sl.dma0_12
    rw [ReadAs.apply_same, read_writes_whole, ReadAs.apply_same]
  have hp8 : tile_run.sl.dma0_19 d L fx g2 = View.read (Elt F) (xCk L 128#32 (k0_off1_inb L 8)).view fx := by
    unfold tile_run.sl.dma0_19 tile_run.sl.dma0_14
    rw [ReadAs.apply_same, read_writes_whole, ReadAs.apply_same]
  have hp9 : tile_run.sl.dma0_21 d L fx g0 = View.read (Elt F) (xCk L 144#32 (k0_off1_inb L 9)).view fx := by
    unfold tile_run.sl.dma0_21 tile_run.sl.dma0_16
    rw [ReadAs.apply_same, read_writes_whole, ReadAs.apply_same]
  have hp10 : tile_run.sl.dma0_23 d L fx g1 = View.read (Elt F) (xCk L 160#32 (k0_off1_inb L 10)).view fx := by
    unfold tile_run.sl.dma0_23 tile_run.sl.dma0_18
    rw [ReadAs.apply_same, read_writes_whole, ReadAs.apply_same]
  have hp11 : tile_run.sl.dma0_25 d L fx g2 = View.read (Elt F) (xCk L 176#32 (k0_off1_inb L 11)).view fx := by
    unfold tile_run.sl.dma0_25 tile_run.sl.dma0_20
    rw [ReadAs.apply_same, read_writes_whole, ReadAs.apply_same]
  have hp12 : tile_run.sl.dma0_27 d L fx g0 = View.read (Elt F) (xCk L 192#32 (k0_off1_inb L 12)).view fx := by
    unfold tile_run.sl.dma0_27 tile_run.sl.dma0_22
    rw [ReadAs.apply_same, read_writes_whole, ReadAs.apply_same]
  have hp13 : tile_run.sl.dma0_29 d L fx g1 = View.read (Elt F) (xCk L 208#32 (k0_off1_inb L 13)).view fx := by
    unfold tile_run.sl.dma0_29 tile_run.sl.dma0_24
    rw [ReadAs.apply_same, read_writes_whole, ReadAs.apply_same]
  have hp14 : tile_run.sl.dma0_31 d L fx g2 = View.read (Elt F) (xCk L 224#32 (k0_off1_inb L 14)).view fx := by
    unfold tile_run.sl.dma0_31 tile_run.sl.dma0_26
    rw [ReadAs.apply_same, read_writes_whole, ReadAs.apply_same]
  have hp15 : tile_run.sl.dma0_33 d L fx g0 = View.read (Elt F) (xCk L 240#32 (k0_off1_inb L 15)).view fx := by
    unfold tile_run.sl.dma0_33 tile_run.sl.dma0_28
    rw [ReadAs.apply_same, read_writes_whole, ReadAs.apply_same]
  have hp16 : tile_run.sl.dma0_35 d L fx g1 = View.read (Elt F) (xCk L 256#32 (k0_off1_inb L 16)).view fx := by
    unfold tile_run.sl.dma0_35 tile_run.sl.dma0_30
    rw [ReadAs.apply_same, read_writes_whole, ReadAs.apply_same]
  have hp17 : tile_run.sl.dma0_37 d L fx g2 = View.read (Elt F) (xCk L 272#32 (k0_off1_inb L 17)).view fx := by
    unfold tile_run.sl.dma0_37 tile_run.sl.dma0_32
    rw [ReadAs.apply_same, read_writes_whole, ReadAs.apply_same]
  have hp18 : tile_run.sl.dma0_39 d L fx g0 = View.read (Elt F) (xCk L 288#32 (k0_off1_inb L 18)).view fx := by
    unfold tile_run.sl.dma0_39 tile_run.sl.dma0_34
    rw [ReadAs.apply_same, read_writes_whole, ReadAs.apply_same]
  have hp19 : tile_run.sl.dma0_41 d L fx g1 = View.read (Elt F) (xCk L 304#32 (k0_off1_inb L 19)).view fx := by
    unfold tile_run.sl.dma0_41 tile_run.sl.dma0_36
    rw [ReadAs.apply_same, read_writes_whole, ReadAs.apply_same]
  have hp20 : tile_run.sl.dma0_43 d L fx g2 = View.read (Elt F) (xCk L 320#32 (k0_off1_inb L 20)).view fx := by
    unfold tile_run.sl.dma0_43 tile_run.sl.dma0_38
    rw [ReadAs.apply_same, read_writes_whole, ReadAs.apply_same]
  have hp21 : tile_run.sl.dma0_45 d L fx g0 = View.read (Elt F) (xCk L 336#32 (k0_off1_inb L 21)).view fx := by
    unfold tile_run.sl.dma0_45 tile_run.sl.dma0_40
    rw [ReadAs.apply_same, read_writes_whole, ReadAs.apply_same]
  have hp22 : tile_run.sl.dma0_47 d L fx g1 = View.read (Elt F) (xCk L 352#32 (k0_off1_inb L 22)).view fx := by
    unfold tile_run.sl.dma0_47 tile_run.sl.dma0_42
    rw [ReadAs.apply_same, read_writes_whole, ReadAs.apply_same]
  have hp23 : tile_run.sl.dma0_49 d L fx g2 = View.read (Elt F) (xCk L 368#32 (k0_off1_inb L 23)).view fx := by
    unfold tile_run.sl.dma0_49 tile_run.sl.dma0_44
    rw [ReadAs.apply_same, read_writes_whole, ReadAs.apply_same]
  have hp24 : tile_run.sl.dma0_51 d L fx g0 = View.read (Elt F) (xCk L 384#32 (k0_off1_inb L 24)).view fx := by
    unfold tile_run.sl.dma0_51 tile_run.sl.dma0_46
    rw [ReadAs.apply_same, read_writes_whole, ReadAs.apply_same]
  have hp25 : tile_run.sl.dma0_53 d L fx g1 = View.read (Elt F) (xCk L 400#32 (k0_off1_inb L 25)).view fx := by
    unfold tile_run.sl.dma0_53 tile_run.sl.dma0_48
    rw [ReadAs.apply_same, read_writes_whole, ReadAs.apply_same]
  have hp26 : tile_run.sl.dma0_55 d L fx g2 = View.read (Elt F) (xCk L 416#32 (k0_off1_inb L 26)).view fx := by
    unfold tile_run.sl.dma0_55 tile_run.sl.dma0_50
    rw [ReadAs.apply_same, read_writes_whole, ReadAs.apply_same]
  have hp27 : tile_run.sl.dma0_57 d L fx g0 = View.read (Elt F) (xCk L 432#32 (k0_off1_inb L 27)).view fx := by
    unfold tile_run.sl.dma0_57 tile_run.sl.dma0_52
    rw [ReadAs.apply_same, read_writes_whole, ReadAs.apply_same]
  have hp28 : tile_run.sl.dma0_59 d L fx g1 = View.read (Elt F) (xCk L 448#32 (k0_off1_inb L 28)).view fx := by
    unfold tile_run.sl.dma0_59 tile_run.sl.dma0_54
    rw [ReadAs.apply_same, read_writes_whole, ReadAs.apply_same]
  have hp29 : tile_run.sl.dma0_61 d L fx g2 = View.read (Elt F) (xCk L 464#32 (k0_off1_inb L 29)).view fx := by
    unfold tile_run.sl.dma0_61 tile_run.sl.dma0_56
    rw [ReadAs.apply_same, read_writes_whole, ReadAs.apply_same]
  have hp30 : tile_run.sl.dma0_62 d L fx g0 = View.read (Elt F) (xCk L 480#32 (k0_off1_inb L 30)).view fx := by
    unfold tile_run.sl.dma0_62 tile_run.sl.dma0_58
    rw [ReadAs.apply_same, read_writes_whole, ReadAs.apply_same]
  have hp31 : tile_run.sl.dma0_63 d L fx g1 = View.read (Elt F) (xCk L 496#32 (k0_off1_inb L 31)).view fx := by
    unfold tile_run.sl.dma0_63 tile_run.sl.dma0_60
    rw [ReadAs.apply_same, read_writes_whole, ReadAs.apply_same]
  sl_step
  isplitl [HX0]; · iexact HX0
  isplitl [HX1]; · iexact HX1
  isplitl [HX2]; · iexact HX2
  isplitl [HO0 HO1 HO2 HO3 HO4 HO5 HO6 HO7 HO8 HO9 HO10 HO11 HO12 HO13 HO14 HO15 HO16 HO17 HO18 HO19 HO20 HO21 HO22 HO23 HO24 HO25 HO26 HO27 HO28 HO29 HO30 HO31]
  ·
    isplitl [HO0]; · iapply (Entails.of_eq (chunk_lands (F := F) d L 0#32 (k0_off2_inb L 0) (k0_off1_inb L 0) fo fx (chunk_value L 0 fx) _ hp0)); iexact HO0
    isplitl [HO1]; · iapply (Entails.of_eq (chunk_lands (F := F) d L 16#32 (k0_off2_inb L 1) (k0_off1_inb L 1) fo fx (chunk_value L 1 fx) _ hp1)); iexact HO1
    isplitl [HO2]; · iapply (Entails.of_eq (chunk_lands (F := F) d L 32#32 (k0_off2_inb L 2) (k0_off1_inb L 2) fo fx (chunk_value L 2 fx) _ hp2)); iexact HO2
    isplitl [HO3]; · iapply (Entails.of_eq (chunk_lands (F := F) d L 48#32 (k0_off2_inb L 3) (k0_off1_inb L 3) fo fx (chunk_value L 3 fx) _ hp3)); iexact HO3
    isplitl [HO4]; · iapply (Entails.of_eq (chunk_lands (F := F) d L 64#32 (k0_off2_inb L 4) (k0_off1_inb L 4) fo fx (chunk_value L 4 fx) _ hp4)); iexact HO4
    isplitl [HO5]; · iapply (Entails.of_eq (chunk_lands (F := F) d L 80#32 (k0_off2_inb L 5) (k0_off1_inb L 5) fo fx (chunk_value L 5 fx) _ hp5)); iexact HO5
    isplitl [HO6]; · iapply (Entails.of_eq (chunk_lands (F := F) d L 96#32 (k0_off2_inb L 6) (k0_off1_inb L 6) fo fx (chunk_value L 6 fx) _ hp6)); iexact HO6
    isplitl [HO7]; · iapply (Entails.of_eq (chunk_lands (F := F) d L 112#32 (k0_off2_inb L 7) (k0_off1_inb L 7) fo fx (chunk_value L 7 fx) _ hp7)); iexact HO7
    isplitl [HO8]; · iapply (Entails.of_eq (chunk_lands (F := F) d L 128#32 (k0_off2_inb L 8) (k0_off1_inb L 8) fo fx (chunk_value L 8 fx) _ hp8)); iexact HO8
    isplitl [HO9]; · iapply (Entails.of_eq (chunk_lands (F := F) d L 144#32 (k0_off2_inb L 9) (k0_off1_inb L 9) fo fx (chunk_value L 9 fx) _ hp9)); iexact HO9
    isplitl [HO10]; · iapply (Entails.of_eq (chunk_lands (F := F) d L 160#32 (k0_off2_inb L 10) (k0_off1_inb L 10) fo fx (chunk_value L 10 fx) _ hp10)); iexact HO10
    isplitl [HO11]; · iapply (Entails.of_eq (chunk_lands (F := F) d L 176#32 (k0_off2_inb L 11) (k0_off1_inb L 11) fo fx (chunk_value L 11 fx) _ hp11)); iexact HO11
    isplitl [HO12]; · iapply (Entails.of_eq (chunk_lands (F := F) d L 192#32 (k0_off2_inb L 12) (k0_off1_inb L 12) fo fx (chunk_value L 12 fx) _ hp12)); iexact HO12
    isplitl [HO13]; · iapply (Entails.of_eq (chunk_lands (F := F) d L 208#32 (k0_off2_inb L 13) (k0_off1_inb L 13) fo fx (chunk_value L 13 fx) _ hp13)); iexact HO13
    isplitl [HO14]; · iapply (Entails.of_eq (chunk_lands (F := F) d L 224#32 (k0_off2_inb L 14) (k0_off1_inb L 14) fo fx (chunk_value L 14 fx) _ hp14)); iexact HO14
    isplitl [HO15]; · iapply (Entails.of_eq (chunk_lands (F := F) d L 240#32 (k0_off2_inb L 15) (k0_off1_inb L 15) fo fx (chunk_value L 15 fx) _ hp15)); iexact HO15
    isplitl [HO16]; · iapply (Entails.of_eq (chunk_lands (F := F) d L 256#32 (k0_off2_inb L 16) (k0_off1_inb L 16) fo fx (chunk_value L 16 fx) _ hp16)); iexact HO16
    isplitl [HO17]; · iapply (Entails.of_eq (chunk_lands (F := F) d L 272#32 (k0_off2_inb L 17) (k0_off1_inb L 17) fo fx (chunk_value L 17 fx) _ hp17)); iexact HO17
    isplitl [HO18]; · iapply (Entails.of_eq (chunk_lands (F := F) d L 288#32 (k0_off2_inb L 18) (k0_off1_inb L 18) fo fx (chunk_value L 18 fx) _ hp18)); iexact HO18
    isplitl [HO19]; · iapply (Entails.of_eq (chunk_lands (F := F) d L 304#32 (k0_off2_inb L 19) (k0_off1_inb L 19) fo fx (chunk_value L 19 fx) _ hp19)); iexact HO19
    isplitl [HO20]; · iapply (Entails.of_eq (chunk_lands (F := F) d L 320#32 (k0_off2_inb L 20) (k0_off1_inb L 20) fo fx (chunk_value L 20 fx) _ hp20)); iexact HO20
    isplitl [HO21]; · iapply (Entails.of_eq (chunk_lands (F := F) d L 336#32 (k0_off2_inb L 21) (k0_off1_inb L 21) fo fx (chunk_value L 21 fx) _ hp21)); iexact HO21
    isplitl [HO22]; · iapply (Entails.of_eq (chunk_lands (F := F) d L 352#32 (k0_off2_inb L 22) (k0_off1_inb L 22) fo fx (chunk_value L 22 fx) _ hp22)); iexact HO22
    isplitl [HO23]; · iapply (Entails.of_eq (chunk_lands (F := F) d L 368#32 (k0_off2_inb L 23) (k0_off1_inb L 23) fo fx (chunk_value L 23 fx) _ hp23)); iexact HO23
    isplitl [HO24]; · iapply (Entails.of_eq (chunk_lands (F := F) d L 384#32 (k0_off2_inb L 24) (k0_off1_inb L 24) fo fx (chunk_value L 24 fx) _ hp24)); iexact HO24
    isplitl [HO25]; · iapply (Entails.of_eq (chunk_lands (F := F) d L 400#32 (k0_off2_inb L 25) (k0_off1_inb L 25) fo fx (chunk_value L 25 fx) _ hp25)); iexact HO25
    isplitl [HO26]; · iapply (Entails.of_eq (chunk_lands (F := F) d L 416#32 (k0_off2_inb L 26) (k0_off1_inb L 26) fo fx (chunk_value L 26 fx) _ hp26)); iexact HO26
    isplitl [HO27]; · iapply (Entails.of_eq (chunk_lands (F := F) d L 432#32 (k0_off2_inb L 27) (k0_off1_inb L 27) fo fx (chunk_value L 27 fx) _ hp27)); iexact HO27
    isplitl [HO28]; · iapply (Entails.of_eq (chunk_lands (F := F) d L 448#32 (k0_off2_inb L 28) (k0_off1_inb L 28) fo fx (chunk_value L 28 fx) _ hp28)); iexact HO28
    isplitl [HO29]; · iapply (Entails.of_eq (chunk_lands (F := F) d L 464#32 (k0_off2_inb L 29) (k0_off1_inb L 29) fo fx (chunk_value L 29 fx) _ hp29)); iexact HO29
    isplitl [HO30]; · iapply (Entails.of_eq (chunk_lands (F := F) d L 480#32 (k0_off2_inb L 30) (k0_off1_inb L 30) fo fx (chunk_value L 30 fx) _ hp30)); iexact HO30
    iapply (Entails.of_eq (chunk_lands (F := F) d L 496#32 (k0_off2_inb L 31) (k0_off1_inb L 31) fo fx (chunk_value L 31 fx) _ hp31)); iexact HO31
  isplitl [HS0]; · iexists _; iexact HS0
  isplitl [HS1]; · iexists _; iexact HS1
  isplitl [HS2]; · iexists _; iexact HS2
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  iexists _; iexact HO

end Cert.Proof.Kernel

end
-- ==== Proof.Bridge.lean ====
/-
  The host reshapes around the flat form of the specification.

  The argument `x` of shape [2, 7, 2048, 2048] read as 28672 rows of 2048 words has its element (a, b, r, k) at row
  2048 (7 a + b) + r, column k; the result of shape [8, 2048, 2048] read as 16384 rows has its element (s, r, k) at row
  R = 2048 s + r. The flat specification sends result row R to source row R + 6144 (R / 8192); with R = 2048 s + r
  and r < 2048 the quotient R / 8192 is s / 4, so the source row is 2048 (s + 3 (s / 4)) + r = 2048 (7 (s / 4) + s % 4) + r:
  row r of slab (s / 4, s % 4) of the argument, which is what the specification on the shaped arrays reads.
-/
import proofs.«211868_g61933428409095_cont_9to1c4b_524_16_alg».proof.Proof.Spec
import Idealize.ShloMosaic.Lib.ValueIdx
import Idealize.ShloMosaic.Lib.Pipeline.Value

noncomputable section

namespace Cert.Spec

open Idealize.ShloMosaic Idealize.ShloMosaic.ValueIdx

/-- The flat specification read at a row and a column. -/
theorem bridge_GF_apply {α : Type} (y : (⟨2, ![28672, 2048]⟩ : Shape).Idx → α) (R : Fin 16384) (k : Fin 2048) :
    GF y (ix2 R k) = y (ix2 (⟨R.val + 6144 * (R.val / 8192), by omega⟩ : Fin 28672) k) := rfl

/-- The row arithmetic: row `2048 s + r` of the flat result comes from row `2048 (7 (s / 4) + s % 4) + r` of the flat
    argument. -/
theorem bridge_src_row (s : Fin 8) (r : Fin 2048) :
    (2048 * s.val + r.val) + 6144 * ((2048 * s.val + r.val) / 8192) = ((s.val / 4) * 7 + s.val % 4) * 2048 + r.val := by
  omega

/-- Reshaping the argument to 28672 rows, applying the flat specification and reshaping its 16384 rows to
    [8, 2048, 2048] is the specification on the shaped arrays. -/
theorem bridge {α : Type} (x : (⟨4, ![2, 7, 2048, 2048]⟩ : Shape).Idx → α)
    (h1 : (⟨4, ![2, 7, 2048, 2048]⟩ : Shape).ShapeCasts ⟨2, ![28672, 2048]⟩)
    (h2 : (⟨2, ![16384, 2048]⟩ : Shape).ShapeCasts ⟨3, ![8, 2048, 2048]⟩) :
    shapeCast ⟨3, ![8, 2048, 2048]⟩ (GF (shapeCast ⟨2, ![28672, 2048]⟩ x h1)) h2 = G x := by
  funext j
  obtain ⟨s, r, k, rfl⟩ : ∃ s r k, j = ix3 s r k := ⟨j 0, j 1, j 2, eq_ix3 j⟩
  have hR : 2048 * s.val + r.val < 16384 := by omega
  -- the outer reshape: element (s, r, k) is element (2048 s + r, k) of the 16384 rows
  refine (shapeCast_apply _ h2 (ix3 s r k) (ix2 (⟨2048 * s.val + r.val, hR⟩ : Fin 16384) k) ?_).trans ?_
  · rw [Shape.rowMajor_val_two, Shape.rowMajor_val_three]
    show (2048 * s.val + r.val) * 2048 + k.val = (s.val * 2048 + r.val) * 2048 + k.val
    omega
  rw [bridge_GF_apply, G_apply]
  -- the inner reshape: element (row, k) of the 28672 rows is element (s / 4, s % 4, r, k) of the argument
  refine shapeCast_apply x h1 _ (ix4 (srcRow s) (srcCol s) r k) ?_
  rw [Shape.rowMajor_val_four, Shape.rowMajor_val_two]
  show (((s.val / 4) * 7 + s.val % 4) * 2048 + r.val) * 2048 + k.val
    = ((2048 * s.val + r.val) + 6144 * ((2048 * s.val + r.val) / 8192)) * 2048 + k.val
  rw [bridge_src_row]

end Cert.Spec

end
-- ==== Proof.KernelLaunch.lean ====
import proofs.«211868_g61933428409095_cont_9to1c4b_524_16_alg».proof.Proof.KernelBase
import proofs.«211868_g61933428409095_cont_9to1c4b_524_16_alg».proof.Proof.KernelRun
import proofs.«211868_g61933428409095_cont_9to1c4b_524_16_alg».proof.Proof.Bridge

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.ValueIdx
open Idealize.ShloMosaic.StableHlo (held held_split held_sdiff_result wp_hlo_within)

local notation "𝕄" => MT nD τ sig (HIx 1) (Elt F) ℕ UU ℕ

/-! # The launch: what each thread is handed, and @main on the TensorCore

@main reshapes `x` to the flat array, starts the two SparseCores, and reshapes the flat result. The call hands
worker `(c, i)` a read share of the flat `x` and its 32 result chunks, and takes them back with every chunk at the
flat specification; the chunks tile the flat result, so the whole of it is the flat specification of the flat `x`,
and the two reshapes around it make it the mask selection of `x`. -/

variable [FloatOps F]
variable (m : (ℓ : Loc nD τ sig) → Buf (Elt F) ℓ) (ρ : Dev nD → PrngReg)

/-! ## The arrays' contents along @main -/

/-- The flat `x`: what the first reshape writes. -/
def X0 (d : Dev nD) : Buf (Elt F) (xLoc d) :=
  shapeCast S28672x2048 (m (aLoc d)) shapeCasts_S2x7x2048x2048_S28672x2048

/-- The result: the last reshape of the flat specification of the flat `x`. -/
def RES (d : Dev nD) : Buf (Elt F) (rLoc d) :=
  shapeCast S8x2048x2048 (GFb d (X0 m d)) shapeCasts_S16384x2048_S8x2048x2048

omit [FloatOps F] in
/-- It is the mask selection of `x`. -/
theorem RES_eq (d : Dev nD) : RES m d = Cert.Spec.G (α := Elt F .f32) (m (aLoc d)) :=
  Cert.Spec.bridge (α := Elt F .f32) (m (aLoc d)) shapeCasts_S2x7x2048x2048_S28672x2048 shapeCasts_S16384x2048_S8x2048x2048

/-! ## Read shares of the flat `x`: one per worker -/

/-- Worker `(c, i)`'s share: token `i` of SparseCore `c`'s token of the full share. -/
abbrev xq (c : Fin 2) (i : Fin 16) : PosShare TreeShare := Transfers.shareTok (Transfers.shareTok fullShare 2 c) 16 i

/-- What stays on the TensorCore while the workers read. -/
def XR (d : Dev nD) (f : Buf (Elt F) (xLoc d)) : sProp 𝕄 :=
  iprop((xLoc d ↦{Transfers.shareDrop fullShare 2} f)
    ∗ bigSep Finset.univ fun c : Fin 2 => xLoc d ↦{Transfers.shareDrop (Transfers.shareTok fullShare 2 c) 16} f)

/-- The workers' shares. -/
def XT (d : Dev nD) (f : Buf (Elt F) (xLoc d)) : sProp 𝕄 :=
  bigSep Finset.univ fun c : Fin 2 => bigSep Finset.univ fun i : Fin 16 => xLoc d ↦{xq c i} f

omit [FloatOps F] in
theorem x_split (d : Dev nD) (f : Buf (Elt F) (xLoc d)) : (xLoc d ↦{fullShare} f : sProp 𝕄) ⊣⊢ iprop(XR d f ∗ XT d f) := by
  have e1 : (xLoc d ↦{fullShare} f : sProp 𝕄)
      = iprop((xLoc d ↦{Transfers.shareDrop fullShare 2} f) ∗ bigSep Finset.univ fun c : Fin 2 => xLoc d ↦{Transfers.shareTok fullShare 2 c} f) :=
    BI.Entails.antisymm (Transfers.pointsTo_toks (ℓ := xLoc d) (S := Finset.univ) (f := f) fullShare 2).1
      (Transfers.pointsTo_toks (ℓ := xLoc d) (S := Finset.univ) (f := f) fullShare 2).2
  have e2 : ∀ c : Fin 2, (xLoc d ↦{Transfers.shareTok fullShare 2 c} f : sProp 𝕄)
      = iprop((xLoc d ↦{Transfers.shareDrop (Transfers.shareTok fullShare 2 c) 16} f) ∗ bigSep Finset.univ fun i : Fin 16 => xLoc d ↦{xq c i} f) :=
    fun c => BI.Entails.antisymm (Transfers.pointsTo_toks (ℓ := xLoc d) (S := Finset.univ) (f := f) (Transfers.shareTok fullShare 2 c) 16).1
      (Transfers.pointsTo_toks (ℓ := xLoc d) (S := Finset.univ) (f := f) (Transfers.shareTok fullShare 2 c) 16).2
  unfold XR XT
  rw [e1, bigSep_congr (fun c _ => e2 c), bigSep_sep']
  constructor
  · iintro ⟨A, B, C⟩
    isplitl [A B]
    · isplitl [A] <;> iassumption
    · iexact C
  · iintro ⟨⟨A, B⟩, C⟩
    isplitl [A]; · iexact A
    isplitl [B] <;> iassumption

omit [FloatOps F] in
/-- A worker's share as what stays with it and three read tokens, one per fetch semaphore. -/
theorem xToks (d : Dev nD) (q : PosShare TreeShare) (f : Buf (Elt F) (xLoc d)) :
    (xLoc d ↦{q} f : sProp 𝕄) ⊣⊢ iprop((xLoc d ↦{Transfers.shareDrop q 3} f) ∗ (xLoc d ↦{Transfers.shareTokN q 0} f)
      ∗ (xLoc d ↦{Transfers.shareTokN q 1} f) ∗ (xLoc d ↦{Transfers.shareTokN q 2} f)) := by
  have h : (xLoc d ↦{q} f : sProp 𝕄) ⊣⊢ iprop((xLoc d ↦{Transfers.shareDrop q 3} f) ∗ bigSep (Finset.range 3) fun i => xLoc d ↦{Transfers.shareTokN q i} f) :=
    Transfers.pointsTo_toks_range (ℓ := xLoc d) (S := Finset.univ) (f := f) q 3
  rw [show Finset.range 3 = {0, 1, 2} by decide, SparseCore.bigSep_insert' (by decide), SparseCore.bigSep_insert' (by decide), bigSep_singleton] at h
  exact h

/-! ## The flat result as the workers' chunks -/

omit [FloatOps F] in
theorem oPts_split (d : Dev nD) (f : Buf (Elt F) (oLoc d)) :
    (oLoc d ↦{fullShare} f : sProp 𝕄)
      = bigSep Finset.univ fun c : Fin 2 => bigSep Finset.univ fun i : Fin 16 => bigSep Finset.univ fun r : Fin 32 => oLoc d ↦[oSet c i r]{fullShare} f := by
  have h : (oLoc d ↦[(Finset.univ : Finset (Fin 2 × Fin 16 × Fin 32)).biUnion (fun p => oSet p.1 p.2.1 p.2.2)]{fullShare} f : sProp 𝕄) = _ :=
    pointsTo_biUnion (ℓ := oLoc d) (q := fullShare) (f := f) (Finset.univ : Finset (Fin 2 × Fin 16 × Fin 32)) (fun p => oSet p.1 p.2.1 p.2.2) oSet_disjoint
  rw [oSet_cover] at h
  refine h.trans ?_
  rw [bigSep_univ_prod]
  exact bigSep_congr fun c _ => bigSep_univ_prod (fun b : Fin 16 × Fin 32 => (oLoc d ↦[oSet c b.1 b.2]{fullShare} f : sProp 𝕄))

omit [FloatOps F] in
theorem pts_oCk (d : Dev nD) (L : grid0.Coords) (r : Fin 32) (f : Buf (Elt F) (oLoc d)) :
    ((oCk L (BitVec.ofNat 32 (16 * r.val)) (k0_off2_inb L r)).view.loc (VT d L) ↦[(oCk L (BitVec.ofNat 32 (16 * r.val)) (k0_off2_inb L r)).view.set]{fullShare} f : sProp 𝕄)
      = oLoc d ↦[oSet (cL L) (iL L) r]{fullShare} f := by
  rw [set_oCk]

set_option maxHeartbeats 4000000 in
omit [FloatOps F] in
theorem Ochunks_eq (d : Dev nD) (L : grid0.Coords) (f : Buf (Elt F) (oLoc d)) :
    (Ochunks d L f : sProp 𝕄) = bigSep Finset.univ fun r : Fin 32 => oLoc d ↦[oSet (cL L) (iL L) r]{fullShare} f := by
  rw [show (Finset.univ : Finset (Fin 32)) = {0, 1, 2, 3, 4, 5, 6, 7, 8, 9, 10, 11, 12, 13, 14, 15, 16, 17, 18, 19, 20, 21, 22, 23, 24, 25, 26, 27, 28, 29, 30, 31} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton,
    ← pts_oCk d L 0 f, ← pts_oCk d L 1 f, ← pts_oCk d L 2 f, ← pts_oCk d L 3 f, ← pts_oCk d L 4 f, ← pts_oCk d L 5 f, ← pts_oCk d L 6 f, ← pts_oCk d L 7 f, ← pts_oCk d L 8 f, ← pts_oCk d L 9 f, ← pts_oCk d L 10 f, ← pts_oCk d L 11 f, ← pts_oCk d L 12 f, ← pts_oCk d L 13 f, ← pts_oCk d L 14 f, ← pts_oCk d L 15 f, ← pts_oCk d L 16 f, ← pts_oCk d L 17 f, ← pts_oCk d L 18 f, ← pts_oCk d L 19 f, ← pts_oCk d L 20 f, ← pts_oCk d L 21 f, ← pts_oCk d L 22 f, ← pts_oCk d L 23 f, ← pts_oCk d L 24 f, ← pts_oCk d L 25 f, ← pts_oCk d L 26 f, ← pts_oCk d L 27 f, ← pts_oCk d L 28 f, ← pts_oCk d L 29 f, ← pts_oCk d L 30 f, ← pts_oCk d L 31 f]
  rfl

omit [FloatOps F] in
theorem o_split (d : Dev nD) (f : Buf (Elt F) (oLoc d)) :
    (oLoc d ↦{fullShare} f : sProp 𝕄) = bigSep Finset.univ fun c : Fin 2 => bigSep Finset.univ fun i : Fin 16 => Ochunks d (coordsV c i) f := by
  rw [oPts_split]
  exact bigSep_congr fun c _ => bigSep_congr fun i _ => (Ochunks_eq d (coordsV c i) f).symm

/-! ## A worker's own storage: the ring's slots and the six semaphores -/

section Tile

variable (d : Dev nD) (L : grid0.Coords)

omit [FloatOps F] in
theorem pts_slot (k : Fin 3) (h : ∀ a, (![k.val, 0, 0] : Fin 3 → Nat) a + S1x16x2048.size a ≤ S3x16x2048.size a)
    (g : Buf (Elt F) ((VT d L).loc cc0_scratch0)) :
    ((slot k.val h).view.loc (VT d L) ↦[(slot k.val h).view.set]{fullShare} g : sProp 𝕄) = (VT d L).loc cc0_scratch0 ↦[sSet k]{fullShare} g := by
  rw [set_slot]

omit [FloatOps F] in
/-- The scratch whole is its three slots. -/
theorem s_split (g : Buf (Elt F) ((VT d L).loc cc0_scratch0)) :
    ((VT d L).loc cc0_scratch0 ↦{fullShare} g : sProp 𝕄)
      = iprop(((slot 0 inb_S3x16x2048_S1x16x2048_0_0_0).view.loc (VT d L) ↦[(slot 0 inb_S3x16x2048_S1x16x2048_0_0_0).view.set]{fullShare} g)
          ∗ ((slot 1 inb_S3x16x2048_S1x16x2048_1_0_0).view.loc (VT d L) ↦[(slot 1 inb_S3x16x2048_S1x16x2048_1_0_0).view.set]{fullShare} g)
          ∗ ((slot 2 inb_S3x16x2048_S1x16x2048_2_0_0).view.loc (VT d L) ↦[(slot 2 inb_S3x16x2048_S1x16x2048_2_0_0).view.set]{fullShare} g)) := by
  have h : ((VT d L).loc cc0_scratch0 ↦[(Finset.univ : Finset (Fin 3)).biUnion sSet]{fullShare} g : sProp 𝕄) = _ :=
    pointsTo_biUnion (ℓ := (VT d L).loc cc0_scratch0) (q := fullShare) (f := g) (Finset.univ : Finset (Fin 3)) sSet sSet_disjoint
  rw [sSet_cover] at h
  refine h.trans ?_
  rw [show (Finset.univ : Finset (Fin 3)) = {0, 1, 2} by decide, SparseCore.bigSep_insert' (by decide), SparseCore.bigSep_insert' (by decide), bigSep_singleton,
    ← pts_slot d L 0 inb_S3x16x2048_S1x16x2048_0_0_0 g, ← pts_slot d L 1 inb_S3x16x2048_S1x16x2048_1_0_0 g, ← pts_slot d L 2 inb_S3x16x2048_S1x16x2048_2_0_0 g]
  rfl

omit [FloatOps F] in
/-- Three slots at whatever contents are the scratch whole at some contents. -/
theorem s_join :
    (iprop((∃ g, ((slot 0 inb_S3x16x2048_S1x16x2048_0_0_0).view.loc (VT d L) ↦[(slot 0 inb_S3x16x2048_S1x16x2048_0_0_0).view.set]{fullShare} g))
        ∗ (∃ g, ((slot 1 inb_S3x16x2048_S1x16x2048_1_0_0).view.loc (VT d L) ↦[(slot 1 inb_S3x16x2048_S1x16x2048_1_0_0).view.set]{fullShare} g))
        ∗ (∃ g, ((slot 2 inb_S3x16x2048_S1x16x2048_2_0_0).view.loc (VT d L) ↦[(slot 2 inb_S3x16x2048_S1x16x2048_2_0_0).view.set]{fullShare} g))) : sProp 𝕄)
      ⊢ iprop(∃ g, (VT d L).loc cc0_scratch0 ↦{fullShare} g) := by
  iintro ⟨⟨%a, Ha⟩, ⟨%b, Hb⟩, ⟨%c, Hc⟩⟩
  ihave H := (pointsTo_biUnion_join (ℓ := (VT d L).loc cc0_scratch0) (q := fullShare) (Val := Elt F) (Finset.univ : Finset (Fin 3)) sSet
      (fun k : Fin 3 => match k with | 0 => a | 1 => b | 2 => c) a sSet_disjoint) $$ [Ha Hb Hc]
  · rw [show (Finset.univ : Finset (Fin 3)) = {0, 1, 2} by decide, SparseCore.bigSep_insert' (by decide), SparseCore.bigSep_insert' (by decide), bigSep_singleton]
    isplitl [Ha]; · iapply (Entails.of_eq (pts_slot (F := F) d L 0 inb_S3x16x2048_S1x16x2048_0_0_0 a)); iexact Ha
    isplitl [Hb]; · iapply (Entails.of_eq (pts_slot (F := F) d L 1 inb_S3x16x2048_S1x16x2048_1_0_0 b)); iexact Hb
    iapply (Entails.of_eq (pts_slot (F := F) d L 2 inb_S3x16x2048_S1x16x2048_2_0_0 c)); iexact Hc
  icases H with ⟨%g, -, Hg⟩
  rw [sSet_cover]
  iexists g; iexact Hg

/-- The six DMA cells a task names, as a family. -/
abbrev dcell (d : Dev nD) (c : Fin τ.nSC) (i : Fin τ.nSub) (k : Fin 6) : GSem nD τ sig := (V d c i, .dma (csem k.val k.isLt))

omit [FloatOps F] in
theorem dcell_mem (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the six the task names, one by one, and the rest. -/
theorem ownSems0_V :
    (ownSems0 (VT d L) : sProp 𝕄)
      = iprop((semVal (VT d L, SemLoc.dma (csem 0)) 0 ∗ semVal (VT d L, SemLoc.dma (csem 1)) 0 ∗ semVal (VT d L, SemLoc.dma (csem 2)) 0 ∗ semVal (VT d L, SemLoc.dma (csem 3)) 0 ∗ semVal (VT d L, SemLoc.dma (csem 4)) 0 ∗ semVal (VT d L, SemLoc.dma (csem 5)) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
/-- The scratch is among the subcore's own buffers: it, at some contents, and the rest. -/
theorem ownBufs_V :
    (ownBufs (VT d L) : sProp 𝕄)
      = iprop((∃ f, (VT d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The task on vector subcore `(L 0, L 1)`, from what the launch deals it — its share of the flat `x`, its 32 chunks,
    its scratch and cells — to what it hands back: every chunk at the flat specification. -/
theorem tile_body (hF : (K (F := F)).Facts) (O : CellTallies nD τ sig (HIx 1)) (W : Waits sig (HIx 1)) (hO : ∀ g, O g none = 0) :
    iprop(levAts (K (F := F)).L (K (F := F)).lev ∗ emp
        ∗ ((xLoc d ↦{xq (cL L) (iL L)} X0 m d) ∗ Ochunks d L (m (oLoc d)))
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) oV (Memref.isWhole_whole _) sV (Memref.isWhole_whole _) cc0_scratch1 cc0_scratch2)
          fun _ => iprop(((xLoc d ↦{xq (cL L) (iL L)} X0 m d) ∗ Ochunks d L (GFb d (X0 m d)))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hoc⟩, ⟨⟨%g, HG⟩, Hbufs⟩, ⟨⟨Hc0, Hc1, Hc2, Hc3, Hc4, Hc5⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (Entails.of_eq (s_split (F := F) d L g)) $$ HG
  icases HG' with ⟨HS0, HS1, HS2⟩
  ihave Hx' := (xToks d (xq (cL L) (iL L)) (X0 m d)).1 $$ Hx
  icases Hx' with ⟨Hxr, Hx0, Hx1, Hx2⟩
  iapply (wp_wand_r Idealize.ShloMosaic.frame (wpE (defs₀ (F := F)) 𝒱₀ (VT d L) none) Set.univ)
  isplitl [Hx0 Hx1 Hx2 Hoc HS0 HS1 HS2 Hc0 Hc1 Hc2 Hc3 Hc4 Hc5 HO]
  · iapply (tile_run d L (xq (cL L) (iL L)) O W (X0 m d) (m (oLoc d)) g g g)
    isplitr; · iexact Hmw
    isplitl [Hx0]; · iexact Hx0
    isplitl [Hx1]; · iexact Hx1
    isplitl [Hx2]; · iexact Hx2
    isplitl [Hoc]; · iexact Hoc
    isplitl [HS0]; · iexact HS0
    isplitl [HS1]; · iexact HS1
    isplitl [HS2]; · iexact HS2
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact HO
  iintro %_ ⟨Hx0, Hx1, Hx2, Hoc, HS0, HS1, HS2, Hc0, Hc1, Hc2, Hc3, Hc4, Hc5, ⟨%W', HO⟩⟩
  ihave Hx := (xToks d (xq (cL L) (iL L)) (X0 m d)).2 $$ [Hxr Hx0 Hx1 Hx2]
  · isplitl [Hxr]; · iexact Hxr
    isplitl [Hx0]; · iexact Hx0
    isplitl [Hx1]; · iexact Hx1
    iexact Hx2
  isplitl [Hx Hoc]
  · isplitl [Hx]; · iexact Hx
    iexact Hoc
  isplitl [HS0 HS1 HS2 Hbufs]
  · isplitl [HS0 HS1 HS2]
    · iapply (s_join (F := F) d L)
      isplitl [HS0]; · iexact HS0
      isplitl [HS1]; · iexact HS1
      iexact HS2
    · iexact Hbufs
  isplitl [Hc0 Hc1 Hc2 Hc3 Hc4 Hc5 Hsems]
  · isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    · iexact Hsems
  iexists W'; isplitr
  · ipureintro; intro p _
    rcases p.2 with _ | q
    · exact .inr (.inl rfl)
    · exact .inr (.inr (congrArg some (Subsingleton.elim q 0)))
  · iexact HO

end Tile

set_option maxHeartbeats 2000000

/-! ## What the handshakes carry -/

/-- Worker `(c, i)`'s pieces: its read share of the flat `x` and its 32 result chunks at contents `fo`. -/
def goOf (d : Dev nD) (c : Fin 2) (i : Fin 16) (fo : Buf (Elt F) (oLoc d)) : sProp 𝕄 :=
  iprop((xLoc d ↦{xq c i} X0 m d) ∗ Ochunks d (coordsV c i) fo)

/-- The one call hands SparseCore `c` its sixteen workers' pieces, each task its own, and takes them back with the
    chunks at the flat specification; the kernel's proof consumes nothing of the launch's. -/
def P : (K (F := F)).Pay (nD := nD) (Val := Elt F) (Name := ℕ) (U := UU) where
  st := fun q d c => match q with | 0 => bigSep Finset.univ fun i : Fin 16 => goOf m d (Fin.cast nCore_zero c) i (m (oLoc d))
  dn := fun q d c => match q with | 0 => bigSep Finset.univ fun i : Fin 16 => goOf m d (Fin.cast nCore_zero c) i (GFb d (X0 m d))
  go := fun q d c i => match q with | 0 => goOf m d (Fin.cast nCore_zero c) (Fin.cast nSub_zero i) (m (oLoc d))
  td := fun q d c i => match q with | 0 => goOf m d (Fin.cast nCore_zero c) (Fin.cast nSub_zero i) (GFb d (X0 m d))
  x := fun _ _ => iprop(emp)

omit [FloatOps F] in
instance Ochunks_storable (d : Dev nD) (L : grid0.Coords) (f : Buf (Elt F) (oLoc d)) : BI.Storable (upEmb : UEmb _ 𝕄) (Ochunks d L f : sProp 𝕄) := by
  rw [Ochunks_eq]; infer_instance

instance goOf_storable (d : Dev nD) (c : Fin 2) (i : Fin 16) (fo : Buf (Elt F) (oLoc d)) : BI.Storable (upEmb : UEmb _ 𝕄) (goOf m d c i fo) := by
  unfold goOf; infer_instance

instance P_storable : (P (F := F) m).IsStorable where
  st q d c := match q with | 0 => (inferInstance : BI.Storable (upEmb : UEmb _ 𝕄) (bigSep Finset.univ fun i : Fin 16 => goOf m d (Fin.cast nCore_zero c) i (m (oLoc d))))
  dn q d c := match q with | 0 => (inferInstance : BI.Storable (upEmb : UEmb _ 𝕄) (bigSep Finset.univ fun i : Fin 16 => goOf m d (Fin.cast nCore_zero c) i (GFb d (X0 m d))))
  go q d c i := match q with | 0 => (inferInstance : BI.Storable (upEmb : UEmb _ 𝕄) (goOf m d (Fin.cast nCore_zero c) (Fin.cast nSub_zero i) (m (oLoc d))))
  td q d c i := match q with | 0 => (inferInstance : BI.Storable (upEmb : UEmb _ 𝕄) (goOf m d (Fin.cast nCore_zero c) (Fin.cast nSub_zero i) (GFb d (X0 m d))))

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) sV (Memref.isWhole_whole _) cc0_scratch1 cc0_scratch2) ⟨⟩ c s := rfl

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goOf m d (Fin.cast nCore_zero c) i (m (oLoc d))) ⊢ |={Set.univ}=> iprop(
      (bigSep Finset.univ fun i : Fin ((K (F := F)).nSub 0) => goOf m d (Fin.cast nCore_zero c) (Fin.cast nSub_zero i) (m (oLoc d)))
      ∗ ((bigSep Finset.univ fun i : Fin ((K (F := F)).nSub 0) => goOf m d (Fin.cast nCore_zero c) (Fin.cast nSub_zero i) (GFb d (X0 m d)))
          -∗ bigSep Finset.univ fun i : Fin 16 => goOf m d (Fin.cast nCore_zero c) i (GFb d (X0 m d))))
  rw [bigSep_tasks (F := F) (fun i => goOf m d (Fin.cast nCore_zero c) i (m (oLoc d))),
    bigSep_tasks (F := F) (fun i => goOf m d (Fin.cast nCore_zero c) i (GFb d (X0 m d)))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev op1 : HloOp τ sig (Elt F) := StableHlo.reshape main_arg0 main_v0 rfl shapeCasts_S2x7x2048x2048_S28672x2048
abbrev op2 : HloOp τ sig (Elt F) := StableHlo.reshape main_v1 main_v2 rfl shapeCasts_S16384x2048_S8x2048x2048

/-- The TensorCore's four arrays, all unscoped. -/
abbrev S4 : Finset (DevRef τ sig) := {a', x', o', r'}

omit [FloatOps F] in
theorem held_S4 (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; after the first reshape; after the call. -/
def V0 (d : Dev nD) : Valuation τ sig (Elt F) := fun b => m (d, b)
def V1 (d : Dev nD) : Valuation τ sig (Elt F) := Function.update (V0 m d) x' (X0 m d)
def V2 (d : Dev nD) : Valuation τ sig (Elt F) := Function.update (V1 m d) o' (GFb d (X0 m d))

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) := Function.update_of_ne (show a' ≠ x' by decide) _ _
theorem V1_x (d : Dev nD) : V1 m d x' = X0 m d := Function.update_self _ _ _
theorem V1_o (d : Dev nD) : V1 m d o' = m (oLoc d) := Function.update_of_ne (show o' ≠ x' by decide) _ _
theorem V1_r (d : Dev nD) : V1 m d r' = m (rLoc d) := Function.update_of_ne (show r' ≠ x' by decide) _ _
theorem V2_a (d : Dev nD) : V2 m d a' = m (aLoc d) := (Function.update_of_ne (show a' ≠ o' by decide) _ _).trans (V1_a m d)
theorem V2_x (d : Dev nD) : V2 m d x' = X0 m d := (Function.update_of_ne (show x' ≠ o' by decide) _ _).trans (V1_x m d)
theorem V2_o (d : Dev nD) : V2 m d o' = GFb d (X0 m d) := Function.update_self _ _ _
theorem V2_r (d : Dev nD) : V2 m d r' = m (rLoc d) := (Function.update_of_ne (show r' ≠ o' by decide) _ _).trans (V1_r m d)

/-- The first reshape writes the flat `x` and nothing else. -/
theorem op1_result (d : Dev nD) : (op1 (F := F)).result (V0 m d) = V1 m d := by
  funext b
  by_cases hb : b = x'
  · subst hb
    rw [V1_x]
    exact StableHlo.reshape_result' (τ := τ) (Val := Elt F) (x := main_arg0) (y := main_v0) rfl shapeCasts_S2x7x2048x2048_S28672x2048 _ _ (V0 m d)
  · rw [(op1 (F := F)).result_of_not_mem (V0 m d) (b := b) (by
      show b ∉ ({x'} : Finset (DevRef τ sig)); simpa using hb)]
    exact (Function.update_of_ne hb _ _).symm

/-- The last reshape writes the result and nothing else. -/
theorem op2_result_r (d : Dev nD) : (op2 (F := F)).result (V2 m d) r' = RES m d := by
  have h := StableHlo.reshape_result' (τ := τ) (Val := Elt F) (x := main_v1) (y := main_v2) rfl shapeCasts_S16384x2048_S8x2048x2048 ⟨by decide, rfl⟩ ⟨by decide, rfl⟩ (V2 m d)
  rw [V2_o] at h
  exact h
theorem op2_result_a (d : Dev nD) : (op2 (F := F)).result (V2 m d) a' = m (aLoc d) := by
  rw [(op2 (F := F)).result_of_not_mem (V2 m d) (b := a') (show a' ∉ ({r'} : Finset (DevRef τ sig)) by decide), V2_a]

theorem held1_eq (d : Dev nD) :
    (held (T d) S4 ((op1 (F := F)).result (V0 m d)) : sProp 𝕄)
      = iprop((aLoc d ↦{fullShare} m (aLoc d)) ∗ (xLoc d ↦{fullShare} X0 m d) ∗ (oLoc d ↦{fullShare} m (oLoc d)) ∗ rLoc d ↦{fullShare} m (rLoc d)) := by
  rw [op1_result, held_S4, V1_a, V1_x, V1_o, V1_r]
theorem heldV2_eq (d : Dev nD) :
    (held (T d) S4 (V2 m d) : sProp 𝕄)
      = iprop((aLoc d ↦{fullShare} m (aLoc d)) ∗ (xLoc d ↦{fullShare} X0 m d) ∗ (oLoc d ↦{fullShare} GFb d (X0 m d)) ∗ rLoc d ↦{fullShare} m (rLoc d)) := by
  rw [held_S4, V2_a, V2_x, V2_o, V2_r]
theorem held2_eq (d : Dev nD) :
    (held (T d) S4 ((op2 (F := F)).result (V2 m d)) : sProp 𝕄)
      = iprop((aLoc d ↦{fullShare} m (aLoc d)) ∗ (xLoc d ↦{fullShare} (op2 (F := F)).result (V2 m d) x')
          ∗ (oLoc d ↦{fullShare} (op2 (F := F)).result (V2 m d) o') ∗ rLoc d ↦{fullShare} RES m d) := by
  rw [held_S4, op2_result_a, op2_result_r]

theorem h1sub : (op1 (F := F)).bufs ⊆ S4 := show ({a', x'} : Finset (DevRef τ sig)) ⊆ S4 by decide
theorem h2sub : (op2 (F := F)).bufs ⊆ S4 := show ({o', r'} : Finset (DevRef τ sig)) ⊆ S4 by decide

/-- What the call takes for the two SparseCores, and what it hands back. -/
theorem st0_eq (d : Dev nD) :
    (bigSep Finset.univ fun c : Fin ((K (F := F)).nCore 0) => (P m).st 0 d c)
      = iprop(XT d (X0 m d) ∗ bigSep Finset.univ fun c : Fin 2 => bigSep Finset.univ fun i : Fin 16 => Ochunks d (coordsV c i) (m (oLoc d))) := by
  show (bigSep (Finset.univ : Finset (Fin 2)) fun c => bigSep Finset.univ fun i : Fin 16 => goOf m d c i (m (oLoc d))) = _
  unfold goOf XT
  rw [bigSep_congr (fun c _ => bigSep_sep' _ _ _), bigSep_sep']
theorem dn0_eq (d : Dev nD) :
    (bigSep Finset.univ fun c : Fin ((K (F := F)).nCore 0) => (P m).dn 0 d c)
      = iprop(XT d (X0 m d) ∗ bigSep Finset.univ fun c : Fin 2 => bigSep Finset.univ fun i : Fin 16 => Ochunks d (coordsV c i) (GFb d (X0 m d))) := by
  show (bigSep (Finset.univ : Finset (Fin 2)) fun c => bigSep Finset.univ fun i : Fin 16 => goOf m d c i (GFb d (X0 m d))) = _
  unfold goOf XT
  rw [bigSep_congr (fun c _ => bigSep_sep' _ _ _), bigSep_sep']

/-- What @main leaves the claim: `x` at its launch contents, the result at the mask selection. -/
abbrev FIN (d : Dev nD) : sProp 𝕄 := iprop((aLoc d ↦{fullShare} m (aLoc d)) ∗ rLoc d ↦{fullShare} RES m d)

/-- @main on device `d`'s TensorCore: the first reshape (`wp_hlo_within`), the call (the library's `wp_run`: the flat
    `x` as read shares and the flat result as chunks out, the same back with the chunks filled), the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape: the flat `x`
  iapply (wp_hlo_within 𝒱 (SparseCore.T d) none Set.univ (op := op1) (S := S4) h1sub (V := V0 m d)) $$ [Hb Hheld]
  · isplitl [Hb]; · iexact Hb
    iexact Hheld
  iintro ⟨Hb, Hheld⟩
  ihave Hh := (Entails.of_eq (held1_eq m d)) $$ Hheld
  icases Hh with ⟨Ha, Hx, Ho, Hr⟩
  ihave Hx' := (x_split d (X0 m d)).1 $$ Hx
  icases Hx' with ⟨Hxr, Hxt⟩
  ihave Ho' := (Entails.of_eq (o_split (F := F) d (m (oLoc d)))) $$ Ho
  -- the call
  rw [wp_ret]; imodintro
  iapply ((K (F := F)).wp_run (D (F := F)) 𝒱 (EH := EH) (P := P m) κ d 0) $$ [Hst Hxt Ho' Hxr Ha Hr Hb]
  isplitr; · iexact Hctx
  isplitl [Hst]; · iexact Hst
  isplitl [Hxt Ho']
  · rw [st0_eq]
    isplitl [Hxt]; · iexact Hxt
    iexact Ho'
  iintro ⟨Hst, Hdn⟩
  ihave Hdn' := (Entails.of_eq (dn0_eq m d)) $$ Hdn
  icases Hdn' with ⟨Hxt, Ho'⟩
  ihave Hx := (x_split d (X0 m d)).2 $$ [Hxr Hxt]
  · isplitl [Hxr]; · iexact Hxr
    iexact Hxt
  ihave Ho := (Entails.of_eq (o_split (F := F) d (GFb d (X0 m d))).symm) $$ Ho'
  -- the last reshape
  iapply (wp_hlo_within 𝒱 (SparseCore.T d) none Set.univ (op := op2) (S := S4) h2sub (V := V2 m d)) $$ [Hb Ha Hx Ho Hr]
  · isplitl [Hb]; · iexact Hb
    iapply (Entails.of_eq (heldV2_eq m d).symm)
    isplitl [Ha]; · iexact Ha
    isplitl [Hx]; · iexact Hx
    isplitl [Ho]; · iexact Ho
    iexact Hr
  iintro ⟨Hb, Hheld⟩
  ihave Hh := (Entails.of_eq (held2_eq m d)) $$ Hheld
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop := s'.mem.mem (aLoc d) = m (aLoc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := RES m d)) $$ [HSI Hr]
  · isplitl [HSI] <;> iassumption
  icases H with %h2
  ipureintro; exact ⟨funext fun i => h1 i (Finset.mem_univ i), funext fun i => h2 i (Finset.mem_univ i)⟩

/-! ## The program's run -/

/-- The result is the mask selection of `x`, and `x` is unchanged. -/
def QC : PUnit × MemSt nD τ sig (Elt F) → Prop := fun r => ∀ c : Dev nD,
  r.2.mem (rLoc c) = Cert.Spec.G (α := Elt F .f32) (m (aLoc c)) ∧ r.2.mem (aLoc c) = m (aLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.trans (RES_eq m c), (h c).1⟩)

end Cert.Proof.Kernel

end
-- ==== Proof.KernelIdealBase.lean ====
/-
  The copy kernel's certificate, first part: the program as the launch theorem sees it, the ghost state, and the
  pieces of memory a task works on, spelt as the kernel's body slices them.

  The kernel reads `x` as a flat array of 28672 rows of 2048 words and writes a flat array of 16384 rows. Worker
  `w = 2 s + c` (vector subcore `s` of SparseCore `c`, 32 workers) copies the 512 rows `512 w ‥ 512 w + 511` of the
  result from the 512 rows of `x` that start at row `512 w + 6144 (w / 16)`, sixteen rows (a chunk) at a time
  through a ring of three 16-row slots of its own vector memory: chunk `k` lands in slot `k % 3` on that slot's
  fetch semaphore and leaves it on that slot's write-back semaphore, so per semaphore one copy is in flight at a time.
-/
import proofs.«211868_g61933428409095_cont_9to1c4b_524_16_alg».proof.Defs
import Idealize.ShloMosaic.Lib.SparseCore.Launch
import Idealize.ShloMosaic.Lib.StableHlo.Run
import Idealize.ShloMosaic.Lib.Pipeline.Kit
import Idealize.ShloMosaic.Lib.Tactic
import proofs.«211868_g61933428409095_cont_9to1c4b_524_16_alg».proof.Proof.Gen.KernelIdeal
import proofs.«211868_g61933428409095_cont_9to1c4b_524_16_alg».proof.Proof.Gen.KernelIdeal.Skeleton

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Places and memrefs -/

/-- The flat view of `x` (the kernel's operand), the flat result (its output), as the TensorCore places them. -/
abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The kernel's memrefs, as the body table passes them. -/
abbrev xV : Memref sig .scVector .hbm S28672x2048 .f32 := Memref.whole main_v0_scv
abbrev oV : Memref sig .scVector .hbm S16384x2048 .f32 := Memref.whole main_v1_scv
abbrev sV : Memref sig .scVector .vmem S3x16x2048 .f32 := Memref.whole cc0_scratch0

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Chunk `w / 16` of the worker's 512 result rows, as the body slices it (`w` the row offset as a word). -/
abbrev oCk (L : grid0.Coords) (w : BitVec 32) (h : ∀ a, (k0_off2 L w) a + S16x2048.size a ≤ S16384x2048.size a) :
    Memref sig .scVector .hbm S16x2048 .f32 :=
  (oV).slice (Rect.unit (s := S16384x2048) (k0_off2 L w) S16x2048.size h) (fun _ => rfl)

/-- The same chunk of the worker's 512 source rows. -/
abbrev xCk (L : grid0.Coords) (w : BitVec 32) (h : ∀ a, (k0_off1 L w) a + S16x2048.size a ≤ S28672x2048.size a) :
    Memref sig .scVector .hbm S16x2048 .f32 :=
  (xV).slice (Rect.unit (s := S28672x2048) (k0_off1 L w) S16x2048.size h) (fun _ => rfl)

/-- Slot `k` of the ring, as the body slices and squeezes it. -/
abbrev slot (k : Nat) (h : ∀ a, (![k, 0, 0] : Fin 3 → Nat) a + S1x16x2048.size a ≤ S3x16x2048.size a) :
    Memref sig .scVector .vmem S16x2048 .f32 :=
  ((sV).slice (Rect.unit (s := S3x16x2048) ![k, 0, 0] S1x16x2048.size h) (fun _ => rfl)).squeeze S16x2048 squeezes_S1x16x2048_S16x2048

/-- The six DMA semaphores a task names: the fetch semaphores 0‥2, the write-back semaphores 3‥5. -/
abbrev csem (k : Nat) (hk : k < 6 := by decide) : DmaSem sig := ⟨k, hk⟩

end Cert.Proof.KernelIdeal

end
-- ==== Proof.KernelIdealGeom.lean ====
import proofs.«211868_g61933428409095_cont_9to1c4b_524_16_alg».proof.Proof.KernelIdealBase
import proofs.«211868_g61933428409095_cont_9to1c4b_524_16_alg».proof.Proof.Spec
import Idealize.ShloMosaic.Lib.ValueIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.ValueIdx

local notation "𝕄" => MT nD τ sig (HIx 1) (Elt F) ℕ UU ℕ

/-! # The geometry of the copy: which rows each worker's chunks are, and what lands in them

Worker `(c, i)` (SparseCore `c`, vector subcore `i`) is worker number `w = 2 i + c`. Its chunk `r` (of 32) is the 16
result rows from `512 w + 16 r = 1024 i + 512 c + 16 r`, fetched from the 16 source rows from
`512 w + 6144 (w / 16) + 16 r`. The 2 · 16 · 32 chunks tile the result; the three ring slots tile the scratch. -/

def coordsV (c : Fin (grid0.bound 0)) (s : Fin (grid0.bound 1)) : grid0.Coords :=
  fun | 0 => c | 1 => s | ⟨_ + 2, h⟩ => absurd h (Nat.not_lt.2 (Nat.le_add_left _ _))

theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

theorem coords_eta (L : grid0.Coords) : coordsV (L 0) (L 1) = L :=
  funext fun a => match a with | 0 => rfl | 1 => rfl

/-! ## The source offset in closed form -/

/-- The first source row of chunk `r` of worker `(c, i)`: the printed chain of signed divisions and remainders,
    evaluated at each of the 2 · 16 · 32 places. -/
theorem off1_closed : ∀ (c : Fin 2) (i : Fin 16) (r : Fin 32),
    k0_off1 (coordsV c i) (BitVec.ofNat 32 (16 * r.val)) 0
      = 512 * (2 * i.val + c.val) + 6144 * ((2 * i.val + c.val) / 16) + 16 * r.val := by
  decide +kernel

theorem off1_zero (L : grid0.Coords) (r : Fin 32) :
    k0_off1 L (BitVec.ofNat 32 (16 * r.val)) 0
      = 512 * (2 * (L 1).val + (L 0).val) + 6144 * ((2 * (L 1).val + (L 0).val) / 16) + 16 * r.val := by
  have h := off1_closed (L 0) (L 1) r
  rwa [coords_eta L] at h

theorem off2_zero (L : grid0.Coords) (r : Fin 32) :
    k0_off2 L (BitVec.ofNat 32 (16 * r.val)) 0 = 1024 * (L 1).val + 512 * (L 0).val + 16 * r.val := by
  rw [k0_off2_eq]; rfl

/-! ## The result's chunks -/

theorem oInb (c : Fin 2) (i : Fin 16) (r : Fin 32) :
    ∀ a, (![1024 * i.val + 512 * c.val + 16 * r.val, 0] : Fin 2 → Nat) a + S16x2048.size a ≤ S16384x2048.size a :=
  Rect.inb₂ (by show 1024 * i.val + 512 * c.val + 16 * r.val + 16 ≤ 16384; omega) (by show 0 + 2048 ≤ 2048; omega)

/-- Chunk `r` of worker `(c, i)`: sixteen whole rows of the result. -/
abbrev oRect (c : Fin 2) (i : Fin 16) (r : Fin 32) : Rect S16384x2048 :=
  Rect.unit (s := S16384x2048) ![1024 * i.val + 512 * c.val + 16 * r.val, 0] S16x2048.size (oInb c i r)

def oSet (c : Fin 2) (i : Fin 16) (r : Fin 32) : Finset S16384x2048.Idx := (oRect c i r).set

theorem oSet_disjoint : ∀ p ∈ (Finset.univ : Finset (Fin 2 × Fin 16 × Fin 32)), ∀ p' ∈ (Finset.univ : Finset (Fin 2 × Fin 16 × Fin 32)),
    p ≠ p' → Disjoint (oSet p.1 p.2.1 p.2.2) (oSet p'.1 p'.2.1 p'.2.2) := by
  rintro ⟨c, i, r⟩ - ⟨c', i', r'⟩ - h
  have hc := c.isLt; have hc' := c'.isLt; have hr := r.isLt; have hr' := r'.isLt
  by_cases hlt : 64 * i.val + 32 * c.val + r.val < 64 * i'.val + 32 * c'.val + r'.val
  · exact Rect.unit_disjoint 0 (.inl (by
      show 1024 * i.val + 512 * c.val + 16 * r.val + 16 ≤ 1024 * i'.val + 512 * c'.val + 16 * r'.val; omega))
  · by_cases hgt : 64 * i'.val + 32 * c'.val + r'.val < 64 * i.val + 32 * c.val + r.val
    · exact Rect.unit_disjoint 0 (.inr (by
        show 1024 * i'.val + 512 * c'.val + 16 * r'.val + 16 ≤ 1024 * i.val + 512 * c.val + 16 * r.val; omega))
    · exact absurd (Prod.ext (Fin.ext (by show c.val = c'.val; omega))
        (Prod.ext (Fin.ext (by show i.val = i'.val; omega)) (Fin.ext (by show r.val = r'.val; omega)))) h

theorem oSet_cover : (Finset.univ : Finset (Fin 2 × Fin 16 × Fin 32)).biUnion (fun p => oSet p.1 p.2.1 p.2.2) = Finset.univ := by
  ext j
  simp only [Finset.mem_biUnion, Finset.mem_univ, true_and, iff_true]
  have h0 := idx2_lt0 j; have h1 := idx2_lt1 j
  refine ⟨(⟨(j 0).val / 16 / 32 % 2, by omega⟩, ⟨(j 0).val / 16 / 64, by omega⟩, ⟨(j 0).val / 16 % 32, by omega⟩),
    Rect.mem_set_unit.mpr fun a => ?_⟩
  match a with
  | 0 => exact ⟨by show 1024 * ((j 0).val / 16 / 64) + 512 * ((j 0).val / 16 / 32 % 2) + 16 * ((j 0).val / 16 % 32) ≤ (j 0).val; omega,
      by show (j 0).val < 1024 * ((j 0).val / 16 / 64) + 512 * ((j 0).val / 16 / 32 % 2) + 16 * ((j 0).val / 16 % 32) + 16; omega⟩
  | 1 => exact ⟨Nat.zero_le _, by show (j 1).val < 0 + 2048; omega⟩

/-- The chunk as the body slices it is the chunk. -/
theorem set_oCk (L : grid0.Coords) (r : Fin 32) :
    (oCk L (BitVec.ofNat 32 (16 * r.val)) (k0_off2_inb L r)).view.set = oSet (cL L) (iL L) r := by
  show ((View.whole (main_v1_scv : Ref sig .scVector)).slice (Rect.unit (s := S16384x2048) (k0_off2 L (BitVec.ofNat 32 (16 * r.val))) S16x2048.size (k0_off2_inb L r))).set = _
  rw [View.set_slice]
  refine Finset.map_refl.trans ?_
  unfold oSet oRect
  congr 1
  simp only [k0_off2_eq]
  rfl

/-! ## The ring's slots -/

theorem sInb (k : Fin 3) : ∀ a, (![k.val, 0, 0] : Fin 3 → Nat) a + S1x16x2048.size a ≤ S3x16x2048.size a := by
  intro a
  match a with
  | 0 => show k.val + 1 ≤ 3; omega
  | 1 => show 0 + 16 ≤ 16; omega
  | 2 => show 0 + 2048 ≤ 2048; omega

def sSet (k : Fin 3) : Finset S3x16x2048.Idx := (Rect.unit (s := S3x16x2048) ![k.val, 0, 0] S1x16x2048.size (sInb k)).set

theorem sSet_disjoint : ∀ k ∈ (Finset.univ : Finset (Fin 3)), ∀ k' ∈ (Finset.univ : Finset (Fin 3)), k ≠ k' → Disjoint (sSet k) (sSet k') := by
  intro k _ k' _ h
  have : k.val ≠ k'.val := fun e => h (Fin.ext e)
  exact Rect.unit_disjoint 0 (by show k.val + 1 ≤ k'.val ∨ k'.val + 1 ≤ k.val; omega)

theorem sSet_cover : (Finset.univ : Finset (Fin 3)).biUnion sSet = Finset.univ := by
  ext j
  simp only [Finset.mem_biUnion, Finset.mem_univ, true_and, iff_true]
  refine ⟨⟨(j 0).val, (j 0).isLt⟩, Rect.mem_set_unit.mpr fun a => ?_⟩
  match a with
  | 0 => exact ⟨Nat.le_refl _, Nat.lt_succ_self _⟩
  | 1 => exact ⟨Nat.zero_le _, by have h1 : (j 1).val < 16 := (j 1).isLt; show (j 1).val < 0 + 16; omega⟩
  | 2 => exact ⟨Nat.zero_le _, by have h2 : (j 2).val < 2048 := (j 2).isLt; show (j 2).val < 0 + 2048; omega⟩

theorem set_slot (k : Fin 3) (h : ∀ a, (![k.val, 0, 0] : Fin 3 → Nat) a + S1x16x2048.size a ≤ S3x16x2048.size a) :
    (slot k.val h).view.set = sSet k := by
  show (((View.whole (cc0_scratch0 : Ref sig .scVector)).slice (Rect.unit (s := S3x16x2048) ![k.val, 0, 0] S1x16x2048.size h)).reshape S16x2048
    squeezes_S1x16x2048_S16x2048.numel_eq).set = _
  rw [View.set_reshape, View.set_slice]
  exact Finset.map_refl

/-! ## What a landed copy reads back -/

/-- A view written whole last reads back what was written. -/
theorem read_writes_whole {sig' : RefSig} {κ : Kind} {sp : Space} {s : Shape} {e : EltTy} {Val : EltTy → Type}
    (v : View sig' κ sp s e) (f : BufTy.Contents Val v.ty) (w : (Rect.whole s).shape.Idx → Val e) (Ls : List (View.Piece Val s e)) :
    View.read Val v (v.writes Val f (⟨Rect.whole s, w⟩ :: Ls)) = w := by
  funext x
  have h := View.read_writes_cons_emb v f (Rect.whole s) w Ls x
  rwa [Rect.emb_whole_apply] at h

/-- Two contents that read the same through a view agree on the view's elements. -/
theorem eqOn_set_of_read_eq {sig' : RefSig} {κ : Kind} {sp : Space} {s : Shape} {e : EltTy} {Val : EltTy → Type}
    (v : View sig' κ sp s e) (f g : BufTy.Contents Val v.ty) (h : View.read Val v f = View.read Val v g) :
    ∀ j ∈ v.set, f j = g j := by
  intro j hj
  obtain ⟨y, -, rfl⟩ := Finset.mem_map.mp hj
  exact (cast_inj _).mp (congrFun h y)

/-- Row by row, a result chunk's elements are the source chunk's, and the source chunk is where the flat
    specification reads: `GF` at an element of the result chunk is `x` at the matching element of the source chunk. -/
theorem chunk_value (L : grid0.Coords) (r : Fin 32) {α : Type} (fx : S28672x2048.Idx → α) (y : S16x2048.Idx) :
    Cert.Spec.GF fx ((oCk L (BitVec.ofNat 32 (16 * r.val)) (k0_off2_inb L r)).view.emb y)
      = fx ((xCk L (BitVec.ofNat 32 (16 * r.val)) (k0_off1_inb L r)).view.emb y) := by
  unfold Cert.Spec.GF
  congr 1
  funext a
  have hy0 := idx2_lt0 y
  have hL0 : (L 0).val < 2 := (L 0).isLt
  have hL1 : (L 1).val < 16 := (L 1).isLt
  have hr := r.isLt
  match a with
  | 0 =>
    refine Fin.ext ?_
    show (k0_off2 L (BitVec.ofNat 32 (16 * r.val)) 0 + 1 * (y 0).val)
        + 6144 * ((k0_off2 L (BitVec.ofNat 32 (16 * r.val)) 0 + 1 * (y 0).val) / 8192)
      = k0_off1 L (BitVec.ofNat 32 (16 * r.val)) 0 + 1 * (y 0).val
    rw [off2_zero, off1_zero]
    omega
  | 1 =>
    refine Fin.ext ?_
    show k0_off2 L (BitVec.ofNat 32 (16 * r.val)) 1 + 1 * (y 1).val = k0_off1 L (BitVec.ofNat 32 (16 * r.val)) 1 + 1 * (y 1).val
    rfl

end Cert.Proof.KernelIdeal

end
-- ==== Proof.KernelIdealBody.lean ====
import proofs.«211868_g61933428409095_cont_9to1c4b_524_16_alg».proof.Proof.KernelIdealBase
import proofs.«211868_g61933428409095_cont_9to1c4b_524_16_alg».proof.Proof.KernelIdealGeom

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.ValueIdx

local notation "𝕄" => MT nD τ sig (HIx 1) (Elt F) ℕ UU ℕ

/-! # One worker's task

The task's pieces, in the body's own spelling: its share of the flat `x` as three read tokens (one per fetch
semaphore: up to three fetches read `x` at once), its 32 result chunks, the three ring slots, its six DMA semaphores
at zero. The symbolic run issues and waits the 64 copies; what each result chunk then holds is read back through the
two copies that filled it: the slot's contents after the fetch are the source chunk, and the chunk's after the
write-back are the slot's. -/

variable [FloatOps F] (d : Dev nD) (L : grid0.Coords)

/-- The flat specification at the buffers' types. -/
abbrev GFb (fx : Buf (Elt F) (xLoc d)) : Buf (Elt F) (oLoc d) := Cert.Spec.GF (α := Elt F .f32) fx

/-- The worker's 32 result chunks, each held by exactly its own elements, all at the contents `f`. -/
def Ochunks (f : Buf (Elt F) (oLoc d)) : sProp 𝕄 :=
  iprop(
      ((oCk L 0#32 (k0_off2_inb L 0)).view.loc (VT d L) ↦[(oCk L 0#32 (k0_off2_inb L 0)).view.set]{fullShare} f)
    ∗
      ((oCk L 16#32 (k0_off2_inb L 1)).view.loc (VT d L) ↦[(oCk L 16#32 (k0_off2_inb L 1)).view.set]{fullShare} f)
    ∗
      ((oCk L 32#32 (k0_off2_inb L 2)).view.loc (VT d L) ↦[(oCk L 32#32 (k0_off2_inb L 2)).view.set]{fullShare} f)
    ∗
      ((oCk L 48#32 (k0_off2_inb L 3)).view.loc (VT d L) ↦[(oCk L 48#32 (k0_off2_inb L 3)).view.set]{fullShare} f)
    ∗
      ((oCk L 64#32 (k0_off2_inb L 4)).view.loc (VT d L) ↦[(oCk L 64#32 (k0_off2_inb L 4)).view.set]{fullShare} f)
    ∗
      ((oCk L 80#32 (k0_off2_inb L 5)).view.loc (VT d L) ↦[(oCk L 80#32 (k0_off2_inb L 5)).view.set]{fullShare} f)
    ∗
      ((oCk L 96#32 (k0_off2_inb L 6)).view.loc (VT d L) ↦[(oCk L 96#32 (k0_off2_inb L 6)).view.set]{fullShare} f)
    ∗
      ((oCk L 112#32 (k0_off2_inb L 7)).view.loc (VT d L) ↦[(oCk L 112#32 (k0_off2_inb L 7)).view.set]{fullShare} f)
    ∗
      ((oCk L 128#32 (k0_off2_inb L 8)).view.loc (VT d L) ↦[(oCk L 128#32 (k0_off2_inb L 8)).view.set]{fullShare} f)
    ∗
      ((oCk L 144#32 (k0_off2_inb L 9)).view.loc (VT d L) ↦[(oCk L 144#32 (k0_off2_inb L 9)).view.set]{fullShare} f)
    ∗
      ((oCk L 160#32 (k0_off2_inb L 10)).view.loc (VT d L) ↦[(oCk L 160#32 (k0_off2_inb L 10)).view.set]{fullShare} f)
    ∗
      ((oCk L 176#32 (k0_off2_inb L 11)).view.loc (VT d L) ↦[(oCk L 176#32 (k0_off2_inb L 11)).view.set]{fullShare} f)
    ∗
      ((oCk L 192#32 (k0_off2_inb L 12)).view.loc (VT d L) ↦[(oCk L 192#32 (k0_off2_inb L 12)).view.set]{fullShare} f)
    ∗
      ((oCk L 208#32 (k0_off2_inb L 13)).view.loc (VT d L) ↦[(oCk L 208#32 (k0_off2_inb L 13)).view.set]{fullShare} f)
    ∗
      ((oCk L 224#32 (k0_off2_inb L 14)).view.loc (VT d L) ↦[(oCk L 224#32 (k0_off2_inb L 14)).view.set]{fullShare} f)
    ∗
      ((oCk L 240#32 (k0_off2_inb L 15)).view.loc (VT d L) ↦[(oCk L 240#32 (k0_off2_inb L 15)).view.set]{fullShare} f)
    ∗
      ((oCk L 256#32 (k0_off2_inb L 16)).view.loc (VT d L) ↦[(oCk L 256#32 (k0_off2_inb L 16)).view.set]{fullShare} f)
    ∗
      ((oCk L 272#32 (k0_off2_inb L 17)).view.loc (VT d L) ↦[(oCk L 272#32 (k0_off2_inb L 17)).view.set]{fullShare} f)
    ∗
      ((oCk L 288#32 (k0_off2_inb L 18)).view.loc (VT d L) ↦[(oCk L 288#32 (k0_off2_inb L 18)).view.set]{fullShare} f)
    ∗
      ((oCk L 304#32 (k0_off2_inb L 19)).view.loc (VT d L) ↦[(oCk L 304#32 (k0_off2_inb L 19)).view.set]{fullShare} f)
    ∗
      ((oCk L 320#32 (k0_off2_inb L 20)).view.loc (VT d L) ↦[(oCk L 320#32 (k0_off2_inb L 20)).view.set]{fullShare} f)
    ∗
      ((oCk L 336#32 (k0_off2_inb L 21)).view.loc (VT d L) ↦[(oCk L 336#32 (k0_off2_inb L 21)).view.set]{fullShare} f)
    ∗
      ((oCk L 352#32 (k0_off2_inb L 22)).view.loc (VT d L) ↦[(oCk L 352#32 (k0_off2_inb L 22)).view.set]{fullShare} f)
    ∗
      ((oCk L 368#32 (k0_off2_inb L 23)).view.loc (VT d L) ↦[(oCk L 368#32 (k0_off2_inb L 23)).view.set]{fullShare} f)
    ∗
      ((oCk L 384#32 (k0_off2_inb L 24)).view.loc (VT d L) ↦[(oCk L 384#32 (k0_off2_inb L 24)).view.set]{fullShare} f)
    ∗
      ((oCk L 400#32 (k0_off2_inb L 25)).view.loc (VT d L) ↦[(oCk L 400#32 (k0_off2_inb L 25)).view.set]{fullShare} f)
    ∗
      ((oCk L 416#32 (k0_off2_inb L 26)).view.loc (VT d L) ↦[(oCk L 416#32 (k0_off2_inb L 26)).view.set]{fullShare} f)
    ∗
      ((oCk L 432#32 (k0_off2_inb L 27)).view.loc (VT d L) ↦[(oCk L 432#32 (k0_off2_inb L 27)).view.set]{fullShare} f)
    ∗
      ((oCk L 448#32 (k0_off2_inb L 28)).view.loc (VT d L) ↦[(oCk L 448#32 (k0_off2_inb L 28)).view.set]{fullShare} f)
    ∗
      ((oCk L 464#32 (k0_off2_inb L 29)).view.loc (VT d L) ↦[(oCk L 464#32 (k0_off2_inb L 29)).view.set]{fullShare} f)
    ∗
      ((oCk L 480#32 (k0_off2_inb L 30)).view.loc (VT d L) ↦[(oCk L 480#32 (k0_off2_inb L 30)).view.set]{fullShare} f)
    ∗
      ((oCk L 496#32 (k0_off2_inb L 31)).view.loc (VT d L) ↦[(oCk L 496#32 (k0_off2_inb L 31)).view.set]{fullShare} f))

omit [FloatOps F] in
/-- What a copy out of a slot carries: the slot was written whole last, so the copy reads back that payload. -/
theorem slot_reads {sig' : RefSig} {κ : Kind} {sp : Space} {s : Shape} {e : EltTy} {Val : EltTy → Type}
    (v : View sig' κ sp s e) (g : BufTy.Contents Val v.ty) (q : (Rect.whole s).shape.Idx → Val e) (Ls : List (View.Piece Val s e)) :
    (ReadAs.same : ReadAs Val s e s e).apply (View.read Val v (v.writes Val g (⟨Rect.whole s, q⟩ :: Ls))) = q := by
  rw [ReadAs.apply_same, read_writes_whole]

omit [FloatOps F] in
/-- A result chunk after its write-back of the source chunk's elements holds the flat specification of `x`
    (`hv`: element by element the flat specification at the result chunk reads `x` at the source chunk). -/
theorem chunk_lands (w : BitVec 32) (h2 : ∀ a, (k0_off2 L w) a + S16x2048.size a ≤ S16384x2048.size a)
    (h1 : ∀ a, (k0_off1 L w) a + S16x2048.size a ≤ S28672x2048.size a)
    (fo : Buf (Elt F) (oLoc d)) (fx : Buf (Elt F) (xLoc d))
    (hv : ∀ y : S16x2048.Idx, Cert.Spec.GF (α := Elt F .f32) fx ((oCk L w h2).view.emb y) = fx ((xCk L w h1).view.emb y))
    (p : (Rect.whole S16x2048).shape.Idx → Elt F .f32)
    (hp : p = View.read (Elt F) (xCk L w h1).view fx) :
    ((oCk L w h2).view.loc (VT d L) ↦[(oCk L w h2).view.set]{fullShare}
        (oCk L w h2).view.writes (Elt F) fo [⟨Rect.whole S16x2048, p⟩] : sProp 𝕄)
      = ((oCk L w h2).view.loc (VT d L) ↦[(oCk L w h2).view.set]{fullShare} GFb d fx) := by
  subst hp
  refine pointsTo_congr (eqOn_set_of_read_eq (oCk L w h2).view _ (GFb d fx) ?_)
  refine (read_writes_whole (oCk L w h2).view fo _ []).trans (funext fun y => ?_)
  exact (hv y).symm

end Cert.Proof.KernelIdeal

end
-- ==== Proof.KernelIdealRun.lean ====
import proofs.«211868_g61933428409095_cont_9to1c4b_524_16_alg».proof.Proof.KernelIdealBase
import proofs.«211868_g61933428409095_cont_9to1c4b_524_16_alg».proof.Proof.KernelIdealBody

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.ValueIdx

local notation "𝕄" => MT nD τ sig (HIx 1) (Elt F) ℕ UU ℕ

/-! # The task's body, run

The symbolic run of the 64 copies and their waits, from the task's pieces in the body's own spelling. Fetch `k` lands
source chunk `k` in slot `k % 3`; write-back `k` carries the slot to result chunk `k`; the slot is fetched into again
only after its write-back has been waited for. So what result chunk `k` holds at the end is read back through two
whole-slot writes: it is source chunk `k`, which is where the flat specification reads. -/

variable [FloatOps F] (d : Dev nD) (L : grid0.Coords)

set_option maxHeartbeats 8000000 in
/-- Every wait of the task returns, and each result chunk ends holding the flat specification of the source. -/
theorem tile_run (q : PosShare TreeShare) (O : CellTallies nD τ sig (HIx 1)) (W : Waits sig (HIx 1))
    (fx : Buf (Elt F) (xLoc d)) (fo : Buf (Elt F) (oLoc d))
    (g0 g1 g2 : Buf (Elt F) ((VT d L).loc cc0_scratch0)) :
    (iprop(Transfers.MayWaits (VT d L) (default : HIx 1) O
        ∗ ((xV).view.loc (VT d L) ↦{Transfers.shareTokN q 0} fx)
        ∗ ((xV).view.loc (VT d L) ↦{Transfers.shareTokN q 1} fx)
        ∗ ((xV).view.loc (VT d L) ↦{Transfers.shareTokN q 2} fx)
        ∗ Ochunks d L fo
        ∗ ((slot 0 inb_S3x16x2048_S1x16x2048_0_0_0).view.loc (VT d L) ↦[(slot 0 inb_S3x16x2048_S1x16x2048_0_0_0).view.set]{fullShare} g0)
        ∗ ((slot 1 inb_S3x16x2048_S1x16x2048_1_0_0).view.loc (VT d L) ↦[(slot 1 inb_S3x16x2048_S1x16x2048_1_0_0).view.set]{fullShare} g1)
        ∗ ((slot 2 inb_S3x16x2048_S1x16x2048_2_0_0).view.loc (VT d L) ↦[(slot 2 inb_S3x16x2048_S1x16x2048_2_0_0).view.set]{fullShare} g2)
        ∗ semVal (VT d L, SemLoc.dma (csem 0)) 0 ∗ semVal (VT d L, SemLoc.dma (csem 1)) 0 ∗ semVal (VT d L, SemLoc.dma (csem 2)) 0
        ∗ semVal (VT d L, SemLoc.dma (csem 3)) 0 ∗ semVal (VT d L, SemLoc.dma (csem 4)) 0 ∗ semVal (VT d L, SemLoc.dma (csem 5)) 0
        ∗ owes (VT d L) O W) : sProp 𝕄)
      ⊢ wp frame (wpE (defs₀ (F := F)) 𝒱₀ (VT d L) none) Set.univ
          (cc0__sc_body L xV (Memref.isWhole_whole _) oV (Memref.isWhole_whole _) sV (Memref.isWhole_whole _) cc0_scratch1 cc0_scratch2)
          fun _ => iprop(((xV).view.loc (VT d L) ↦{Transfers.shareTokN q 0} fx)
            ∗ ((xV).view.loc (VT d L) ↦{Transfers.shareTokN q 1} fx)
            ∗ ((xV).view.loc (VT d L) ↦{Transfers.shareTokN q 2} fx)
            ∗ Ochunks d L (GFb d fx)
            ∗ (∃ g, ((slot 0 inb_S3x16x2048_S1x16x2048_0_0_0).view.loc (VT d L) ↦[(slot 0 inb_S3x16x2048_S1x16x2048_0_0_0).view.set]{fullShare} g))
            ∗ (∃ g, ((slot 1 inb_S3x16x2048_S1x16x2048_1_0_0).view.loc (VT d L) ↦[(slot 1 inb_S3x16x2048_S1x16x2048_1_0_0).view.set]{fullShare} g))
            ∗ (∃ g, ((slot 2 inb_S3x16x2048_S1x16x2048_2_0_0).view.loc (VT d L) ↦[(slot 2 inb_S3x16x2048_S1x16x2048_2_0_0).view.set]{fullShare} g))
            ∗ semVal (VT d L, SemLoc.dma (csem 0)) 0 ∗ semVal (VT d L, SemLoc.dma (csem 1)) 0 ∗ semVal (VT d L, SemLoc.dma (csem 2)) 0
            ∗ semVal (VT d L, SemLoc.dma (csem 3)) 0 ∗ semVal (VT d L, SemLoc.dma (csem 4)) 0 ∗ semVal (VT d L, SemLoc.dma (csem 5)) 0
            ∗ ∃ W', owes (VT d L) O W') := by
  unfold Ochunks
  iintro ⟨#Hmw, HX0, HX1, HX2, ⟨HO0, HO1, HO2, HO3, HO4, HO5, HO6, HO7, HO8, HO9, HO10, HO11, HO12, HO13, HO14, HO15, HO16, HO17, HO18, HO19, HO20, HO21, HO22, HO23, HO24, HO25, HO26, HO27, HO28, HO29, HO30, HO31⟩, HS0, HS1, HS2, Hc0, Hc1, Hc2, Hc3, Hc4, Hc5, HO⟩
  sl_unfold [cc0__sc_body]
  sl_exec
  -- what each write-back carried: the slot had been written whole by the chunk's fetch
  have hp0 : tile_run.sl.dma0_3 d L fx g0 = View.read (Elt F) (xCk L 0#32 (k0_off1_inb L 0)).view fx := by
    unfold tile_run.sl.dma0_3 tile_run.sl.dma0
    rw [ReadAs.apply_same, read_writes_whole, ReadAs.apply_same]
  have hp1 : tile_run.sl.dma0_5 d L fx g1 = View.read (Elt F) (xCk L 16#32 (k0_off1_inb L 1)).view fx := by
    unfold tile_run.sl.dma0_5 tile_run.sl.dma0_1
    rw [ReadAs.apply_same, read_writes_whole, ReadAs.apply_same]
  have hp2 : tile_run.sl.dma0_7 d L fx g2 = View.read (Elt F) (xCk L 32#32 (k0_off1_inb L 2)).view fx := by
    unfold tile_run.sl.dma0_7 tile_run.sl.dma0_2
    rw [ReadAs.apply_same, read_writes_whole, ReadAs.apply_same]
  have hp3 : tile_run.sl.dma0_9 d L fx g0 = View.read (Elt F) (xCk L 48#32 (k0_off1_inb L 3)).view fx := by
    unfold tile_run.sl.dma0_9 tile_run.sl.dma0_4
    rw [ReadAs.apply_same, read_writes_whole, ReadAs.apply_same]
  have hp4 : tile_run.sl.dma0_11 d L fx g1 = View.read (Elt F) (xCk L 64#32 (k0_off1_inb L 4)).view fx := by
    unfold tile_run.sl.dma0_11 tile_run.sl.dma0_6
    rw [ReadAs.apply_same, read_writes_whole, ReadAs.apply_same]
  have hp5 : tile_run.sl.dma0_13 d L fx g2 = View.read (Elt F) (xCk L 80#32 (k0_off1_inb L 5)).view fx := by
    unfold tile_run.sl.dma0_13 tile_run.sl.dma0_8
    rw [ReadAs.apply_same, read_writes_whole, ReadAs.apply_same]
  have hp6 : tile_run.sl.dma0_15 d L fx g0 = View.read (Elt F) (xCk L 96#32 (k0_off1_inb L 6)).view fx := by
    unfold tile_run.sl.dma0_15 tile_run.sl.dma0_10
    rw [ReadAs.apply_same, read_writes_whole, ReadAs.apply_same]
  have hp7 : tile_run.sl.dma0_17 d L fx g1 = View.read (Elt F) (xCk L 112#32 (k0_off1_inb L 7)).view fx := by
    unfold tile_run.sl.dma0_17 tile_run.sl.dma0_12
    rw [ReadAs.apply_same, read_writes_whole, ReadAs.apply_same]
  have hp8 : tile_run.sl.dma0_19 d L fx g2 = View.read (Elt F) (xCk L 128#32 (k0_off1_inb L 8)).view fx := by
    unfold tile_run.sl.dma0_19 tile_run.sl.dma0_14
    rw [ReadAs.apply_same, read_writes_whole, ReadAs.apply_same]
  have hp9 : tile_run.sl.dma0_21 d L fx g0 = View.read (Elt F) (xCk L 144#32 (k0_off1_inb L 9)).view fx := by
    unfold tile_run.sl.dma0_21 tile_run.sl.dma0_16
    rw [ReadAs.apply_same, read_writes_whole, ReadAs.apply_same]
  have hp10 : tile_run.sl.dma0_23 d L fx g1 = View.read (Elt F) (xCk L 160#32 (k0_off1_inb L 10)).view fx := by
    unfold tile_run.sl.dma0_23 tile_run.sl.dma0_18
    rw [ReadAs.apply_same, read_writes_whole, ReadAs.apply_same]
  have hp11 : tile_run.sl.dma0_25 d L fx g2 = View.read (Elt F) (xCk L 176#32 (k0_off1_inb L 11)).view fx := by
    unfold tile_run.sl.dma0_25 tile_run.sl.dma0_20
    rw [ReadAs.apply_same, read_writes_whole, ReadAs.apply_same]
  have hp12 : tile_run.sl.dma0_27 d L fx g0 = View.read (Elt F) (xCk L 192#32 (k0_off1_inb L 12)).view fx := by
    unfold tile_run.sl.dma0_27 tile_run.sl.dma0_22
    rw [ReadAs.apply_same, read_writes_whole, ReadAs.apply_same]
  have hp13 : tile_run.sl.dma0_29 d L fx g1 = View.read (Elt F) (xCk L 208#32 (k0_off1_inb L 13)).view fx := by
    unfold tile_run.sl.dma0_29 tile_run.sl.dma0_24
    rw [ReadAs.apply_same, read_writes_whole, ReadAs.apply_same]
  have hp14 : tile_run.sl.dma0_31 d L fx g2 = View.read (Elt F) (xCk L 224#32 (k0_off1_inb L 14)).view fx := by
    unfold tile_run.sl.dma0_31 tile_run.sl.dma0_26
    rw [ReadAs.apply_same, read_writes_whole, ReadAs.apply_same]
  have hp15 : tile_run.sl.dma0_33 d L fx g0 = View.read (Elt F) (xCk L 240#32 (k0_off1_inb L 15)).view fx := by
    unfold tile_run.sl.dma0_33 tile_run.sl.dma0_28
    rw [ReadAs.apply_same, read_writes_whole, ReadAs.apply_same]
  have hp16 : tile_run.sl.dma0_35 d L fx g1 = View.read (Elt F) (xCk L 256#32 (k0_off1_inb L 16)).view fx := by
    unfold tile_run.sl.dma0_35 tile_run.sl.dma0_30
    rw [ReadAs.apply_same, read_writes_whole, ReadAs.apply_same]
  have hp17 : tile_run.sl.dma0_37 d L fx g2 = View.read (Elt F) (xCk L 272#32 (k0_off1_inb L 17)).view fx := by
    unfold tile_run.sl.dma0_37 tile_run.sl.dma0_32
    rw [ReadAs.apply_same, read_writes_whole, ReadAs.apply_same]
  have hp18 : tile_run.sl.dma0_39 d L fx g0 = View.read (Elt F) (xCk L 288#32 (k0_off1_inb L 18)).view fx := by
    unfold tile_run.sl.dma0_39 tile_run.sl.dma0_34
    rw [ReadAs.apply_same, read_writes_whole, ReadAs.apply_same]
  have hp19 : tile_run.sl.dma0_41 d L fx g1 = View.read (Elt F) (xCk L 304#32 (k0_off1_inb L 19)).view fx := by
    unfold tile_run.sl.dma0_41 tile_run.sl.dma0_36
    rw [ReadAs.apply_same, read_writes_whole, ReadAs.apply_same]
  have hp20 : tile_run.sl.dma0_43 d L fx g2 = View.read (Elt F) (xCk L 320#32 (k0_off1_inb L 20)).view fx := by
    unfold tile_run.sl.dma0_43 tile_run.sl.dma0_38
    rw [ReadAs.apply_same, read_writes_whole, ReadAs.apply_same]
  have hp21 : tile_run.sl.dma0_45 d L fx g0 = View.read (Elt F) (xCk L 336#32 (k0_off1_inb L 21)).view fx := by
    unfold tile_run.sl.dma0_45 tile_run.sl.dma0_40
    rw [ReadAs.apply_same, read_writes_whole, ReadAs.apply_same]
  have hp22 : tile_run.sl.dma0_47 d L fx g1 = View.read (Elt F) (xCk L 352#32 (k0_off1_inb L 22)).view fx := by
    unfold tile_run.sl.dma0_47 tile_run.sl.dma0_42
    rw [ReadAs.apply_same, read_writes_whole, ReadAs.apply_same]
  have hp23 : tile_run.sl.dma0_49 d L fx g2 = View.read (Elt F) (xCk L 368#32 (k0_off1_inb L 23)).view fx := by
    unfold tile_run.sl.dma0_49 tile_run.sl.dma0_44
    rw [ReadAs.apply_same, read_writes_whole, ReadAs.apply_same]
  have hp24 : tile_run.sl.dma0_51 d L fx g0 = View.read (Elt F) (xCk L 384#32 (k0_off1_inb L 24)).view fx := by
    unfold tile_run.sl.dma0_51 tile_run.sl.dma0_46
    rw [ReadAs.apply_same, read_writes_whole, ReadAs.apply_same]
  have hp25 : tile_run.sl.dma0_53 d L fx g1 = View.read (Elt F) (xCk L 400#32 (k0_off1_inb L 25)).view fx := by
    unfold tile_run.sl.dma0_53 tile_run.sl.dma0_48
    rw [ReadAs.apply_same, read_writes_whole, ReadAs.apply_same]
  have hp26 : tile_run.sl.dma0_55 d L fx g2 = View.read (Elt F) (xCk L 416#32 (k0_off1_inb L 26)).view fx := by
    unfold tile_run.sl.dma0_55 tile_run.sl.dma0_50
    rw [ReadAs.apply_same, read_writes_whole, ReadAs.apply_same]
  have hp27 : tile_run.sl.dma0_57 d L fx g0 = View.read (Elt F) (xCk L 432#32 (k0_off1_inb L 27)).view fx := by
    unfold tile_run.sl.dma0_57 tile_run.sl.dma0_52
    rw [ReadAs.apply_same, read_writes_whole, ReadAs.apply_same]
  have hp28 : tile_run.sl.dma0_59 d L fx g1 = View.read (Elt F) (xCk L 448#32 (k0_off1_inb L 28)).view fx := by
    unfold tile_run.sl.dma0_59 tile_run.sl.dma0_54
    rw [ReadAs.apply_same, read_writes_whole, ReadAs.apply_same]
  have hp29 : tile_run.sl.dma0_61 d L fx g2 = View.read (Elt F) (xCk L 464#32 (k0_off1_inb L 29)).view fx := by
    unfold tile_run.sl.dma0_61 tile_run.sl.dma0_56
    rw [ReadAs.apply_same, read_writes_whole, ReadAs.apply_same]
  have hp30 : tile_run.sl.dma0_62 d L fx g0 = View.read (Elt F) (xCk L 480#32 (k0_off1_inb L 30)).view fx := by
    unfold tile_run.sl.dma0_62 tile_run.sl.dma0_58
    rw [ReadAs.apply_same, read_writes_whole, ReadAs.apply_same]
  have hp31 : tile_run.sl.dma0_63 d L fx g1 = View.read (Elt F) (xCk L 496#32 (k0_off1_inb L 31)).view fx := by
    unfold tile_run.sl.dma0_63 tile_run.sl.dma0_60
    rw [ReadAs.apply_same, read_writes_whole, ReadAs.apply_same]
  sl_step
  isplitl [HX0]; · iexact HX0
  isplitl [HX1]; · iexact HX1
  isplitl [HX2]; · iexact HX2
  isplitl [HO0 HO1 HO2 HO3 HO4 HO5 HO6 HO7 HO8 HO9 HO10 HO11 HO12 HO13 HO14 HO15 HO16 HO17 HO18 HO19 HO20 HO21 HO22 HO23 HO24 HO25 HO26 HO27 HO28 HO29 HO30 HO31]
  ·
    isplitl [HO0]; · iapply (Entails.of_eq (chunk_lands (F := F) d L 0#32 (k0_off2_inb L 0) (k0_off1_inb L 0) fo fx (chunk_value L 0 fx) _ hp0)); iexact HO0
    isplitl [HO1]; · iapply (Entails.of_eq (chunk_lands (F := F) d L 16#32 (k0_off2_inb L 1) (k0_off1_inb L 1) fo fx (chunk_value L 1 fx) _ hp1)); iexact HO1
    isplitl [HO2]; · iapply (Entails.of_eq (chunk_lands (F := F) d L 32#32 (k0_off2_inb L 2) (k0_off1_inb L 2) fo fx (chunk_value L 2 fx) _ hp2)); iexact HO2
    isplitl [HO3]; · iapply (Entails.of_eq (chunk_lands (F := F) d L 48#32 (k0_off2_inb L 3) (k0_off1_inb L 3) fo fx (chunk_value L 3 fx) _ hp3)); iexact HO3
    isplitl [HO4]; · iapply (Entails.of_eq (chunk_lands (F := F) d L 64#32 (k0_off2_inb L 4) (k0_off1_inb L 4) fo fx (chunk_value L 4 fx) _ hp4)); iexact HO4
    isplitl [HO5]; · iapply (Entails.of_eq (chunk_lands (F := F) d L 80#32 (k0_off2_inb L 5) (k0_off1_inb L 5) fo fx (chunk_value L 5 fx) _ hp5)); iexact HO5
    isplitl [HO6]; · iapply (Entails.of_eq (chunk_lands (F := F) d L 96#32 (k0_off2_inb L 6) (k0_off1_inb L 6) fo fx (chunk_value L 6 fx) _ hp6)); iexact HO6
    isplitl [HO7]; · iapply (Entails.of_eq (chunk_lands (F := F) d L 112#32 (k0_off2_inb L 7) (k0_off1_inb L 7) fo fx (chunk_value L 7 fx) _ hp7)); iexact HO7
    isplitl [HO8]; · iapply (Entails.of_eq (chunk_lands (F := F) d L 128#32 (k0_off2_inb L 8) (k0_off1_inb L 8) fo fx (chunk_value L 8 fx) _ hp8)); iexact HO8
    isplitl [HO9]; · iapply (Entails.of_eq (chunk_lands (F := F) d L 144#32 (k0_off2_inb L 9) (k0_off1_inb L 9) fo fx (chunk_value L 9 fx) _ hp9)); iexact HO9
    isplitl [HO10]; · iapply (Entails.of_eq (chunk_lands (F := F) d L 160#32 (k0_off2_inb L 10) (k0_off1_inb L 10) fo fx (chunk_value L 10 fx) _ hp10)); iexact HO10
    isplitl [HO11]; · iapply (Entails.of_eq (chunk_lands (F := F) d L 176#32 (k0_off2_inb L 11) (k0_off1_inb L 11) fo fx (chunk_value L 11 fx) _ hp11)); iexact HO11
    isplitl [HO12]; · iapply (Entails.of_eq (chunk_lands (F := F) d L 192#32 (k0_off2_inb L 12) (k0_off1_inb L 12) fo fx (chunk_value L 12 fx) _ hp12)); iexact HO12
    isplitl [HO13]; · iapply (Entails.of_eq (chunk_lands (F := F) d L 208#32 (k0_off2_inb L 13) (k0_off1_inb L 13) fo fx (chunk_value L 13 fx) _ hp13)); iexact HO13
    isplitl [HO14]; · iapply (Entails.of_eq (chunk_lands (F := F) d L 224#32 (k0_off2_inb L 14) (k0_off1_inb L 14) fo fx (chunk_value L 14 fx) _ hp14)); iexact HO14
    isplitl [HO15]; · iapply (Entails.of_eq (chunk_lands (F := F) d L 240#32 (k0_off2_inb L 15) (k0_off1_inb L 15) fo fx (chunk_value L 15 fx) _ hp15)); iexact HO15
    isplitl [HO16]; · iapply (Entails.of_eq (chunk_lands (F := F) d L 256#32 (k0_off2_inb L 16) (k0_off1_inb L 16) fo fx (chunk_value L 16 fx) _ hp16)); iexact HO16
    isplitl [HO17]; · iapply (Entails.of_eq (chunk_lands (F := F) d L 272#32 (k0_off2_inb L 17) (k0_off1_inb L 17) fo fx (chunk_value L 17 fx) _ hp17)); iexact HO17
    isplitl [HO18]; · iapply (Entails.of_eq (chunk_lands (F := F) d L 288#32 (k0_off2_inb L 18) (k0_off1_inb L 18) fo fx (chunk_value L 18 fx) _ hp18)); iexact HO18
    isplitl [HO19]; · iapply (Entails.of_eq (chunk_lands (F := F) d L 304#32 (k0_off2_inb L 19) (k0_off1_inb L 19) fo fx (chunk_value L 19 fx) _ hp19)); iexact HO19
    isplitl [HO20]; · iapply (Entails.of_eq (chunk_lands (F := F) d L 320#32 (k0_off2_inb L 20) (k0_off1_inb L 20) fo fx (chunk_value L 20 fx) _ hp20)); iexact HO20
    isplitl [HO21]; · iapply (Entails.of_eq (chunk_lands (F := F) d L 336#32 (k0_off2_inb L 21) (k0_off1_inb L 21) fo fx (chunk_value L 21 fx) _ hp21)); iexact HO21
    isplitl [HO22]; · iapply (Entails.of_eq (chunk_lands (F := F) d L 352#32 (k0_off2_inb L 22) (k0_off1_inb L 22) fo fx (chunk_value L 22 fx) _ hp22)); iexact HO22
    isplitl [HO23]; · iapply (Entails.of_eq (chunk_lands (F := F) d L 368#32 (k0_off2_inb L 23) (k0_off1_inb L 23) fo fx (chunk_value L 23 fx) _ hp23)); iexact HO23
    isplitl [HO24]; · iapply (Entails.of_eq (chunk_lands (F := F) d L 384#32 (k0_off2_inb L 24) (k0_off1_inb L 24) fo fx (chunk_value L 24 fx) _ hp24)); iexact HO24
    isplitl [HO25]; · iapply (Entails.of_eq (chunk_lands (F := F) d L 400#32 (k0_off2_inb L 25) (k0_off1_inb L 25) fo fx (chunk_value L 25 fx) _ hp25)); iexact HO25
    isplitl [HO26]; · iapply (Entails.of_eq (chunk_lands (F := F) d L 416#32 (k0_off2_inb L 26) (k0_off1_inb L 26) fo fx (chunk_value L 26 fx) _ hp26)); iexact HO26
    isplitl [HO27]; · iapply (Entails.of_eq (chunk_lands (F := F) d L 432#32 (k0_off2_inb L 27) (k0_off1_inb L 27) fo fx (chunk_value L 27 fx) _ hp27)); iexact HO27
    isplitl [HO28]; · iapply (Entails.of_eq (chunk_lands (F := F) d L 448#32 (k0_off2_inb L 28) (k0_off1_inb L 28) fo fx (chunk_value L 28 fx) _ hp28)); iexact HO28
    isplitl [HO29]; · iapply (Entails.of_eq (chunk_lands (F := F) d L 464#32 (k0_off2_inb L 29) (k0_off1_inb L 29) fo fx (chunk_value L 29 fx) _ hp29)); iexact HO29
    isplitl [HO30]; · iapply (Entails.of_eq (chunk_lands (F := F) d L 480#32 (k0_off2_inb L 30) (k0_off1_inb L 30) fo fx (chunk_value L 30 fx) _ hp30)); iexact HO30
    iapply (Entails.of_eq (chunk_lands (F := F) d L 496#32 (k0_off2_inb L 31) (k0_off1_inb L 31) fo fx (chunk_value L 31 fx) _ hp31)); iexact HO31
  isplitl [HS0]; · iexists _; iexact HS0
  isplitl [HS1]; · iexists _; iexact HS1
  isplitl [HS2]; · iexists _; iexact HS2
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  iexists _; iexact HO

end Cert.Proof.KernelIdeal

end
-- ==== Proof.KernelIdealLaunch.lean ====
import proofs.«211868_g61933428409095_cont_9to1c4b_524_16_alg».proof.Proof.KernelIdealBase
import proofs.«211868_g61933428409095_cont_9to1c4b_524_16_alg».proof.Proof.KernelIdealRun
import proofs.«211868_g61933428409095_cont_9to1c4b_524_16_alg».proof.Proof.Bridge

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
open Idealize.ShloMosaic.ValueIdx
open Idealize.ShloMosaic.StableHlo (held held_split held_sdiff_result wp_hlo_within)

local notation "𝕄" => MT nD τ sig (HIx 1) (Elt F) ℕ UU ℕ

/-! # The launch: what each thread is handed, and @main on the TensorCore

@main reshapes `x` to the flat array, starts the two SparseCores, and reshapes the flat result. The call hands
worker `(c, i)` a read share of the flat `x` and its 32 result chunks, and takes them back with every chunk at the
flat specification; the chunks tile the flat result, so the whole of it is the flat specification of the flat `x`,
and the two reshapes around it make it the mask selection of `x`. -/

variable [FloatOps F]
variable (m : (ℓ : Loc nD τ sig) → Buf (Elt F) ℓ) (ρ : Dev nD → PrngReg)

/-! ## The arrays' contents along @main -/

/-- The flat `x`: what the first reshape writes. -/
def X0 (d : Dev nD) : Buf (Elt F) (xLoc d) :=
  shapeCast S28672x2048 (m (aLoc d)) shapeCasts_S2x7x2048x2048_S28672x2048

/-- The result: the last reshape of the flat specification of the flat `x`. -/
def RES (d : Dev nD) : Buf (Elt F) (rLoc d) :=
  shapeCast S8x2048x2048 (GFb d (X0 m d)) shapeCasts_S16384x2048_S8x2048x2048

omit [FloatOps F] in
/-- It is the mask selection of `x`. -/
theorem RES_eq (d : Dev nD) : RES m d = Cert.Spec.G (α := Elt F .f32) (m (aLoc d)) :=
  Cert.Spec.bridge (α := Elt F .f32) (m (aLoc d)) shapeCasts_S2x7x2048x2048_S28672x2048 shapeCasts_S16384x2048_S8x2048x2048

/-! ## Read shares of the flat `x`: one per worker -/

/-- Worker `(c, i)`'s share: token `i` of SparseCore `c`'s token of the full share. -/
abbrev xq (c : Fin 2) (i : Fin 16) : PosShare TreeShare := Transfers.shareTok (Transfers.shareTok fullShare 2 c) 16 i

/-- What stays on the TensorCore while the workers read. -/
def XR (d : Dev nD) (f : Buf (Elt F) (xLoc d)) : sProp 𝕄 :=
  iprop((xLoc d ↦{Transfers.shareDrop fullShare 2} f)
    ∗ bigSep Finset.univ fun c : Fin 2 => xLoc d ↦{Transfers.shareDrop (Transfers.shareTok fullShare 2 c) 16} f)

/-- The workers' shares. -/
def XT (d : Dev nD) (f : Buf (Elt F) (xLoc d)) : sProp 𝕄 :=
  bigSep Finset.univ fun c : Fin 2 => bigSep Finset.univ fun i : Fin 16 => xLoc d ↦{xq c i} f

omit [FloatOps F] in
theorem x_split (d : Dev nD) (f : Buf (Elt F) (xLoc d)) : (xLoc d ↦{fullShare} f : sProp 𝕄) ⊣⊢ iprop(XR d f ∗ XT d f) := by
  have e1 : (xLoc d ↦{fullShare} f : sProp 𝕄)
      = iprop((xLoc d ↦{Transfers.shareDrop fullShare 2} f) ∗ bigSep Finset.univ fun c : Fin 2 => xLoc d ↦{Transfers.shareTok fullShare 2 c} f) :=
    BI.Entails.antisymm (Transfers.pointsTo_toks (ℓ := xLoc d) (S := Finset.univ) (f := f) fullShare 2).1
      (Transfers.pointsTo_toks (ℓ := xLoc d) (S := Finset.univ) (f := f) fullShare 2).2
  have e2 : ∀ c : Fin 2, (xLoc d ↦{Transfers.shareTok fullShare 2 c} f : sProp 𝕄)
      = iprop((xLoc d ↦{Transfers.shareDrop (Transfers.shareTok fullShare 2 c) 16} f) ∗ bigSep Finset.univ fun i : Fin 16 => xLoc d ↦{xq c i} f) :=
    fun c => BI.Entails.antisymm (Transfers.pointsTo_toks (ℓ := xLoc d) (S := Finset.univ) (f := f) (Transfers.shareTok fullShare 2 c) 16).1
      (Transfers.pointsTo_toks (ℓ := xLoc d) (S := Finset.univ) (f := f) (Transfers.shareTok fullShare 2 c) 16).2
  unfold XR XT
  rw [e1, bigSep_congr (fun c _ => e2 c), bigSep_sep']
  constructor
  · iintro ⟨A, B, C⟩
    isplitl [A B]
    · isplitl [A] <;> iassumption
    · iexact C
  · iintro ⟨⟨A, B⟩, C⟩
    isplitl [A]; · iexact A
    isplitl [B] <;> iassumption

omit [FloatOps F] in
/-- A worker's share as what stays with it and three read tokens, one per fetch semaphore. -/
theorem xToks (d : Dev nD) (q : PosShare TreeShare) (f : Buf (Elt F) (xLoc d)) :
    (xLoc d ↦{q} f : sProp 𝕄) ⊣⊢ iprop((xLoc d ↦{Transfers.shareDrop q 3} f) ∗ (xLoc d ↦{Transfers.shareTokN q 0} f)
      ∗ (xLoc d ↦{Transfers.shareTokN q 1} f) ∗ (xLoc d ↦{Transfers.shareTokN q 2} f)) := by
  have h : (xLoc d ↦{q} f : sProp 𝕄) ⊣⊢ iprop((xLoc d ↦{Transfers.shareDrop q 3} f) ∗ bigSep (Finset.range 3) fun i => xLoc d ↦{Transfers.shareTokN q i} f) :=
    Transfers.pointsTo_toks_range (ℓ := xLoc d) (S := Finset.univ) (f := f) q 3
  rw [show Finset.range 3 = {0, 1, 2} by decide, SparseCore.bigSep_insert' (by decide), SparseCore.bigSep_insert' (by decide), bigSep_singleton] at h
  exact h

/-! ## The flat result as the workers' chunks -/

omit [FloatOps F] in
theorem oPts_split (d : Dev nD) (f : Buf (Elt F) (oLoc d)) :
    (oLoc d ↦{fullShare} f : sProp 𝕄)
      = bigSep Finset.univ fun c : Fin 2 => bigSep Finset.univ fun i : Fin 16 => bigSep Finset.univ fun r : Fin 32 => oLoc d ↦[oSet c i r]{fullShare} f := by
  have h : (oLoc d ↦[(Finset.univ : Finset (Fin 2 × Fin 16 × Fin 32)).biUnion (fun p => oSet p.1 p.2.1 p.2.2)]{fullShare} f : sProp 𝕄) = _ :=
    pointsTo_biUnion (ℓ := oLoc d) (q := fullShare) (f := f) (Finset.univ : Finset (Fin 2 × Fin 16 × Fin 32)) (fun p => oSet p.1 p.2.1 p.2.2) oSet_disjoint
  rw [oSet_cover] at h
  refine h.trans ?_
  rw [bigSep_univ_prod]
  exact bigSep_congr fun c _ => bigSep_univ_prod (fun b : Fin 16 × Fin 32 => (oLoc d ↦[oSet c b.1 b.2]{fullShare} f : sProp 𝕄))

omit [FloatOps F] in
theorem pts_oCk (d : Dev nD) (L : grid0.Coords) (r : Fin 32) (f : Buf (Elt F) (oLoc d)) :
    ((oCk L (BitVec.ofNat 32 (16 * r.val)) (k0_off2_inb L r)).view.loc (VT d L) ↦[(oCk L (BitVec.ofNat 32 (16 * r.val)) (k0_off2_inb L r)).view.set]{fullShare} f : sProp 𝕄)
      = oLoc d ↦[oSet (cL L) (iL L) r]{fullShare} f := by
  rw [set_oCk]

set_option maxHeartbeats 4000000 in
omit [FloatOps F] in
theorem Ochunks_eq (d : Dev nD) (L : grid0.Coords) (f : Buf (Elt F) (oLoc d)) :
    (Ochunks d L f : sProp 𝕄) = bigSep Finset.univ fun r : Fin 32 => oLoc d ↦[oSet (cL L) (iL L) r]{fullShare} f := by
  rw [show (Finset.univ : Finset (Fin 32)) = {0, 1, 2, 3, 4, 5, 6, 7, 8, 9, 10, 11, 12, 13, 14, 15, 16, 17, 18, 19, 20, 21, 22, 23, 24, 25, 26, 27, 28, 29, 30, 31} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton,
    ← pts_oCk d L 0 f, ← pts_oCk d L 1 f, ← pts_oCk d L 2 f, ← pts_oCk d L 3 f, ← pts_oCk d L 4 f, ← pts_oCk d L 5 f, ← pts_oCk d L 6 f, ← pts_oCk d L 7 f, ← pts_oCk d L 8 f, ← pts_oCk d L 9 f, ← pts_oCk d L 10 f, ← pts_oCk d L 11 f, ← pts_oCk d L 12 f, ← pts_oCk d L 13 f, ← pts_oCk d L 14 f, ← pts_oCk d L 15 f, ← pts_oCk d L 16 f, ← pts_oCk d L 17 f, ← pts_oCk d L 18 f, ← pts_oCk d L 19 f, ← pts_oCk d L 20 f, ← pts_oCk d L 21 f, ← pts_oCk d L 22 f, ← pts_oCk d L 23 f, ← pts_oCk d L 24 f, ← pts_oCk d L 25 f, ← pts_oCk d L 26 f, ← pts_oCk d L 27 f, ← pts_oCk d L 28 f, ← pts_oCk d L 29 f, ← pts_oCk d L 30 f, ← pts_oCk d L 31 f]
  rfl

omit [FloatOps F] in
theorem o_split (d : Dev nD) (f : Buf (Elt F) (oLoc d)) :
    (oLoc d ↦{fullShare} f : sProp 𝕄) = bigSep Finset.univ fun c : Fin 2 => bigSep Finset.univ fun i : Fin 16 => Ochunks d (coordsV c i) f := by
  rw [oPts_split]
  exact bigSep_congr fun c _ => bigSep_congr fun i _ => (Ochunks_eq d (coordsV c i) f).symm

/-! ## A worker's own storage: the ring's slots and the six semaphores -/

section Tile

variable (d : Dev nD) (L : grid0.Coords)

omit [FloatOps F] in
theorem pts_slot (k : Fin 3) (h : ∀ a, (![k.val, 0, 0] : Fin 3 → Nat) a + S1x16x2048.size a ≤ S3x16x2048.size a)
    (g : Buf (Elt F) ((VT d L).loc cc0_scratch0)) :
    ((slot k.val h).view.loc (VT d L) ↦[(slot k.val h).view.set]{fullShare} g : sProp 𝕄) = (VT d L).loc cc0_scratch0 ↦[sSet k]{fullShare} g := by
  rw [set_slot]

omit [FloatOps F] in
/-- The scratch whole is its three slots. -/
theorem s_split (g : Buf (Elt F) ((VT d L).loc cc0_scratch0)) :
    ((VT d L).loc cc0_scratch0 ↦{fullShare} g : sProp 𝕄)
      = iprop(((slot 0 inb_S3x16x2048_S1x16x2048_0_0_0).view.loc (VT d L) ↦[(slot 0 inb_S3x16x2048_S1x16x2048_0_0_0).view.set]{fullShare} g)
          ∗ ((slot 1 inb_S3x16x2048_S1x16x2048_1_0_0).view.loc (VT d L) ↦[(slot 1 inb_S3x16x2048_S1x16x2048_1_0_0).view.set]{fullShare} g)
          ∗ ((slot 2 inb_S3x16x2048_S1x16x2048_2_0_0).view.loc (VT d L) ↦[(slot 2 inb_S3x16x2048_S1x16x2048_2_0_0).view.set]{fullShare} g)) := by
  have h : ((VT d L).loc cc0_scratch0 ↦[(Finset.univ : Finset (Fin 3)).biUnion sSet]{fullShare} g : sProp 𝕄) = _ :=
    pointsTo_biUnion (ℓ := (VT d L).loc cc0_scratch0) (q := fullShare) (f := g) (Finset.univ : Finset (Fin 3)) sSet sSet_disjoint
  rw [sSet_cover] at h
  refine h.trans ?_
  rw [show (Finset.univ : Finset (Fin 3)) = {0, 1, 2} by decide, SparseCore.bigSep_insert' (by decide), SparseCore.bigSep_insert' (by decide), bigSep_singleton,
    ← pts_slot d L 0 inb_S3x16x2048_S1x16x2048_0_0_0 g, ← pts_slot d L 1 inb_S3x16x2048_S1x16x2048_1_0_0 g, ← pts_slot d L 2 inb_S3x16x2048_S1x16x2048_2_0_0 g]
  rfl

omit [FloatOps F] in
/-- Three slots at whatever contents are the scratch whole at some contents. -/
theorem s_join :
    (iprop((∃ g, ((slot 0 inb_S3x16x2048_S1x16x2048_0_0_0).view.loc (VT d L) ↦[(slot 0 inb_S3x16x2048_S1x16x2048_0_0_0).view.set]{fullShare} g))
        ∗ (∃ g, ((slot 1 inb_S3x16x2048_S1x16x2048_1_0_0).view.loc (VT d L) ↦[(slot 1 inb_S3x16x2048_S1x16x2048_1_0_0).view.set]{fullShare} g))
        ∗ (∃ g, ((slot 2 inb_S3x16x2048_S1x16x2048_2_0_0).view.loc (VT d L) ↦[(slot 2 inb_S3x16x2048_S1x16x2048_2_0_0).view.set]{fullShare} g))) : sProp 𝕄)
      ⊢ iprop(∃ g, (VT d L).loc cc0_scratch0 ↦{fullShare} g) := by
  iintro ⟨⟨%a, Ha⟩, ⟨%b, Hb⟩, ⟨%c, Hc⟩⟩
  ihave H := (pointsTo_biUnion_join (ℓ := (VT d L).loc cc0_scratch0) (q := fullShare) (Val := Elt F) (Finset.univ : Finset (Fin 3)) sSet
      (fun k : Fin 3 => match k with | 0 => a | 1 => b | 2 => c) a sSet_disjoint) $$ [Ha Hb Hc]
  · rw [show (Finset.univ : Finset (Fin 3)) = {0, 1, 2} by decide, SparseCore.bigSep_insert' (by decide), SparseCore.bigSep_insert' (by decide), bigSep_singleton]
    isplitl [Ha]; · iapply (Entails.of_eq (pts_slot (F := F) d L 0 inb_S3x16x2048_S1x16x2048_0_0_0 a)); iexact Ha
    isplitl [Hb]; · iapply (Entails.of_eq (pts_slot (F := F) d L 1 inb_S3x16x2048_S1x16x2048_1_0_0 b)); iexact Hb
    iapply (Entails.of_eq (pts_slot (F := F) d L 2 inb_S3x16x2048_S1x16x2048_2_0_0 c)); iexact Hc
  icases H with ⟨%g, -, Hg⟩
  rw [sSet_cover]
  iexists g; iexact Hg

/-- The six DMA cells a task names, as a family. -/
abbrev dcell (d : Dev nD) (c : Fin τ.nSC) (i : Fin τ.nSub) (k : Fin 6) : GSem nD τ sig := (V d c i, .dma (csem k.val k.isLt))

omit [FloatOps F] in
theorem dcell_mem (c : Fin τ.nSC) (i : Fin τ.nSub) (k : Fin 6) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the six the task names, one by one, and the rest. -/
theorem ownSems0_V :
    (ownSems0 (VT d L) : sProp 𝕄)
      = iprop((semVal (VT d L, SemLoc.dma (csem 0)) 0 ∗ semVal (VT d L, SemLoc.dma (csem 1)) 0 ∗ semVal (VT d L, SemLoc.dma (csem 2)) 0 ∗ semVal (VT d L, SemLoc.dma (csem 3)) 0 ∗ semVal (VT d L, SemLoc.dma (csem 4)) 0 ∗ semVal (VT d L, SemLoc.dma (csem 5)) 0)
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 6)) = {0, 1, 2, 3, 4, 5} by decide,
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
/-- The scratch is among the subcore's own buffers: it, at some contents, and the rest. -/
theorem ownBufs_V :
    (ownBufs (VT d L) : sProp 𝕄)
      = iprop((∃ f, (VT d L).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The task on vector subcore `(L 0, L 1)`, from what the launch deals it — its share of the flat `x`, its 32 chunks,
    its scratch and cells — to what it hands back: every chunk at the flat specification. -/
theorem tile_body (hF : (K (F := F)).Facts) (O : CellTallies nD τ sig (HIx 1)) (W : Waits sig (HIx 1)) (hO : ∀ g, O g none = 0) :
    iprop(levAts (K (F := F)).L (K (F := F)).lev ∗ emp
        ∗ ((xLoc d ↦{xq (cL L) (iL L)} X0 m d) ∗ Ochunks d L (m (oLoc d)))
        ∗ scopedBufs (VT d L) ∗ scopedSems0 (VT d L) ∗ owes (VT d L) O W)
      ⊢ wp frame (wpE (defs₀ (F := F)) 𝒱₀ (VT d L) none) Set.univ
          (cc0__sc_body L xV (Memref.isWhole_whole _) oV (Memref.isWhole_whole _) sV (Memref.isWhole_whole _) cc0_scratch1 cc0_scratch2)
          fun _ => iprop(((xLoc d ↦{xq (cL L) (iL L)} X0 m d) ∗ Ochunks d L (GFb d (X0 m d)))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Hoc⟩, ⟨⟨%g, HG⟩, Hbufs⟩, ⟨⟨Hc0, Hc1, Hc2, Hc3, Hc4, Hc5⟩, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (Entails.of_eq (s_split (F := F) d L g)) $$ HG
  icases HG' with ⟨HS0, HS1, HS2⟩
  ihave Hx' := (xToks d (xq (cL L) (iL L)) (X0 m d)).1 $$ Hx
  icases Hx' with ⟨Hxr, Hx0, Hx1, Hx2⟩
  iapply (wp_wand_r Idealize.ShloMosaic.frame (wpE (defs₀ (F := F)) 𝒱₀ (VT d L) none) Set.univ)
  isplitl [Hx0 Hx1 Hx2 Hoc HS0 HS1 HS2 Hc0 Hc1 Hc2 Hc3 Hc4 Hc5 HO]
  · iapply (tile_run d L (xq (cL L) (iL L)) O W (X0 m d) (m (oLoc d)) g g g)
    isplitr; · iexact Hmw
    isplitl [Hx0]; · iexact Hx0
    isplitl [Hx1]; · iexact Hx1
    isplitl [Hx2]; · iexact Hx2
    isplitl [Hoc]; · iexact Hoc
    isplitl [HS0]; · iexact HS0
    isplitl [HS1]; · iexact HS1
    isplitl [HS2]; · iexact HS2
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact HO
  iintro %_ ⟨Hx0, Hx1, Hx2, Hoc, HS0, HS1, HS2, Hc0, Hc1, Hc2, Hc3, Hc4, Hc5, ⟨%W', HO⟩⟩
  ihave Hx := (xToks d (xq (cL L) (iL L)) (X0 m d)).2 $$ [Hxr Hx0 Hx1 Hx2]
  · isplitl [Hxr]; · iexact Hxr
    isplitl [Hx0]; · iexact Hx0
    isplitl [Hx1]; · iexact Hx1
    iexact Hx2
  isplitl [Hx Hoc]
  · isplitl [Hx]; · iexact Hx
    iexact Hoc
  isplitl [HS0 HS1 HS2 Hbufs]
  · isplitl [HS0 HS1 HS2]
    · iapply (s_join (F := F) d L)
      isplitl [HS0]; · iexact HS0
      isplitl [HS1]; · iexact HS1
      iexact HS2
    · iexact Hbufs
  isplitl [Hc0 Hc1 Hc2 Hc3 Hc4 Hc5 Hsems]
  · isplitl [Hc0 Hc1 Hc2 Hc3 Hc4 Hc5]
    · isplitl [Hc0]; · iexact Hc0
      isplitl [Hc1]; · iexact Hc1
      isplitl [Hc2]; · iexact Hc2
      isplitl [Hc3]; · iexact Hc3
      isplitl [Hc4]; · iexact Hc4
      iexact Hc5
    · iexact Hsems
  iexists W'; isplitr
  · ipureintro; intro p _
    rcases p.2 with _ | q
    · exact .inr (.inl rfl)
    · exact .inr (.inr (congrArg some (Subsingleton.elim q 0)))
  · iexact HO

end Tile

set_option maxHeartbeats 2000000

/-! ## What the handshakes carry -/

/-- Worker `(c, i)`'s pieces: its read share of the flat `x` and its 32 result chunks at contents `fo`. -/
def goOf (d : Dev nD) (c : Fin 2) (i : Fin 16) (fo : Buf (Elt F) (oLoc d)) : sProp 𝕄 :=
  iprop((xLoc d ↦{xq c i} X0 m d) ∗ Ochunks d (coordsV c i) fo)

/-- The one call hands SparseCore `c` its sixteen workers' pieces, each task its own, and takes them back with the
    chunks at the flat specification; the kernel's proof consumes nothing of the launch's. -/
def P : (K (F := F)).Pay (nD := nD) (Val := Elt F) (Name := ℕ) (U := UU) where
  st := fun q d c => match q with | 0 => bigSep Finset.univ fun i : Fin 16 => goOf m d (Fin.cast nCore_zero c) i (m (oLoc d))
  dn := fun q d c => match q with | 0 => bigSep Finset.univ fun i : Fin 16 => goOf m d (Fin.cast nCore_zero c) i (GFb d (X0 m d))
  go := fun q d c i => match q with | 0 => goOf m d (Fin.cast nCore_zero c) (Fin.cast nSub_zero i) (m (oLoc d))
  td := fun q d c i => match q with | 0 => goOf m d (Fin.cast nCore_zero c) (Fin.cast nSub_zero i) (GFb d (X0 m d))
  x := fun _ _ => iprop(emp)

omit [FloatOps F] in
instance Ochunks_storable (d : Dev nD) (L : grid0.Coords) (f : Buf (Elt F) (oLoc d)) : BI.Storable (upEmb : UEmb _ 𝕄) (Ochunks d L f : sProp 𝕄) := by
  rw [Ochunks_eq]; infer_instance

instance goOf_storable (d : Dev nD) (c : Fin 2) (i : Fin 16) (fo : Buf (Elt F) (oLoc d)) : BI.Storable (upEmb : UEmb _ 𝕄) (goOf m d c i fo) := by
  unfold goOf; infer_instance

instance P_storable : (P (F := F) m).IsStorable where
  st q d c := match q with | 0 => (inferInstance : BI.Storable (upEmb : UEmb _ 𝕄) (bigSep Finset.univ fun i : Fin 16 => goOf m d (Fin.cast nCore_zero c) i (m (oLoc d))))
  dn q d c := match q with | 0 => (inferInstance : BI.Storable (upEmb : UEmb _ 𝕄) (bigSep Finset.univ fun i : Fin 16 => goOf m d (Fin.cast nCore_zero c) i (GFb d (X0 m d))))
  go q d c i := match q with | 0 => (inferInstance : BI.Storable (upEmb : UEmb _ 𝕄) (goOf m d (Fin.cast nCore_zero c) (Fin.cast nSub_zero i) (m (oLoc d))))
  td q d c i := match q with | 0 => (inferInstance : BI.Storable (upEmb : UEmb _ 𝕄) (goOf m d (Fin.cast nCore_zero c) (Fin.cast nSub_zero i) (GFb d (X0 m d))))

/-! ## The launch theorem's obligations -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) sV (Memref.isWhole_whole _) cc0_scratch1 cc0_scratch2) ⟨⟩ c s := rfl

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goOf m d (Fin.cast nCore_zero c) i (m (oLoc d))) ⊢ |={Set.univ}=> iprop(
      (bigSep Finset.univ fun i : Fin ((K (F := F)).nSub 0) => goOf m d (Fin.cast nCore_zero c) (Fin.cast nSub_zero i) (m (oLoc d)))
      ∗ ((bigSep Finset.univ fun i : Fin ((K (F := F)).nSub 0) => goOf m d (Fin.cast nCore_zero c) (Fin.cast nSub_zero i) (GFb d (X0 m d)))
          -∗ bigSep Finset.univ fun i : Fin 16 => goOf m d (Fin.cast nCore_zero c) i (GFb d (X0 m d))))
  rw [bigSep_tasks (F := F) (fun i => goOf m d (Fin.cast nCore_zero c) i (m (oLoc d))),
    bigSep_tasks (F := F) (fun i => goOf m d (Fin.cast nCore_zero c) i (GFb d (X0 m d)))]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev op1 : HloOp τ sig (Elt F) := StableHlo.reshape main_arg0 main_v0 rfl shapeCasts_S2x7x2048x2048_S28672x2048
abbrev op2 : HloOp τ sig (Elt F) := StableHlo.reshape main_v1 main_v2 rfl shapeCasts_S16384x2048_S8x2048x2048

/-- The TensorCore's four arrays, all unscoped. -/
abbrev S4 : Finset (DevRef τ sig) := {a', x', o', r'}

omit [FloatOps F] in
theorem held_S4 (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; after the first reshape; after the call. -/
def V0 (d : Dev nD) : Valuation τ sig (Elt F) := fun b => m (d, b)
def V1 (d : Dev nD) : Valuation τ sig (Elt F) := Function.update (V0 m d) x' (X0 m d)
def V2 (d : Dev nD) : Valuation τ sig (Elt F) := Function.update (V1 m d) o' (GFb d (X0 m d))

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) := Function.update_of_ne (show a' ≠ x' by decide) _ _
theorem V1_x (d : Dev nD) : V1 m d x' = X0 m d := Function.update_self _ _ _
theorem V1_o (d : Dev nD) : V1 m d o' = m (oLoc d) := Function.update_of_ne (show o' ≠ x' by decide) _ _
theorem V1_r (d : Dev nD) : V1 m d r' = m (rLoc d) := Function.update_of_ne (show r' ≠ x' by decide) _ _
theorem V2_a (d : Dev nD) : V2 m d a' = m (aLoc d) := (Function.update_of_ne (show a' ≠ o' by decide) _ _).trans (V1_a m d)
theorem V2_x (d : Dev nD) : V2 m d x' = X0 m d := (Function.update_of_ne (show x' ≠ o' by decide) _ _).trans (V1_x m d)
theorem V2_o (d : Dev nD) : V2 m d o' = GFb d (X0 m d) := Function.update_self _ _ _
theorem V2_r (d : Dev nD) : V2 m d r' = m (rLoc d) := (Function.update_of_ne (show r' ≠ o' by decide) _ _).trans (V1_r m d)

/-- The first reshape writes the flat `x` and nothing else. -/
theorem op1_result (d : Dev nD) : (op1 (F := F)).result (V0 m d) = V1 m d := by
  funext b
  by_cases hb : b = x'
  · subst hb
    rw [V1_x]
    exact StableHlo.reshape_result' (τ := τ) (Val := Elt F) (x := main_arg0) (y := main_v0) rfl shapeCasts_S2x7x2048x2048_S28672x2048 _ _ (V0 m d)
  · rw [(op1 (F := F)).result_of_not_mem (V0 m d) (b := b) (by
      show b ∉ ({x'} : Finset (DevRef τ sig)); simpa using hb)]
    exact (Function.update_of_ne hb _ _).symm

/-- The last reshape writes the result and nothing else. -/
theorem op2_result_r (d : Dev nD) : (op2 (F := F)).result (V2 m d) r' = RES m d := by
  have h := StableHlo.reshape_result' (τ := τ) (Val := Elt F) (x := main_v1) (y := main_v2) rfl shapeCasts_S16384x2048_S8x2048x2048 ⟨by decide, rfl⟩ ⟨by decide, rfl⟩ (V2 m d)
  rw [V2_o] at h
  exact h
theorem op2_result_a (d : Dev nD) : (op2 (F := F)).result (V2 m d) a' = m (aLoc d) := by
  rw [(op2 (F := F)).result_of_not_mem (V2 m d) (b := a') (show a' ∉ ({r'} : Finset (DevRef τ sig)) by decide), V2_a]

theorem held1_eq (d : Dev nD) :
    (held (T d) S4 ((op1 (F := F)).result (V0 m d)) : sProp 𝕄)
      = iprop((aLoc d ↦{fullShare} m (aLoc d)) ∗ (xLoc d ↦{fullShare} X0 m d) ∗ (oLoc d ↦{fullShare} m (oLoc d)) ∗ rLoc d ↦{fullShare} m (rLoc d)) := by
  rw [op1_result, held_S4, V1_a, V1_x, V1_o, V1_r]
theorem heldV2_eq (d : Dev nD) :
    (held (T d) S4 (V2 m d) : sProp 𝕄)
      = iprop((aLoc d ↦{fullShare} m (aLoc d)) ∗ (xLoc d ↦{fullShare} X0 m d) ∗ (oLoc d ↦{fullShare} GFb d (X0 m d)) ∗ rLoc d ↦{fullShare} m (rLoc d)) := by
  rw [held_S4, V2_a, V2_x, V2_o, V2_r]
theorem held2_eq (d : Dev nD) :
    (held (T d) S4 ((op2 (F := F)).result (V2 m d)) : sProp 𝕄)
      = iprop((aLoc d ↦{fullShare} m (aLoc d)) ∗ (xLoc d ↦{fullShare} (op2 (F := F)).result (V2 m d) x')
          ∗ (oLoc d ↦{fullShare} (op2 (F := F)).result (V2 m d) o') ∗ rLoc d ↦{fullShare} RES m d) := by
  rw [held_S4, op2_result_a, op2_result_r]

theorem h1sub : (op1 (F := F)).bufs ⊆ S4 := show ({a', x'} : Finset (DevRef τ sig)) ⊆ S4 by decide
theorem h2sub : (op2 (F := F)).bufs ⊆ S4 := show ({o', r'} : Finset (DevRef τ sig)) ⊆ S4 by decide

/-- What the call takes for the two SparseCores, and what it hands back. -/
theorem st0_eq (d : Dev nD) :
    (bigSep Finset.univ fun c : Fin ((K (F := F)).nCore 0) => (P m).st 0 d c)
      = iprop(XT d (X0 m d) ∗ bigSep Finset.univ fun c : Fin 2 => bigSep Finset.univ fun i : Fin 16 => Ochunks d (coordsV c i) (m (oLoc d))) := by
  show (bigSep (Finset.univ : Finset (Fin 2)) fun c => bigSep Finset.univ fun i : Fin 16 => goOf m d c i (m (oLoc d))) = _
  unfold goOf XT
  rw [bigSep_congr (fun c _ => bigSep_sep' _ _ _), bigSep_sep']
theorem dn0_eq (d : Dev nD) :
    (bigSep Finset.univ fun c : Fin ((K (F := F)).nCore 0) => (P m).dn 0 d c)
      = iprop(XT d (X0 m d) ∗ bigSep Finset.univ fun c : Fin 2 => bigSep Finset.univ fun i : Fin 16 => Ochunks d (coordsV c i) (GFb d (X0 m d))) := by
  show (bigSep (Finset.univ : Finset (Fin 2)) fun c => bigSep Finset.univ fun i : Fin 16 => goOf m d c i (GFb d (X0 m d))) = _
  unfold goOf XT
  rw [bigSep_congr (fun c _ => bigSep_sep' _ _ _), bigSep_sep']

/-- What @main leaves the claim: `x` at its launch contents, the result at the mask selection. -/
abbrev FIN (d : Dev nD) : sProp 𝕄 := iprop((aLoc d ↦{fullShare} m (aLoc d)) ∗ rLoc d ↦{fullShare} RES m d)

/-- @main on device `d`'s TensorCore: the first reshape (`wp_hlo_within`), the call (the library's `wp_run`: the flat
    `x` as read shares and the flat result as chunks out, the same back with the chunks filled), the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first reshape: the flat `x`
  iapply (wp_hlo_within 𝒱 (SparseCore.T d) none Set.univ (op := op1) (S := S4) h1sub (V := V0 m d)) $$ [Hb Hheld]
  · isplitl [Hb]; · iexact Hb
    iexact Hheld
  iintro ⟨Hb, Hheld⟩
  ihave Hh := (Entails.of_eq (held1_eq m d)) $$ Hheld
  icases Hh with ⟨Ha, Hx, Ho, Hr⟩
  ihave Hx' := (x_split d (X0 m d)).1 $$ Hx
  icases Hx' with ⟨Hxr, Hxt⟩
  ihave Ho' := (Entails.of_eq (o_split (F := F) d (m (oLoc d)))) $$ Ho
  -- the call
  rw [wp_ret]; imodintro
  iapply ((K (F := F)).wp_run (D (F := F)) 𝒱 (EH := EH) (P := P m) κ d 0) $$ [Hst Hxt Ho' Hxr Ha Hr Hb]
  isplitr; · iexact Hctx
  isplitl [Hst]; · iexact Hst
  isplitl [Hxt Ho']
  · rw [st0_eq]
    isplitl [Hxt]; · iexact Hxt
    iexact Ho'
  iintro ⟨Hst, Hdn⟩
  ihave Hdn' := (Entails.of_eq (dn0_eq m d)) $$ Hdn
  icases Hdn' with ⟨Hxt, Ho'⟩
  ihave Hx := (x_split d (X0 m d)).2 $$ [Hxr Hxt]
  · isplitl [Hxr]; · iexact Hxr
    iexact Hxt
  ihave Ho := (Entails.of_eq (o_split (F := F) d (GFb d (X0 m d))).symm) $$ Ho'
  -- the last reshape
  iapply (wp_hlo_within 𝒱 (SparseCore.T d) none Set.univ (op := op2) (S := S4) h2sub (V := V2 m d)) $$ [Hb Ha Hx Ho Hr]
  · isplitl [Hb]; · iexact Hb
    iapply (Entails.of_eq (heldV2_eq m d).symm)
    isplitl [Ha]; · iexact Ha
    isplitl [Hx]; · iexact Hx
    isplitl [Ho]; · iexact Ho
    iexact Hr
  iintro ⟨Hb, Hheld⟩
  ihave Hh := (Entails.of_eq (held2_eq m d)) $$ Hheld
  icases Hh with ⟨Ha, -, -, Hr⟩
  rw [wp_ret]; imodintro; imodintro
  isplitl [Hst]; · iexact Hst
  isplitl [Ha]; · iexact Ha
  iexact Hr

def fq (d : Dev nD) (s' : Phys nD τ sig (Elt F)) : Prop := s'.mem.mem (aLoc d) = m (aLoc d) ∧ s'.mem.mem (rLoc d) = RES m d

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := RES m d)) $$ [HSI Hr]
  · isplitl [HSI] <;> iassumption
  icases H with %h2
  ipureintro; exact ⟨funext fun i => h1 i (Finset.mem_univ i), funext fun i => h2 i (Finset.mem_univ i)⟩

/-! ## The program's run -/

/-- The result is the mask selection of `x`, and `x` is unchanged. -/
def QC : PUnit × MemSt nD τ sig (Elt F) → Prop := fun r => ∀ c : Dev nD,
  r.2.mem (rLoc c) = Cert.Spec.G (α := Elt F .f32) (m (aLoc c)) ∧ r.2.mem (aLoc c) = m (aLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.trans (RES_eq m c), (h c).1⟩)

end Cert.Proof.KernelIdeal

end
-- ==== Proof.RefRun.lean ====
/-
  The reference program's run, and its result as a function of the argument.

  The program computes eight row positions and eight column positions as small integer arrays (two literal
  tables, each passed through a "wrap a negative index" step whose condition is constantly false), lays them
  side by side as an 8 x 2 array of start indices, and gathers, for each of the eight start indices, the whole
  2048 x 2048 slab of the argument at that (row, column). Read at an index (s, r, k) the result is the argument
  at (row s, column s, r, k): the rows are 0,0,0,0,1,1,1,1 and the columns 0,1,2,3,0,1,2,3, that is s / 4 and
  s % 4, and the clamping of a start index into the argument's extents leaves them as they are.
-/
import proofs.«211868_g61933428409095_cont_9to1c4b_524_16_alg».proof.Proof.Gen.ReferenceIdeal
import proofs.«211868_g61933428409095_cont_9to1c4b_524_16_alg».proof.Proof.Spec
import Idealize.ShloMosaic.Lib.StableHlo.Run
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

section Run
variable {F : FTy → Type} [FloatOps F]

/-- The gather's dimension numbers. -/
abbrev gd : GatherDims S2x7x2048x2048 S8x2 S8x2048x2048 := gather_S2x7x2048x2048_S8x2_S8x2048x2048_12_01_n_n_01_1_1120482048

/-- The eight row positions: the first literal table after its wrap step. -/
abbrev rowIdx : IVec S8 32 :=
  select (constantI S8 1 0#1) (addi (fun i => lit0 (S8.rowMajor i)) (broadcastInDim S8 ![] bcast_S_S8 (constantI S_ 32 2#32))) (fun i => lit0 (S8.rowMajor i))
/-- The eight column positions: the second literal table after its wrap step. -/
abbrev colIdx : IVec S8 32 :=
  select (constantI S8 1 0#1) (addi (fun i => lit1 (S8.rowMajor i)) (broadcastInDim S8 ![] bcast_S_S8 (constantI S_ 32 7#32))) (fun i => lit1 (S8.rowMajor i))
/-- The 8 x 2 array of start indices: the row positions beside the column positions. -/
abbrev startIdx : IVec S8x2 32 :=
  concatenate S8x2 1 [⟨S8x1, broadcastInDim S8x1 ![0] bcast_S8_S8x1_0 rowIdx⟩, ⟨S8x1, broadcastInDim S8x1 ![0] bcast_S8_S8x1_0 colIdx⟩] concatenates_S8x1_S8x1_S8x2_d1

/-- @main's 16 operations, in order. -/
abbrev ops : List (HloOp τ sig (Elt F)) :=
  [ nullary main_c (fun i => lit0 (S8.rowMajor i)),
    nullary main_c_0 (constantI S8 1 0#1),
    nullary main_c_1 (fun i => lit1 (S8.rowMajor i)),
    nullary main_c_2 (constantI S8 1 0#1),
    nullary main_c_3 (constantI S_ 32 2#32),
    unary main_c_3 main_v0 (broadcastInDim S8 ![] bcast_S_S8 : (⟨S_, .i32⟩ : BufTy).Contents (Elt F) → (⟨S8, .i32⟩ : BufTy).Contents (Elt F)),
    binary main_c main_v0 main_v1 (addi : (⟨S8, .i32⟩ : BufTy).Contents (Elt F) → (⟨S8, .i32⟩ : BufTy).Contents (Elt F) → (⟨S8, .i32⟩ : BufTy).Contents (Elt F)),
    ternary main_c_0 main_v1 main_c main_v2 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    nullary main_c_4 (constantI S_ 32 7#32),
    unary main_c_4 main_v3 (broadcastInDim S8 ![] bcast_S_S8 : (⟨S_, .i32⟩ : BufTy).Contents (Elt F) → (⟨S8, .i32⟩ : BufTy).Contents (Elt F)),
    binary main_c_1 main_v3 main_v4 (addi : (⟨S8, .i32⟩ : BufTy).Contents (Elt F) → (⟨S8, .i32⟩ : BufTy).Contents (Elt F) → (⟨S8, .i32⟩ : BufTy).Contents (Elt F)),
    ternary main_c_2 main_v4 main_c_1 main_v5 (select : (⟨S8, .i1⟩ : BufTy).Contents (Elt F) → (⟨S8, .i32⟩ : BufTy).Contents (Elt F) → (⟨S8, .i32⟩ : BufTy).Contents (Elt F) → (⟨S8, .i32⟩ : BufTy).Contents (Elt F)),
    unary main_v2 main_v6 (broadcastInDim S8x1 ![0] bcast_S8_S8x1_0 : (⟨S8, .i32⟩ : BufTy).Contents (Elt F) → (⟨S8x1, .i32⟩ : BufTy).Contents (Elt F)),
    unary main_v5 main_v7 (broadcastInDim S8x1 ![0] bcast_S8_S8x1_0 : (⟨S8, .i32⟩ : BufTy).Contents (Elt F) → (⟨S8x1, .i32⟩ : BufTy).Contents (Elt F)),
    binary main_v6 main_v7 main_v8 ((fun a b => concatenate S8x2 1 [⟨S8x1, a⟩, ⟨S8x1, b⟩] concatenates_S8x1_S8x1_S8x2_d1) : (⟨S8x1, .i32⟩ : BufTy).Contents (Elt F) → (⟨S8x1, .i32⟩ : BufTy).Contents (Elt F) → (⟨S8x2, .i32⟩ : BufTy).Contents (Elt F)),
    binary main_arg0 main_v8 main_v9 ((fun x i => Host.gather gd x i) : (⟨S2x7x2048x2048, .f32⟩ : BufTy).Contents (Elt F) → (⟨S8x2, .i32⟩ : BufTy).Contents (Elt F) → (⟨S8x2048x2048, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub ..⟩

/-- On every device, from any memory with zero counters: every weakly fair execution of @main terminates with
    the result the gather of the argument at the start indices, and the argument unchanged. -/
theorem run_raw (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = Host.gather gd (m ((c.tc : Thread nD τ).loc main_arg0)) startIdx
      ∧ r.2.mem ((c.tc : Thread nD τ).loc main_arg0) = m ((c.tc : Thread nD τ).loc main_arg0) :=
  (θ_run defs _ _).mono (fun _ h c => ⟨(h c main_v9).trans (by after_results; rfl),
      (h c main_arg0).trans (by after_results)⟩)
    (run_seq scopedRefs_eq scopedSems_eq defs main (fun _ => ops) main_eq (fun _ => ops_sub) m ρ)

end Run

section Value
variable {α : Type}

/-- The gather's dimension numbers with their lists spelled out, over any proof of their conditions. -/
abbrev gdL (wf : GatherDims.WF S2x7x2048x2048 S8x2 S8x2048x2048 [1, 2] [0, 1] [] [0, 1] [] 1 ![1, 1, 2048, 2048]) :
    GatherDims S2x7x2048x2048 S8x2 S8x2048x2048 where
  offsetDims := [1, 2]
  collapsedSliceDims := [0, 1]
  operandBatchingDims := []
  startIndicesBatchingDims := []
  startIndexMap := [0, 1]
  indexVectorDim := 1
  sliceSizes := ![1, 1, 2048, 2048]
  wf := wf

theorem gd_eq : gd = gdL gather_S2x7x2048x2048_S8x2_S8x2048x2048_12_01_n_n_01_1_1120482048_wf := rfl

/-- THE GATHER READ AT (s, r, k): the argument at the start index of slab s, its two components read signed and
    clamped into the argument's first two extents, and at (r, k) on the two axes the slice keeps whole. -/
theorem gather_apply {w : Nat} (wf) (x : S2x7x2048x2048.Idx → α) (idx : IVec S8x2 w) (s : Fin 8) (r k : Fin 2048) :
    Host.gather (gdL wf) x idx (ix3 s r k)
      = x (ix4 (⟨min (idx (ix2 s (0 : Fin 2))).toInt.toNat 1, by omega⟩ : Fin 2)
            (⟨min (idx (ix2 s (1 : Fin 2))).toInt.toNat 6, by omega⟩ : Fin 7) r k) := by
  unfold Host.gather
  congr 1
  funext a
  refine Fin.ext ?_
  match a with
  | ⟨0, _⟩ =>
    show (gdL wf).start (ix3 s r k) idx 0 + (gdL wf).batchCoord (ix3 s r k) 0 + (gdL wf).offCoord (ix3 s r k) 0 = _
    rw [GatherDims.batchCoord_eq_zero _ _ _ List.not_mem_nil,
      GatherDims.offCoord_eq_zero _ _ _ (fun h => ((GatherDims.mem_sKept _ _).mp h).1 (show _ ∈ ([0, 1] : List (Fin 4)) by decide))]
    simp only [Nat.add_zero]
    unfold GatherDims.start
    rw [dif_pos (show (0 : Fin 4) ∈ ([0, 1] : List (Fin 4)) by decide)]
    have hsi : (gdL wf).siIdx (ix3 s r k) ⟨List.idxOf (0 : Fin 4) (gdL wf).startIndexMap,
        List.idxOf_lt_length_iff.2 (show _ ∈ ([0, 1] : List (Fin 4)) by decide)⟩ = ix2 s (0 : Fin 2) := by
      funext b; refine Fin.ext ?_
      match b with
      | ⟨0, _⟩ => rfl
      | ⟨1, _⟩ => rfl
    rw [hsi]
    rfl
  | ⟨1, _⟩ =>
    show (gdL wf).start (ix3 s r k) idx 1 + (gdL wf).batchCoord (ix3 s r k) 1 + (gdL wf).offCoord (ix3 s r k) 1 = _
    rw [GatherDims.batchCoord_eq_zero _ _ _ List.not_mem_nil,
      GatherDims.offCoord_eq_zero _ _ _ (fun h => ((GatherDims.mem_sKept _ _).mp h).1 (show _ ∈ ([0, 1] : List (Fin 4)) by decide))]
    simp only [Nat.add_zero]
    unfold GatherDims.start
    rw [dif_pos (show (1 : Fin 4) ∈ ([0, 1] : List (Fin 4)) by decide)]
    have hsi : (gdL wf).siIdx (ix3 s r k) ⟨List.idxOf (1 : Fin 4) (gdL wf).startIndexMap,
        List.idxOf_lt_length_iff.2 (show _ ∈ ([0, 1] : List (Fin 4)) by decide)⟩ = ix2 s (1 : Fin 2) := by
      funext b; refine Fin.ext ?_
      match b with
      | ⟨0, _⟩ => rfl
      | ⟨1, _⟩ => rfl
    rw [hsi]
    rfl
  | ⟨2, _⟩ =>
    show (gdL wf).start (ix3 s r k) idx 2 + (gdL wf).batchCoord (ix3 s r k) 2 + (gdL wf).offCoord (ix3 s r k) 2 = _
    rw [GatherDims.batchCoord_eq_zero _ _ _ List.not_mem_nil]
    unfold GatherDims.start
    rw [dif_neg (show (2 : Fin 4) ∉ ([0, 1] : List (Fin 4)) by decide)]
    unfold GatherDims.offCoord
    rw [dif_pos (show (2 : Fin 4) ∈ S2x7x2048x2048.kept ([0, 1] ++ []) by decide)]
    simp only [Nat.add_zero, Nat.zero_add]
    rfl
  | ⟨3, _⟩ =>
    show (gdL wf).start (ix3 s r k) idx 3 + (gdL wf).batchCoord (ix3 s r k) 3 + (gdL wf).offCoord (ix3 s r k) 3 = _
    rw [GatherDims.batchCoord_eq_zero _ _ _ List.not_mem_nil]
    unfold GatherDims.start
    rw [dif_neg (show (3 : Fin 4) ∉ ([0, 1] : List (Fin 4)) by decide)]
    unfold GatherDims.offCoord
    rw [dif_pos (show (3 : Fin 4) ∈ S2x7x2048x2048.kept ([0, 1] ++ []) by decide)]
    simp only [Nat.add_zero, Nat.zero_add]
    rfl

end Value

section StartIndices

/-- Row position s is entry s of the first literal table: the wrap step's condition is false everywhere, and the
    row-major position of a rank-1 index is its coordinate. -/
theorem rowIdx_apply (s : Fin 8) : rowIdx (ix1 s) = lit0 s := by
  show Scalar.select 0#1 _ (lit0 (S8.rowMajor (ix1 s))) = _
  rw [select_zero]
  exact congrArg lit0 (Fin.ext (Shape.rowMajor_val_one (ix1 s)))

/-- Column position s is entry s of the second literal table. -/
theorem colIdx_apply (s : Fin 8) : colIdx (ix1 s) = lit1 s := by
  show Scalar.select 0#1 _ (lit1 (S8.rowMajor (ix1 s))) = _
  rw [select_zero]
  exact congrArg lit1 (Fin.ext (Shape.rowMajor_val_one (ix1 s)))

/-- Component 0 of start index s is row position s: column 0 of the 8 x 2 array falls in the first piece. -/
theorem startIdx_row (s : Fin 8) : startIdx (ix2 s (0 : Fin 2)) = lit0 s :=
  (concatenate_pair_apply_left (1 : Fin S8x2.rank) _ _ concatenates_S8x1_S8x1_S8x2_d1 (ix2 s (0 : Fin 2)) rfl (ix2 s (0 : Fin 1))
      (fun b => by match b with | ⟨0, _⟩ => rfl | ⟨1, _⟩ => rfl)).trans
    ((broadcastInDim_apply _ _ _ (ix2 s (0 : Fin 1)) (ix1 s) (fun a => by match a with | ⟨0, _⟩ => rfl)).trans (rowIdx_apply s))

/-- Component 1 of start index s is column position s: column 1 of the 8 x 2 array is column 0 of the second piece. -/
theorem startIdx_col (s : Fin 8) : startIdx (ix2 s (1 : Fin 2)) = lit1 s :=
  (concatenate_pair_apply_right (1 : Fin S8x2.rank) _ _ concatenates_S8x1_S8x1_S8x2_d1 (ix2 s (1 : Fin 2)) rfl rfl (ix2 s (0 : Fin 1))
      (fun b hb => by
        match b, hb with
        | ⟨0, _⟩, _ => rfl
        | ⟨1, _⟩, hb => exact absurd rfl hb)
      rfl).trans
    ((broadcastInDim_apply _ _ _ (ix2 s (0 : Fin 1)) (ix1 s) (fun a => by match a with | ⟨0, _⟩ => rfl)).trans (colIdx_apply s))

/-- The rows are 0,0,0,0,1,1,1,1: read signed and clamped into [0, 1], entry s is s / 4. -/
theorem row_clamped (s : Fin 8) : min (lit0 s).toInt.toNat 1 = s.val / 4 := by revert s; decide
/-- The columns are 0,1,2,3,0,1,2,3: read signed and clamped into [0, 6], entry s is s % 4. -/
theorem col_clamped (s : Fin 8) : min (lit1 s).toInt.toNat 6 = s.val % 4 := by revert s; decide

end StartIndices

section Result
variable {α : Type}

/-- THE VALUE: the gather of any argument array at the program's start indices is the specification's function of it. -/
theorem gather_startIdx (x : S2x7x2048x2048.Idx → α) : Host.gather gd x startIdx = Cert.Spec.G x := by
  funext j
  obtain ⟨s, r, k, rfl⟩ : ∃ s r k, j = ix3 s r k := ⟨j 0, j 1, j 2, eq_ix3 j⟩
  rw [gd_eq, gather_apply, Cert.Spec.G_apply]
  have e0 : (⟨min (startIdx (ix2 s (0 : Fin 2))).toInt.toNat 1, by omega⟩ : Fin 2) = Cert.Spec.srcRow s :=
    Fin.ext (show min (startIdx (ix2 s (0 : Fin 2))).toInt.toNat 1 = s.val / 4 by rw [startIdx_row]; exact row_clamped s)
  have e1 : (⟨min (startIdx (ix2 s (1 : Fin 2))).toInt.toNat 6, by omega⟩ : Fin 7) = Cert.Spec.srcCol s :=
    Fin.ext (show min (startIdx (ix2 s (1 : Fin 2))).toInt.toNat 6 = s.val % 4 by rw [startIdx_col]; exact col_clamped s)
  rw [e0, e1]

end Result

section Final
variable {F : FTy → Type} [FloatOps F]

/-- On every device, for any float values, from any memory with zero counters: every weakly fair execution of @main
    terminates with the result the specification's function of the argument, and the argument unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9) = Cert.Spec.G (m ((c.tc : Thread nD τ).loc main_arg0))
      ∧ r.2.mem ((c.tc : Thread nD τ).loc main_arg0) = m ((c.tc : Thread nD τ).loc main_arg0) :=
  (θ_run defs _ _).mono (fun _ h c => ⟨(h c).1.trans (gather_startIdx _), (h c).2⟩) (run_raw m ρ)

end Final

/-- The same at the ideal instance (a float an extended real). -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v9) = Cert.Spec.G (m ((c.tc : Thread nD τ).loc main_arg0))
      ∧ r.2.mem ((c.tc : Thread nD τ).loc main_arg0) = m ((c.tc : Thread nD τ).loc main_arg0) :=
  run_gen m ρ

end Cert.ReferenceIdeal.RefValue

end
-- ==== Proof.lean ====
/-
  The proof of `Cert.Claim` for the boolean-mask selection `x[mask]` with the constant mask of shape [2, 7] that
  keeps columns 0..3 of both rows: the result is the eight slabs (0,0) (0,1) (0,2) (0,3) (1,0) (1,1) (1,2) (1,3) of
  `x : f32[2, 7, 2048, 2048]`, in that order.

  The kernel is a pure copy. It views `x` as 28672 rows and the result as 16384 rows of 2048 words; 32 workers (the
  16 vector subcores of each of the 2 SparseCores) each move 512 consecutive result rows from the 512 source rows that
  the mask assigns them, sixteen rows at a time through a ring of three slots of the worker's own vector memory. Per
  slot there is one fetch semaphore and one write-back semaphore, at most one copy is in flight on each, and a slot is
  refilled only after its write-back has been waited for: every wait returns and no copy races an access.

  The three frames: the kernel's two instances from one run written generically in the float instance (the tasks by
  symbolic execution, the launch by the SparseCore launch theorem), the reference's from its run written by hand.
  `preserves`: the ideal pass rewrote nothing. `algebraic`: both runs end with the result at ONE function of `x`
  (`Cert.Spec.G`): the kernel's chunks tile the flat result, each chunk holds the source rows the flat specification
  names, and the two reshapes around it turn the flat specification into the slab selection; the reference's
  `gather` at its constant start indices reads the same slabs. No arithmetic on the elements occurs, so the
  precondition is never opened.
-/
import proofs.«211868_g61933428409095_cont_9to1c4b_524_16_alg».proof.Defs
import proofs.«211868_g61933428409095_cont_9to1c4b_524_16_alg».proof.Proof.Gen.Kernel
import proofs.«211868_g61933428409095_cont_9to1c4b_524_16_alg».proof.Proof.Gen.Kernel.Skeleton
import proofs.«211868_g61933428409095_cont_9to1c4b_524_16_alg».proof.Proof.Gen.KernelIdeal
import proofs.«211868_g61933428409095_cont_9to1c4b_524_16_alg».proof.Proof.Gen.KernelIdeal.Skeleton
import proofs.«211868_g61933428409095_cont_9to1c4b_524_16_alg».proof.Proof.Gen.ReferenceIdeal
import proofs.«211868_g61933428409095_cont_9to1c4b_524_16_alg».proof.Proof.Gen.Pre_finite_inputs
import proofs.«211868_g61933428409095_cont_9to1c4b_524_16_alg».proof.Proof.KernelLaunch
import proofs.«211868_g61933428409095_cont_9to1c4b_524_16_alg».proof.Proof.KernelIdealLaunch
import proofs.«211868_g61933428409095_cont_9to1c4b_524_16_alg».proof.Proof.RefRun
import Idealize.ShloMosaic.Adequacy
import Idealize.ShloMosaic.Init

noncomputable section

namespace Cert.Proof

open Idealize.ShloMosaic Idealize.SL.Sem

/-- The word-level kernel runs to the end and leaves `x` unchanged: its run with the result's value dropped. -/
theorem frame_k : Cert.frame_Kernel := fun m ρ _ =>
  (θ_run Cert.Kernel.defs _ _).mono (fun _ h c => (h c).2) (Cert.Proof.Kernel.run_main (F := Bits) m ρ)

/-- The same for the idealized kernel. -/
theorem frame_ki : Cert.frame_KernelIdeal := fun m ρ _ =>
  (θ_run Cert.KernelIdeal.defs _ _).mono (fun _ h c => (h c).2) (Cert.Proof.KernelIdeal.run_main (F := Ideal) m ρ)

/-- The reference runs to the end and leaves `x` unchanged. -/
theorem frame_ri : Cert.frame_ReferenceIdeal := fun m ρ _ =>
  (θ_run Cert.ReferenceIdeal.defs _ _).mono (fun _ h c => (h c).2) (Cert.ReferenceIdeal.RefValue.run m ρ)

/-- Both programs end with the result at the mask selection of the (shared) argument. -/
theorem algebraic : Cert.algebraic_KernelIdeal_ReferenceIdeal := by
  intro m ρ m' ρ' _ hagree
  refine ⟨fun c => Cert.Spec.G (α := Elt Ideal .f32) (m ((c.tc : Thread Cert.KernelIdeal.nD Cert.KernelIdeal.τ).loc Cert.KernelIdeal.main_arg0)), ?_, ?_⟩
  · exact (θ_run Cert.KernelIdeal.defs _ _).mono (fun _ h c => h c) (Cert.Proof.KernelIdeal.run_main (F := Ideal) m ρ)
  · refine (θ_run Cert.ReferenceIdeal.defs _ _).mono (fun _ h c => ⟨(h c).1.trans ?_, (h c).2⟩) (Cert.ReferenceIdeal.RefValue.run m' ρ')
    rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
